-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v52)) (v1 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_v53) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_v125) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x600000 : Shape := ⟨2, ![2, 600000]⟩
abbrev S100000x128 : Shape := ⟨2, ![100000, 128]⟩
abbrev S200000x128 : Shape := ⟨2, ![200000, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S200000x128 : S_.BroadcastsInDim S200000x128 (![] : Fin 0 → Fin S200000x128.rank)
  reducesTo_S200000x128_S_d0_1 : S200000x128.ReducesTo [0, 1] S_

variable [Facts]

def fn {F : FTy → Type} [FloatOps F] (main_arg0 : IVec S2x600000 32) (main_arg1 : FVec F S100000x128 .f32) (main_arg2 : FVec F S200000x128 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S200000x128 .f32 := Host.absf main_arg2
  let main_cst_0 : FVec F S_ .f32 := constant S_ .f32 0x7F800000#32
  let main_v5 : FVec F S200000x128 .f32 := broadcastInDim S200000x128 ![] bcast_S_S200000x128 main_cst_0
  let main_v6 : IVec S200000x128 1 := cmpf .olt main_v4 main_v5
  let main_c_1 : IVec S_ 1 := constantI S_ 1 1#1
  let main_v7 : IVec S_ 1 := (fun x v => Host.reduce IntOp.andi x v reducesTo_S200000x128_S_d0_1 h_S_) main_v6 main_c_1
  let main_v8 : IVec S_ 1 := andi main_v3 main_v7
  main_v8
-- ==== Kernel.lean ====
abbrev S2x600000 : Shape := ⟨2, ![2, 600000]⟩
abbrev S100000x128 : Shape := ⟨2, ![100000, 128]⟩
abbrev S200000x128 : Shape := ⟨2, ![200000, 128]⟩
abbrev S1x600000 : Shape := ⟨2, ![1, 600000]⟩
abbrev S600000 : Shape := ⟨1, ![600000]⟩
abbrev S300000x128 : Shape := ⟨2, ![300000, 128]⟩
abbrev S_ : Shape := ⟨0, ![]⟩
abbrev S300000 : Shape := ⟨1, ![300000]⟩
abbrev S600000x1 : Shape := ⟨2, ![600000, 1]⟩
abbrev S300000x1 : Shape := ⟨2, ![300000, 1]⟩
abbrev S6000x128 : Shape := ⟨2, ![6000, 128]⟩
abbrev S6000x1 : Shape := ⟨2, ![6000, 1]⟩
abbrev S600000x128 : Shape := ⟨2, ![600000, 128]⟩

abbrev nBuf : Space → Nat
  | .hbm => 76
  | .vmem => 48
  | .smem => 0
  | _ => 0

abbrev bufTy : (tb : Table) → Fin (tcTables nBuf tb) → BufTy
  | .hbm, ⟨0, _⟩ => ⟨S2x600000, .i32⟩
  | .hbm, ⟨1, _⟩ => ⟨S100000x128, .f32⟩
  | .hbm, ⟨2, _⟩ => ⟨S200000x128, .f32⟩
  | .hbm, ⟨3, _⟩ => ⟨S1x600000, .i32⟩
  | .hbm, ⟨4, _⟩ => ⟨S600000, .i32⟩
  | .hbm, ⟨5, _⟩ => ⟨S1x600000, .i32⟩
  | .hbm, ⟨6, _⟩ => ⟨S600000, .i32⟩
  | .hbm, ⟨7, _⟩ => ⟨S300000x128, .f32⟩
  | .hbm, ⟨8, _⟩ => ⟨S_, .f32⟩
  | .hbm, ⟨9, _⟩ => ⟨S600000, .f32⟩
  | .hbm, ⟨10, _⟩ => ⟨S_, .f32⟩
  | .hbm, ⟨11, _⟩ => ⟨S300000, .f32⟩
  | .hbm, ⟨12, _⟩ => ⟨S600000x1, .i32⟩
  | .hbm, ⟨13, _⟩ => ⟨S300000, .f32⟩
  | .hbm, ⟨14, _⟩ => ⟨S_, .f32⟩
  | .hbm, ⟨15, _⟩ => ⟨S300000, .f32⟩
  | .hbm, ⟨16, _⟩ => ⟨S300000, .i1⟩
  | .hbm, ⟨17, _⟩ => ⟨S_, .f32⟩
  | .hbm, ⟨18, _⟩ => ⟨S300000, .f32⟩
  | .hbm, ⟨19, _⟩ => ⟨S300000, .f32⟩
  | .hbm, ⟨20, _⟩ => ⟨S300000, .f32⟩
  | .hbm, ⟨21, _⟩ => ⟨S_, .f32⟩
  | .hbm, ⟨22, _⟩ => ⟨S_, .f32⟩
  | .hbm, ⟨23, _⟩ => ⟨S300000, .f32⟩
  | .hbm, ⟨24, _⟩ => ⟨S300000, .f32⟩
  | .hbm, ⟨25, _⟩ => ⟨S300000x1, .f32⟩
  | .hbm, ⟨26, _⟩ => ⟨S300000x128, .f32⟩
  | .hbm, ⟨27, _⟩ => ⟨S_, .i32⟩
  | .hbm, ⟨28, _⟩ => ⟨S600000, .i32⟩
  | .hbm, ⟨29, _⟩ => ⟨S600000, .i1⟩
  | .hbm, ⟨30, _⟩ => ⟨S_, .i32⟩
  | .hbm, ⟨31, _⟩ => ⟨S600000, .i32⟩
  | .hbm, ⟨32, _⟩ => ⟨S600000, .i32⟩
  | .hbm, ⟨33, _⟩ => ⟨S600000, .i32⟩
  | .hbm, ⟨34, _⟩ => ⟨S600000x1, .i32⟩
  | .hbm, ⟨35, _⟩ => ⟨S600000x128, .f32⟩
  | .hbm, ⟨36, _⟩ => ⟨S_, .f32⟩
  | .hbm, ⟨37, _⟩ => ⟨S300000x128, .f32⟩
  | .hbm, ⟨38, _⟩ => ⟨S600000x1, .i32⟩
  | .hbm, ⟨39, _⟩ => ⟨S300000x128, .f32⟩
  | .hbm, ⟨40, _⟩ => ⟨S300000x128, .f32⟩
  | .hbm, ⟨41, _⟩ => ⟨S300000x128, .f32⟩
  | .hbm, ⟨42, _⟩ => ⟨S300000x128, .f32⟩
  | .hbm, ⟨43, _⟩ => ⟨S_, .i32⟩
  | .hbm, ⟨44, _⟩ => ⟨S600000, .i32⟩
  | .hbm, ⟨45, _⟩ => ⟨S600000, .i1⟩
  | .hbm, ⟨46, _⟩ => ⟨S_, .i32⟩
  | .hbm, ⟨47, _⟩ => ⟨S600000, .i32⟩
  | .hbm, ⟨48, _⟩ => ⟨S600000, .i32⟩
  | .hbm, ⟨49, _⟩ => ⟨S600000, .i32⟩
  | .hbm, ⟨50, _⟩ => ⟨S600000x1, .i32⟩
  | .hbm, ⟨51, _⟩ => ⟨S600000x128, .f32⟩
  | .hbm, ⟨52, _⟩ => ⟨S_, .f32⟩
  | .hbm, ⟨53, _⟩ => ⟨S300000x128, .f32⟩
  | .hbm, ⟨54, _⟩ => ⟨S600000x1, .i32⟩
  | .hbm, ⟨55, _⟩ => ⟨S300000x128, .f32⟩
  | .hbm, ⟨56, _⟩ => ⟨S300000x128, .f32⟩
  | .hbm, ⟨57, _⟩ => ⟨S300000x128, .f32⟩
  | .hbm, ⟨58, _⟩ => ⟨S300000x128, .f32⟩
  | .hbm, ⟨59, _⟩ => ⟨S_, .i32⟩
  | .hbm, ⟨60, _⟩ => ⟨S600000, .i32⟩
  | .hbm, ⟨61, _⟩ => ⟨S600000, .i1⟩
  | .hbm, ⟨62, _⟩ => ⟨S_, .i32⟩
  | .hbm, ⟨63, _⟩ => ⟨S600000, .i32⟩
  | .hbm, ⟨64, _⟩ => ⟨S600000, .i32⟩
  | .hbm, ⟨65, _⟩ => ⟨S600000, .i32⟩
  | .hbm, ⟨66, _⟩ => ⟨S600000x1, .i32⟩
  | .hbm, ⟨67, _⟩ => ⟨S600000x128, .f32⟩
  | .hbm, ⟨68, _⟩ => ⟨S_, .f32⟩
  | .hbm, ⟨69, _⟩ => ⟨S300000x128, .f32⟩
  | .hbm, ⟨70, _⟩ => ⟨S600000x1, .i32⟩
  | .hbm, ⟨71, _⟩ => ⟨S300000x128, .f32⟩
  | .hbm, ⟨72, _⟩ => ⟨S300000x128, .f32⟩
  | .hbm, ⟨73, _⟩ => ⟨S300000x128, .f32⟩
  | .hbm, ⟨74, _⟩ => ⟨S100000x128, .f32⟩
  | .hbm, ⟨75, _⟩ => ⟨S200000x128, .f32⟩
  | .local _ .vmem, ⟨0, _⟩ => ⟨S6000x128, .f32⟩
  | .local _ .vmem, ⟨1, _⟩ => ⟨S6000x128, .f32⟩
  | .local _ .vmem, ⟨2, _⟩ => ⟨S6000x1, .f32⟩
  | .local _ .vmem, ⟨3, _⟩ => ⟨S6000x1, .f32⟩
  | .local _ .vmem, ⟨4, _⟩ => ⟨S6000x128, .f32⟩
  | .local _ .vmem, ⟨5, _⟩ => ⟨S6000x128, .f32⟩
  | .local _ .vmem, ⟨6, _⟩ => ⟨S6000x128, .f32⟩
  | .local _ .vmem, ⟨7, _⟩ => ⟨S6000x128, .f32⟩
  | .local _ .vmem, ⟨8, _⟩ => ⟨S6000x128, .f32⟩
  | .local _ .vmem, ⟨9, _⟩ => ⟨S6000x128, .f32⟩
  | .local _ .vmem, ⟨10, _⟩ => ⟨S6000x1, .f32⟩
  | .local _ .vmem, ⟨11, _⟩ => ⟨S6000x1, .f32⟩
  | .local _ .vmem, ⟨12, _⟩ => ⟨S6000x128, .f32⟩
  | .local _ .vmem, ⟨13, _⟩ => ⟨S6000x128, .f32⟩
  | .local _ .vmem, ⟨14, _⟩ => ⟨S6000x128, .f32⟩
  | .local _ .vmem, ⟨15, _⟩ => ⟨S6000x128, .f32⟩
  | .local _ .vmem, ⟨16, _⟩ => ⟨S6000x128, .f32⟩
  | .local _ .vmem, ⟨17, _⟩ => ⟨S6000x128, .f32⟩
  | .local _ .vmem, ⟨18, _⟩ => ⟨S6000x1, .f32⟩
  | .local _ .vmem, ⟨19, _⟩ => ⟨S6000x1, .f32⟩
  | .local _ .vmem, ⟨20, _⟩ => ⟨S6000x128, .f32⟩
  | .local _ .vmem, ⟨21, _⟩ => ⟨S6000x128, .f32⟩
  | .local _ .vmem, ⟨22, _⟩ => ⟨S6000x128, .f32⟩
  | .local _ .vmem, ⟨23, _⟩ => ⟨S6000x128, .f32⟩
  | .local _ .vmem, ⟨24, _⟩ => ⟨S6000x128, .f32⟩
  | .local _ .vmem, ⟨25, _⟩ => ⟨S6000x128, .f32⟩
  | .local _ .vmem, ⟨26, _⟩ => ⟨S6000x1, .f32⟩
  | .local _ .vmem, ⟨27, _⟩ => ⟨S6000x1, .f32⟩
  | .local _ .vmem, ⟨28, _⟩ => ⟨S6000x128, .f32⟩
  | .local _ .vmem, ⟨29, _⟩ => ⟨S6000x128, .f32⟩
  | .local _ .vmem, ⟨30, _⟩ => ⟨S6000x128, .f32⟩
  | .local _ .vmem, ⟨31, _⟩ => ⟨S6000x128, .f32⟩
  | .local _ .vmem, ⟨32, _⟩ => ⟨S6000x128, .f32⟩
  | .local _ .vmem, ⟨33, _⟩ => ⟨S6000x128, .f32⟩
  | .local _ .vmem, ⟨34, _⟩ => ⟨S6000x1, .f32⟩
  | .local _ .vmem, ⟨35, _⟩ => ⟨S6000x1, .f32⟩
  | .local _ .vmem, ⟨36, _⟩ => ⟨S6000x128, .f32⟩
  | .local _ .vmem, ⟨37, _⟩ => ⟨S6000x128, .f32⟩
  | .local _ .vmem, ⟨38, _⟩ => ⟨S6000x128, .f32⟩
  | .local _ .vmem, ⟨39, _⟩ => ⟨S6000x128, .f32⟩
  | .local _ .vmem, ⟨40, _⟩ => ⟨S6000x128, .f32⟩
  | .local _ .vmem, ⟨41, _⟩ => ⟨S6000x128, .f32⟩
  | .local _ .vmem, ⟨42, _⟩ => ⟨S6000x1, .f32⟩
  | .local _ .vmem, ⟨43, _⟩ => ⟨S6000x1, .f32⟩
  | .local _ .vmem, ⟨44, _⟩ => ⟨S6000x128, .f32⟩
  | .local _ .vmem, ⟨45, _⟩ => ⟨S6000x128, .f32⟩
  | .local _ .vmem, ⟨46, _⟩ => ⟨S6000x128, .f32⟩
  | .local _ .vmem, ⟨47, _⟩ => ⟨S6000x128, .f32⟩
  | _, _ => ⟨S2x600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_c_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27_0 : Ref sig .tc := ⟨.hbm, 40, rfl⟩
abbrev main_v27_1 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_c_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39_0 : Ref sig .tc := ⟨.hbm, 56, rfl⟩
abbrev main_v39_1 : Ref sig .tc := ⟨.hbm, 57, rfl⟩
abbrev main_v40 : Ref sig .tc := ⟨.hbm, 58, rfl⟩
abbrev main_c_9 : Ref sig .tc := ⟨.hbm, 59, rfl⟩
abbrev main_v41 : Ref sig .tc := ⟨.hbm, 60, rfl⟩
abbrev main_v42 : Ref sig .tc := ⟨.hbm, 61, rfl⟩
abbrev main_c_10 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_11 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51_0 : Ref sig .tc := ⟨.hbm, 72, rfl⟩
abbrev main_v51_1 : Ref sig .tc := ⟨.hbm, 73, rfl⟩
abbrev main_v52 : Ref sig .tc := ⟨.hbm, 74, rfl⟩
abbrev main_v53 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg3_1 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg2_1 : Ref sig .tc := ⟨.vmem, 43, rfl⟩
abbrev cc5_stg3_0 : Ref sig .tc := ⟨.vmem, 44, rfl⟩
abbrev cc5_stg3_1 : Ref sig .tc := ⟨.vmem, 45, rfl⟩
abbrev cc5_stg4_0 : Ref sig .tc := ⟨.vmem, 46, rfl⟩
abbrev cc5_stg4_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem3_1 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem2_1 : DmaSem sig := 43
abbrev cc5_sem3_0 : DmaSem sig := 44
abbrev cc5_sem3_1 : DmaSem sig := 45
abbrev cc5_sem4_0 : DmaSem sig := 46
abbrev cc5_sem4_1 : DmaSem sig := 47

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S6000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S6000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S6000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S6000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S6000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S6000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S6000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S6000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S6000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S6000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S6000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S6000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S6000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S6000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S6000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S6000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S6000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S100000x128_S200000x128_S300000x128_d0 : Shape.Concatenates [S100000x128, S200000x128] S300000x128 0
  bcast_S_S600000 : S_.BroadcastsInDim S600000 (![] : Fin 0 → Fin S600000.rank)
  bcast_S_S300000 : S_.BroadcastsInDim S300000 (![] : Fin 0 → Fin S300000.rank)
  bcast_S600000_S600000x1_0 : S600000.BroadcastsInDim S600000x1 (![0] : Fin 1 → Fin S600000x1.rank)
  shapeCasts_S300000_S300000x1 : S300000.ShapeCasts S300000x1
  inb_S6000x1_S6000x1_0_0 : ∀ a, (![0, 0] : Fin 2 → Nat) a + S6000x1.size a ≤ S6000x1.size a
  h_S6000x1 : 0 < S6000x1.numel
  shapeCasts_S6000x1_S6000x1 : S6000x1.ShapeCasts S6000x1
  broadcasts_S6000x1_S6000x128 : S6000x1.Broadcasts S6000x128
  inb_S6000x128_S6000x128_0_0 : ∀ a, (![0, 0] : Fin 2 → Nat) a + S6000x128.size a ≤ S6000x128.size a
  h_S6000x128 : 0 < S6000x128.numel
  shapeCasts_S6000x128_S6000x128 : S6000x128.ShapeCasts S6000x128
  bcast_S_S300000x128 : S_.BroadcastsInDim S300000x128 (![] : Fin 0 → Fin S300000x128.rank)
  slices_S300000x128_S100000x128_0_0 : S300000x128.Slices ![0, 0] S100000x128
  slices_S300000x128_S200000x128_100000_0 : S300000x128.Slices ![100000, 0] S200000x128
  scatter_S300000_S600000x1_S600000_n_0_0_1_wf : ScatterDims.WF S300000 S600000x1 S600000 [] [0] [0] 1
  gather_S300000x128_S600000x1_S600000x128_1_0_n_n_0_1_1128_wf : GatherDims.WF S300000x128 S600000x1 S600000x128 [1] [0] [] [0] [] 1 ![1, 128]
  scatter_S300000x128_S600000x1_S600000x128_1_0_0_1_wf : ScatterDims.WF S300000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x128.size a ≤ S300000x128.size a
  hwx0_0 : ∀ i : grid0.Coords, EltTy.bits .f32 = 32 ∨ (Rect.block (s := S300000x128) S6000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6000x1.size a ≤ S300000x1.size a
  hwx0_1 : ∀ i : grid0.Coords, EltTy.bits .f32 = 32 ∨ (Rect.block (s := S300000x1) S6000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6000x128.size a ≤ S300000x128.size a
  hwx0_2 : ∀ i : grid0.Coords, EltTy.bits .f32 = 32 ∨ (Rect.block (s := S300000x128) S6000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x128.size a ≤ S300000x128.size a
  hwx1_0 : ∀ i : grid1.Coords, EltTy.bits .f32 = 32 ∨ (Rect.block (s := S300000x128) S6000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6000x128.size a ≤ S300000x128.size a
  hwx1_1 : ∀ i : grid1.Coords, EltTy.bits .f32 = 32 ∨ (Rect.block (s := S300000x128) S6000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6000x1.size a ≤ S300000x1.size a
  hwx1_2 : ∀ i : grid1.Coords, EltTy.bits .f32 = 32 ∨ (Rect.block (s := S300000x1) S6000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S6000x128.size a ≤ S300000x128.size a
  hwx1_3 : ∀ i : grid1.Coords, EltTy.bits .f32 = 32 ∨ (Rect.block (s := S300000x128) S6000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S6000x128.size a ≤ S300000x128.size a
  hwx1_4 : ∀ i : grid1.Coords, EltTy.bits .f32 = 32 ∨ (Rect.block (s := S300000x128) S6000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6000x128.size a ≤ S300000x128.size a
  hwx2_0 : ∀ i : grid2.Coords, EltTy.bits .f32 = 32 ∨ (Rect.block (s := S300000x128) S6000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6000x1.size a ≤ S300000x1.size a
  hwx2_1 : ∀ i : grid2.Coords, EltTy.bits .f32 = 32 ∨ (Rect.block (s := S300000x1) S6000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S6000x128.size a ≤ S300000x128.size a
  hwx2_2 : ∀ i : grid2.Coords, EltTy.bits .f32 = 32 ∨ (Rect.block (s := S300000x128) S6000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S6000x128.size a ≤ S300000x128.size a
  hwx3_0 : ∀ i : grid3.Coords, EltTy.bits .f32 = 32 ∨ (Rect.block (s := S300000x128) S6000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S6000x128.size a ≤ S300000x128.size a
  hwx3_1 : ∀ i : grid3.Coords, EltTy.bits .f32 = 32 ∨ (Rect.block (s := S300000x128) S6000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S6000x1.size a ≤ S300000x1.size a
  hwx3_2 : ∀ i : grid3.Coords, EltTy.bits .f32 = 32 ∨ (Rect.block (s := S300000x1) S6000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S6000x128.size a ≤ S300000x128.size a
  hwx3_3 : ∀ i : grid3.Coords, EltTy.bits .f32 = 32 ∨ (Rect.block (s := S300000x128) S6000x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S6000x128.size a ≤ S300000x128.size a
  hwx3_4 : ∀ i : grid3.Coords, EltTy.bits .f32 = 32 ∨ (Rect.block (s := S300000x128) S6000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S6000x128.size a ≤ S300000x128.size a
  hwx4_0 : ∀ i : grid4.Coords, EltTy.bits .f32 = 32 ∨ (Rect.block (s := S300000x128) S6000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S6000x1.size a ≤ S300000x1.size a
  hwx4_1 : ∀ i : grid4.Coords, EltTy.bits .f32 = 32 ∨ (Rect.block (s := S300000x1) S6000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S6000x128.size a ≤ S300000x128.size a
  hwx4_2 : ∀ i : grid4.Coords, EltTy.bits .f32 = 32 ∨ (Rect.block (s := S300000x128) S6000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S6000x128.size a ≤ S300000x128.size a
  hwx5_0 : ∀ i : grid5.Coords, EltTy.bits .f32 = 32 ∨ (Rect.block (s := S300000x128) S6000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S6000x128.size a ≤ S300000x128.size a
  hwx5_1 : ∀ i : grid5.Coords, EltTy.bits .f32 = 32 ∨ (Rect.block (s := S300000x128) S6000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S6000x1.size a ≤ S300000x1.size a
  hwx5_2 : ∀ i : grid5.Coords, EltTy.bits .f32 = 32 ∨ (Rect.block (s := S300000x1) S6000x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S6000x128.size a ≤ S300000x128.size a
  hwx5_3 : ∀ i : grid5.Coords, EltTy.bits .f32 = 32 ∨ (Rect.block (s := S300000x128) S6000x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S6000x128.size a ≤ S300000x128.size a
  hwx5_4 : ∀ i : grid5.Coords, EltTy.bits .f32 = 32 ∨ (Rect.block (s := S300000x128) S6000x128.size (cc5_transform_4 i) (hinb5_4 i)).WholeWords (EltTy.packing .f32)

variable [Facts₀]

def scatter_S300000_S600000x1_S600000_n_0_0_1 : ScatterDims S300000 S600000x1 S600000 where
  updateWindowDims := []
  insertedWindowDims := [0]
  scatterDimsToOperandDims := [0]
  indexVectorDim := 1
  wf := scatter_S300000_S600000x1_S600000_n_0_0_1_wf
def gather_S300000x128_S600000x1_S600000x128_1_0_n_n_0_1_1128 : GatherDims S300000x128 S600000x1 S600000x128 where
  offsetDims := [1]
  collapsedSliceDims := [0]
  operandBatchingDims := []
  startIndicesBatchingDims := []
  startIndexMap := [0]
  indexVectorDim := 1
  sliceSizes := ![1, 128]
  wf := gather_S300000x128_S600000x1_S600000x128_1_0_n_n_0_1_1128_wf
def scatter_S300000x128_S600000x1_S600000x128_1_0_0_1 : ScatterDims S300000x128 S600000x1 S600000x128 where
  updateWindowDims := [1]
  insertedWindowDims := [0]
  scatterDimsToOperandDims := [0]
  indexVectorDim := 1
  wf := scatter_S300000x128_S600000x1_S600000x128_1_0_0_1_wf

abbrev win0_0 : Pipeline.Window sig grid0 :=
  Pipeline.Window.ofSpec (Memref.whole main_v4) S6000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S6000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S6000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S6000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S6000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S6000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v27_0) S6000x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v27_1) S6000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v27_1) S6000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S6000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S6000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v27_0) S6000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v38) S6000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v15) S6000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v39_0) S6000x128.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v39_1) S6000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v39_1) S6000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v15) S6000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v40) S6000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v39_0) S6000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v50) S6000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v15) S6000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v51_0) S6000x128.size cc5_transform_3 reads5_3 true false 2 stage5_3 sem5_3
    hrank5 hreads5_3 hinb5_3 nbuf5_3 (Memref.isWhole_whole _) hwx5_3 hstage5_3

abbrev win5_4 : Pipeline.Window sig grid5 :=
  Pipeline.Window.ofSpec (Memref.whole main_v51_1) S6000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S2x600000 : Shape := ⟨2, ![2, 600000]⟩
abbrev S100000x128 : Shape := ⟨2, ![100000, 128]⟩
abbrev S200000x128 : Shape := ⟨2, ![200000, 128]⟩
abbrev S1x600000 : Shape := ⟨2, ![1, 600000]⟩
abbrev S600000 : Shape := ⟨1, ![600000]⟩
abbrev S300000x128 : Shape := ⟨2, ![300000, 128]⟩
abbrev S_ : Shape := ⟨0, ![]⟩
abbrev S300000 : Shape := ⟨1, ![300000]⟩
abbrev S600000x1 : Shape := ⟨2, ![600000, 1]⟩
abbrev S600000x128 : Shape := ⟨2, ![600000, 128]⟩

abbrev nBuf : Space → Nat
  | .hbm => 172
  | .vmem => 0
  | .smem => 0
  | _ => 0

abbrev hbmTy0_0 (i : Nat) : BufTy := match i % 128 with
  | 0 => ⟨S2x600000, .i32⟩
  | 1 => ⟨S100000x128, .f32⟩
  | 2 => ⟨S200000x128, .f32⟩
  | 3 => ⟨S1x600000, .i32⟩
  | 4 => ⟨S600000, .i32⟩
  | 5 => ⟨S1x600000, .i32⟩
  | 6 => ⟨S600000, .i32⟩
  | 7 => ⟨S300000x128, .f32⟩
  | 8 => ⟨S_, .f32⟩
  | 9 => ⟨S600000, .f32⟩
  | 10 => ⟨S_, .f32⟩
  | 11 => ⟨S300000, .f32⟩
  | 12 => ⟨S600000x1, .i32⟩
  | 13 => ⟨S300000, .f32⟩
  | 14 => ⟨S_, .f32⟩
  | 15 => ⟨S300000, .f32⟩
  | 16 => ⟨S300000, .i1⟩
  | 17 => ⟨S_, .f32⟩
  | 18 => ⟨S300000, .f32⟩
  | 19 => ⟨S300000, .f32⟩
  | 20 => ⟨S300000, .f32⟩
  | 21 => ⟨S_, .f32⟩
  | 22 => ⟨S_, .f32⟩
  | 23 => ⟨S300000, .f32⟩
  | 24 => ⟨S300000, .f32⟩
  | 25 => ⟨S_, .i32⟩
  | 26 => ⟨S600000, .i32⟩
  | 27 => ⟨S600000, .i1⟩
  | 28 => ⟨S_, .i32⟩
  | 29 => ⟨S600000, .i32⟩
  | 30 => ⟨S600000, .i32⟩
  | 31 => ⟨S600000, .i32⟩
  | 32 => ⟨S600000x1, .i32⟩
  | 33 => ⟨S600000, .f32⟩
  | 34 => ⟨S_, .i32⟩
  | 35 => ⟨S600000, .i32⟩
  | 36 => ⟨S600000, .i1⟩
  | 37 => ⟨S_, .i32⟩
  | 38 => ⟨S600000, .i32⟩
  | 39 => ⟨S600000, .i32⟩
  | 40 => ⟨S600000, .i32⟩
  | 41 => ⟨S600000x1, .i32⟩
  | 42 => ⟨S600000, .f32⟩
  | 43 => ⟨S600000, .f32⟩
  | 44 => ⟨S_, .i32⟩
  | 45 => ⟨S600000, .i32⟩
  | 46 => ⟨S600000, .i1⟩
  | 47 => ⟨S_, .i32⟩
  | 48 => ⟨S600000, .i32⟩
  | 49 => ⟨S600000, .i32⟩
  | 50 => ⟨S600000, .i32⟩
  | 51 => ⟨S600000x1, .i32⟩
  | 52 => ⟨S600000x128, .f32⟩
  | 53 => ⟨S600000x1, .f32⟩
  | 54 => ⟨S600000x128, .f32⟩
  | 55 => ⟨S600000x128, .f32⟩
  | 56 => ⟨S_, .f32⟩
  | 57 => ⟨S300000x128, .f32⟩
  | 58 => ⟨S600000x1, .i32⟩
  | 59 => ⟨S300000x128, .f32⟩
  | 60 => ⟨S300000x128, .f32⟩
  | 61 => ⟨S_, .f32⟩
  | 62 => ⟨S600000, .f32⟩
  | 63 => ⟨S_, .f32⟩
  | 64 => ⟨S300000, .f32⟩
  | 65 => ⟨S600000x1, .i32⟩
  | 66 => ⟨S300000, .f32⟩
  | 67 => ⟨S_, .f32⟩
  | 68 => ⟨S300000, .f32⟩
  | 69 => ⟨S300000, .i1⟩
  | 70 => ⟨S_, .f32⟩
  | 71 => ⟨S300000, .f32⟩
  | 72 => ⟨S300000, .f32⟩
  | 73 => ⟨S300000, .f32⟩
  | 74 => ⟨S_, .f32⟩
  | 75 => ⟨S_, .f32⟩
  | 76 => ⟨S300000, .f32⟩
  | 77 => ⟨S300000, .f32⟩
  | 78 => ⟨S_, .i32⟩
  | 79 => ⟨S600000, .i32⟩
  | 80 => ⟨S600000, .i1⟩
  | 81 => ⟨S_, .i32⟩
  | 82 => ⟨S600000, .i32⟩
  | 83 => ⟨S600000, .i32⟩
  | 84 => ⟨S600000, .i32⟩
  | 85 => ⟨S600000x1, .i32⟩
  | 86 => ⟨S600000, .f32⟩
  | 87 => ⟨S_, .i32⟩
  | 88 => ⟨S600000, .i32⟩
  | 89 => ⟨S600000, .i1⟩
  | 90 => ⟨S_, .i32⟩
  | 91 => ⟨S600000, .i32⟩
  | 92 => ⟨S600000, .i32⟩
  | 93 => ⟨S600000, .i32⟩
  | 94 => ⟨S600000x1, .i32⟩
  | 95 => ⟨S600000, .f32⟩
  | 96 => ⟨S600000, .f32⟩
  | 97 => ⟨S_, .i32⟩
  | 98 => ⟨S600000, .i32⟩
  | 99 => ⟨S600000, .i1⟩
  | 100 => ⟨S_, .i32⟩
  | 101 => ⟨S600000, .i32⟩
  | 102 => ⟨S600000, .i32⟩
  | 103 => ⟨S600000, .i32⟩
  | 104 => ⟨S600000x1, .i32⟩
  | 105 => ⟨S600000x128, .f32⟩
  | 106 => ⟨S600000x1, .f32⟩
  | 107 => ⟨S600000x128, .f32⟩
  | 108 => ⟨S600000x128, .f32⟩
  | 109 => ⟨S_, .f32⟩
  | 110 => ⟨S300000x128, .f32⟩
  | 111 => ⟨S600000x1, .i32⟩
  | 112 => ⟨S300000x128, .f32⟩
  | 113 => ⟨S300000x128, .f32⟩
  | 114 => ⟨S_, .f32⟩
  | 115 => ⟨S600000, .f32⟩
  | 116 => ⟨S_, .f32⟩
  | 117 => ⟨S300000, .f32⟩
  | 118 => ⟨S600000x1, .i32⟩
  | 119 => ⟨S300000, .f32⟩
  | 120 => ⟨S_, .f32⟩
  | 121 => ⟨S300000, .f32⟩
  | 122 => ⟨S300000, .i1⟩
  | 123 => ⟨S_, .f32⟩
  | 124 => ⟨S300000, .f32⟩
  | 125 => ⟨S300000, .f32⟩
  | 126 => ⟨S300000, .f32⟩
  | 127 => ⟨S_, .f32⟩
  | _ => ⟨S2x600000, .i32⟩

abbrev hbmTy0_1 (i : Nat) : BufTy := match i % 128 with
  | 0 => ⟨S_, .f32⟩
  | 1 => ⟨S300000, .f32⟩
  | 2 => ⟨S300000, .f32⟩
  | 3 => ⟨S_, .i32⟩
  | 4 => ⟨S600000, .i32⟩
  | 5 => ⟨S600000, .i1⟩
  | 6 => ⟨S_, .i32⟩
  | 7 => ⟨S600000, .i32⟩
  | 8 => ⟨S600000, .i32⟩
  | 9 => ⟨S600000, .i32⟩
  | 10 => ⟨S600000x1, .i32⟩
  | 11 => ⟨S600000, .f32⟩
  | 12 => ⟨S_, .i32⟩
  | 13 => ⟨S600000, .i32⟩
  | 14 => ⟨S600000, .i1⟩
  | 15 => ⟨S_, .i32⟩
  | 16 => ⟨S600000, .i32⟩
  | 17 => ⟨S600000, .i32⟩
  | 18 => ⟨S600000, .i32⟩
  | 19 => ⟨S600000x1, .i32⟩
  | 20 => ⟨S600000, .f32⟩
  | 21 => ⟨S600000, .f32⟩
  | 22 => ⟨S_, .i32⟩
  | 23 => ⟨S600000, .i32⟩
  | 24 => ⟨S600000, .i1⟩
  | 25 => ⟨S_, .i32⟩
  | 26 => ⟨S600000, .i32⟩
  | 27 => ⟨S600000, .i32⟩
  | 28 => ⟨S600000, .i32⟩
  | 29 => ⟨S600000x1, .i32⟩
  | 30 => ⟨S600000x128, .f32⟩
  | 31 => ⟨S600000x1, .f32⟩
  | 32 => ⟨S600000x128, .f32⟩
  | 33 => ⟨S600000x128, .f32⟩
  | 34 => ⟨S_, .f32⟩
  | 35 => ⟨S300000x128, .f32⟩
  | 36 => ⟨S600000x1, .i32⟩
  | 37 => ⟨S300000x128, .f32⟩
  | 38 => ⟨S300000x128, .f32⟩
  | 39 => ⟨S_, .f32⟩
  | 40 => ⟨S300000x128, .f32⟩
  | 41 => ⟨S300000x128, .f32⟩
  | 42 => ⟨S100000x128, .f32⟩
  | 43 => ⟨S200000x128, .f32⟩
  | _ => ⟨S2x600000, .i32⟩

abbrev hbmTy (i : Nat) : BufTy := match i / 128 with
  | 0 => hbmTy0_0 i
  | 1 => hbmTy0_1 i
  | _ => ⟨S2x600000, .i32⟩

abbrev bufTy : (tb : Table) → Fin (tcTables nBuf tb) → BufTy
  | .hbm, ⟨i, _⟩ => hbmTy i
  | _, _ => ⟨S2x600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_5 : Ref sig .tc := ⟨.hbm, 34, rfl⟩
abbrev main_v22 : Ref sig .tc := ⟨.hbm, 35, rfl⟩
abbrev main_v23 : Ref sig .tc := ⟨.hbm, 36, rfl⟩
abbrev main_c_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_7 : Ref sig .tc := ⟨.hbm, 44, rfl⟩
abbrev main_v30 : Ref sig .tc := ⟨.hbm, 45, rfl⟩
abbrev main_v31 : Ref sig .tc := ⟨.hbm, 46, rfl⟩
abbrev main_c_8 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_cst_11 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_12 : Ref sig .tc := ⟨.hbm, 67, rfl⟩
abbrev main_v48 : Ref sig .tc := ⟨.hbm, 68, rfl⟩
abbrev main_v49 : Ref sig .tc := ⟨.hbm, 69, rfl⟩
abbrev main_cst_13 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_14 : Ref sig .tc := ⟨.hbm, 74, rfl⟩
abbrev main_call1_v0 : Ref sig .tc := ⟨.hbm, 75, rfl⟩
abbrev main_call1_v1 : Ref sig .tc := ⟨.hbm, 76, rfl⟩
abbrev main_v53 : Ref sig .tc := ⟨.hbm, 77, rfl⟩
abbrev main_c_15 : Ref sig .tc := ⟨.hbm, 78, rfl⟩
abbrev main_v54 : Ref sig .tc := ⟨.hbm, 79, rfl⟩
abbrev main_v55 : Ref sig .tc := ⟨.hbm, 80, rfl⟩
abbrev main_c_16 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_c_17 : Ref sig .tc := ⟨.hbm, 87, rfl⟩
abbrev main_v61 : Ref sig .tc := ⟨.hbm, 88, rfl⟩
abbrev main_v62 : Ref sig .tc := ⟨.hbm, 89, rfl⟩
abbrev main_c_18 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_c_19 : Ref sig .tc := ⟨.hbm, 97, rfl⟩
abbrev main_v69 : Ref sig .tc := ⟨.hbm, 98, rfl⟩
abbrev main_v70 : Ref sig .tc := ⟨.hbm, 99, rfl⟩
abbrev main_c_20 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_21 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_22 : Ref sig .tc := ⟨.hbm, 114, rfl⟩
abbrev main_v83 : Ref sig .tc := ⟨.hbm, 115, rfl⟩
abbrev main_cst_23 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_24 : Ref sig .tc := ⟨.hbm, 120, rfl⟩
abbrev main_v87 : Ref sig .tc := ⟨.hbm, 121, rfl⟩
abbrev main_v88 : Ref sig .tc := ⟨.hbm, 122, rfl⟩
abbrev main_cst_25 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_cst_26 : Ref sig .tc := ⟨.hbm, 127, rfl⟩
abbrev main_call2_v0 : Ref sig .tc := ⟨.hbm, 128, rfl⟩
abbrev main_call2_v1 : Ref sig .tc := ⟨.hbm, 129, rfl⟩
abbrev main_v92 : Ref sig .tc := ⟨.hbm, 130, rfl⟩
abbrev main_c_27 : Ref sig .tc := ⟨.hbm, 131, rfl⟩
abbrev main_v93 : Ref sig .tc := ⟨.hbm, 132, rfl⟩
abbrev main_v94 : Ref sig .tc := ⟨.hbm, 133, rfl⟩
abbrev main_c_28 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_c_29 : Ref sig .tc := ⟨.hbm, 140, rfl⟩
abbrev main_v100 : Ref sig .tc := ⟨.hbm, 141, rfl⟩
abbrev main_v101 : Ref sig .tc := ⟨.hbm, 142, rfl⟩
abbrev main_c_30 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_c_31 : Ref sig .tc := ⟨.hbm, 150, rfl⟩
abbrev main_v108 : Ref sig .tc := ⟨.hbm, 151, rfl⟩
abbrev main_v109 : Ref sig .tc := ⟨.hbm, 152, rfl⟩
abbrev main_c_32 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_cst_33 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_cst_34 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S100000x128_S200000x128_S300000x128_d0 : Shape.Concatenates [S100000x128, S200000x128] S300000x128 0
  bcast_S_S600000 : S_.BroadcastsInDim S600000 (![] : Fin 0 → Fin S600000.rank)
  bcast_S_S300000 : S_.BroadcastsInDim S300000 (![] : Fin 0 → Fin S300000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S300000x128 : S_.BroadcastsInDim S300000x128 (![] : Fin 0 → Fin S300000x128.rank)
  slices_S300000x128_S100000x128_0_0 : S300000x128.Slices ![0, 0] S100000x128
  slices_S300000x128_S200000x128_100000_0 : S300000x128.Slices ![100000, 0] S200000x128
  scatter_S300000_S600000x1_S600000_n_0_0_1_wf : ScatterDims.WF S300000 S600000x1 S600000 [] [0] [0] 1
  gather_S300000_S600000x1_S600000_n_0_n_n_0_1_1_wf : GatherDims.WF S300000 S600000x1 S600000 [] [0] [] [0] [] 1 ![1]
  gather_S300000x128_S600000x1_S600000x128_1_0_n_n_0_1_1128_wf : GatherDims.WF S300000x128 S600000x1 S600000x128 [1] [0] [] [0] [] 1 ![1, 128]
  scatter_S300000x128_S600000x1_S600000x128_1_0_0_1_wf : ScatterDims.WF S300000x128 S600000x1 S600000x128 [1] [0] [0] 1

variable [Facts₀]

def scatter_S300000_S600000x1_S600000_n_0_0_1 : ScatterDims S300000 S600000x1 S600000 where
  updateWindowDims := []
  insertedWindowDims := [0]
  scatterDimsToOperandDims := [0]
  indexVectorDim := 1
  wf := scatter_S300000_S600000x1_S600000_n_0_0_1_wf
def gather_S300000_S600000x1_S600000_n_0_n_n_0_1_1 : GatherDims S300000 S600000x1 S600000 where
  offsetDims := []
  collapsedSliceDims := [0]
  operandBatchingDims := []
  startIndicesBatchingDims := []
  startIndexMap := [0]
  indexVectorDim := 1
  sliceSizes := ![1]
  wf := gather_S300000_S600000x1_S600000_n_0_n_n_0_1_1_wf
def gather_S300000x128_S600000x1_S600000x128_1_0_n_n_0_1_1128 : GatherDims S300000x128 S600000x1 S600000x128 where
  offsetDims := [1]
  collapsedSliceDims := [0]
  operandBatchingDims := []
  startIndicesBatchingDims := []
  startIndexMap := [0]
  indexVectorDim := 1
  sliceSizes := ![1, 128]
  wf := gather_S300000x128_S600000x1_S600000x128_1_0_n_n_0_1_1128_wf
def scatter_S300000x128_S600000x1_S600000x128_1_0_0_1 : ScatterDims S300000x128 S600000x1 S600000x128 where
  updateWindowDims := [1]
  insertedWindowDims := [0]
  scatterDimsToOperandDims := [0]
  indexVectorDim := 1
  wf := scatter_S300000x128_S600000x1_S600000x128_1_0_0_1_wf

class Facts : Prop extends Facts₀ where

variable [Facts]
-- ==== Proof.KernelRun.lean ====
/-
  The idealized kernel program's run with its two results NAMED.

  The program is six pipelined regions among stretches of host operations. Its run is read through the same list of
  segments as its frame: the buffer contents at each boundary are a fold from the launch memory (`Gen.W0 … Gen.W13`), and
  at the end every unscoped buffer of a core holds the last boundary's contents. Here that reading is kept for the two
  result buffers as well as for the three arguments: each result ends at `Gen.W13` of its buffer, which the later modules
  open, region by region, down to a function of the argument arrays.
-/
import proofs.«102811_j48352741819110_1_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with each result buffer at the last
    boundary's contents and the argument arrays as launched. -/
theorem run : θ_run defs (onTc (τ := τ) (main (F := F))) ⟨m, fun _ => 0, ρ⟩ (fun r => ∀ c : Dev nD,
      r.2.mem ((c.tc : Thread nD τ).loc main_v52) = W13 m ρ c (Proc.devRef .tc main_v52)
      ∧ r.2.mem ((c.tc : Thread nD τ).loc main_v53) = W13 m ρ c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v52 (by decide)),
       h c _ (mem_uc main_v53 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c)⟩)

end Cert.KernelIdeal.RunV

end
-- ==== Proof.KernelHost.lean ====
/-
  The host operations of the idealized kernel program, stretch by stretch, as functions of the buffers they read.

  Before the first region: the two rows of the edge list (`srcOf`, `dstOf`), the node features stacked (`x0Of`), the
  in-degree of every node as a segment sum of ones (`degOf`), and the weight `1 / sqrt(max(deg, ε))` where the degree is
  positive, zero elsewhere (`dinvOf`), reshaped to a column (`colOf`). Between two regions: the rows gathered at the
  (wrapped) source indices and summed into their target rows (`hostLayer`). After the last region: the two row ranges
  of the result. Each lemma says what one stretch leaves in one buffer, from ANY contents before the stretch.
-/
import proofs.«102811_j48352741819110_1_alg».proof.Proof.Gen.KernelIdeal.Launch
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable {F : FTy → Type} [FloatOps F]

/-! ## The stretches' functions -/

def srcOf (a0 : IVec S2x600000 32) : IVec S600000 32 :=
  shapeCast S600000 (extractStridedSlice S1x600000 ![0, 0] a0 slices_S2x600000_S1x600000_0_0) shapeCasts_S1x600000_S600000

def dstOf (a0 : IVec S2x600000 32) : IVec S600000 32 :=
  shapeCast S600000 (extractStridedSlice S1x600000 ![1, 0] a0 slices_S2x600000_S1x600000_1_0) shapeCasts_S1x600000_S600000

def x0Of (a1 : FVec F S100000x128 .f32) (a2 : FVec F S200000x128 .f32) : FVec F S300000x128 .f32 :=
  concatenate S300000x128 0 [⟨S100000x128, a1⟩, ⟨S200000x128, a2⟩] concatenates_S100000x128_S200000x128_S300000x128_d0

def degOf (dst : IVec S600000 32) : FVec F S300000 .f32 :=
  Host.scatterAdd scatter_S300000_S600000x1_S600000_n_0_0_1
    (broadcastInDim S300000 ![] bcast_S_S300000 (constant (F := F) S_ .f32 0x00000000#32))
    (broadcastInDim S600000x1 ![0] bcast_S600000_S600000x1_0 dst)
    (broadcastInDim S600000 ![] bcast_S_S600000 (constant (F := F) S_ .f32 0x3F800000#32))

def dinvOf (dst : IVec S600000 32) : FVec F S300000 .f32 :=
  select (cmpf (F := F) .ogt (degOf dst) (broadcastInDim S300000 ![] bcast_S_S300000 (constant (F := F) S_ .f32 0x00000000#32)))
    (Host.rsqrt (maximumf (degOf dst) (broadcastInDim S300000 ![] bcast_S_S300000 (constant (F := F) S_ .f32 0x2B8CBCCC#32))))
    (broadcastInDim S300000 ![] bcast_S_S300000 (id (constant (F := F) S_ .f32 0x00000000#32)))

def colOf (d : FVec F S300000 .f32) : FVec F S300000x1 .f32 := shapeCast S300000x1 d shapeCasts_S300000_S300000x1

/-- An index array as a gather's column of start indices: a negative entry wrapped by the table's length once. -/
def wrapCol (v : IVec S600000 32) : IVec S600000x1 32 :=
  broadcastInDim S600000x1 ![0] bcast_S600000_S600000x1_0
    (select (cmpi .slt v (broadcastInDim S600000 ![] bcast_S_S600000 (constantI S_ 32 0#32)))
      (addi v (broadcastInDim S600000 ![] bcast_S_S600000 (constantI S_ 32 300000#32))) v)

/-- Rows gathered at the source indices and summed, from zero, into their target rows. -/
def hostLayer (x : FVec F S300000x128 .f32) (src dst : IVec S600000 32) : FVec F S300000x128 .f32 :=
  Host.scatterAdd scatter_S300000x128_S600000x1_S600000x128_1_0_0_1
    (broadcastInDim S300000x128 ![] bcast_S_S300000x128 (constant (F := F) S_ .f32 0x00000000#32))
    (broadcastInDim S600000x1 ![0] bcast_S600000_S600000x1_0 dst)
    (Host.gather gather_S300000x128_S600000x1_S600000x128_1_0_n_n_0_1_1128 x (wrapCol src))

def usersOf (a : FVec F S300000x128 .f32) : FVec F S100000x128 .f32 :=
  extractStridedSlice S100000x128 ![0, 0] a slices_S300000x128_S100000x128_0_0

def itemsOf (a : FVec F S300000x128 .f32) : FVec F S200000x128 .f32 :=
  extractStridedSlice S200000x128 ![100000, 0] a slices_S300000x128_S200000x128_100000_0

/-! ## What each stretch leaves -/

variable (W : Valuation τ sig (Elt F))

set_option maxHeartbeats 2000000 in
theorem ops0_v1 : StableHlo.after hostOps0 W (Proc.devRef .tc main_v1) = srcOf (W (Proc.devRef .tc main_arg0)) := by
  after_results; rfl
set_option maxHeartbeats 2000000 in
theorem ops0_v3 : StableHlo.after hostOps0 W (Proc.devRef .tc main_v3) = dstOf (W (Proc.devRef .tc main_arg0)) := by
  after_results; rfl
set_option maxHeartbeats 2000000 in
theorem ops0_v4 : StableHlo.after hostOps0 W (Proc.devRef .tc main_v4)
    = x0Of (W (Proc.devRef .tc main_arg1)) (W (Proc.devRef .tc main_arg2)) := by
  after_results; rfl
set_option maxHeartbeats 2000000 in
theorem ops0_v10 : StableHlo.after hostOps0 W (Proc.devRef .tc main_v10)
    = cmpf (F := F) .ogt (degOf (dstOf (W (Proc.devRef .tc main_arg0))))
        (broadcastInDim S300000 ![] bcast_S_S300000 (constant (F := F) S_ .f32 0x00000000#32)) := by
  after_results; rfl
set_option maxHeartbeats 2000000 in
theorem ops0_v13 : StableHlo.after hostOps0 W (Proc.devRef .tc main_v13)
    = Host.rsqrt (maximumf (degOf (dstOf (W (Proc.devRef .tc main_arg0))))
        (broadcastInDim S300000 ![] bcast_S_S300000 (constant (F := F) S_ .f32 0x2B8CBCCC#32))) := by
  after_results; rfl
set_option maxHeartbeats 2000000 in
theorem ops0_cst3 : StableHlo.after hostOps0 W (Proc.devRef .tc main_cst_3) = constant (F := F) S_ .f32 0x00000000#32 := by
  after_results

theorem ops01_v14 : StableHlo.after hostOps0_1 W (Proc.devRef .tc main_v14)
    = select (W (Proc.devRef .tc main_v10)) (W (Proc.devRef .tc main_v13))
        (broadcastInDim S300000 ![] bcast_S_S300000 (id (W (Proc.devRef .tc main_cst_3)))) := by
  after_results; rfl
theorem ops01_v1 : StableHlo.after hostOps0_1 W (Proc.devRef .tc main_v1) = W (Proc.devRef .tc main_v1) := by after_results
theorem ops01_v3 : StableHlo.after hostOps0_1 W (Proc.devRef .tc main_v3) = W (Proc.devRef .tc main_v3) := by after_results
theorem ops01_v4 : StableHlo.after hostOps0_1 W (Proc.devRef .tc main_v4) = W (Proc.devRef .tc main_v4) := by after_results

theorem ops02_v15 : StableHlo.after hostOps0_2 W (Proc.devRef .tc main_v15) = colOf (W (Proc.devRef .tc main_v14)) := by
  after_results; rfl
theorem ops02_v1 : StableHlo.after hostOps0_2 W (Proc.devRef .tc main_v1) = W (Proc.devRef .tc main_v1) := by after_results
theorem ops02_v3 : StableHlo.after hostOps0_2 W (Proc.devRef .tc main_v3) = W (Proc.devRef .tc main_v3) := by after_results
theorem ops02_v4 : StableHlo.after hostOps0_2 W (Proc.devRef .tc main_v4) = W (Proc.devRef .tc main_v4) := by after_results

set_option maxHeartbeats 2000000 in
theorem ops1_v26 : StableHlo.after hostOps1 W (Proc.devRef .tc main_v26)
    = hostLayer (W (Proc.devRef .tc main_v16)) (W (Proc.devRef .tc main_v1)) (W (Proc.devRef .tc main_v3)) := by
  after_results; rfl
theorem ops1_v1 : StableHlo.after hostOps1 W (Proc.devRef .tc main_v1) = W (Proc.devRef .tc main_v1) := by after_results
theorem ops1_v3 : StableHlo.after hostOps1 W (Proc.devRef .tc main_v3) = W (Proc.devRef .tc main_v3) := by after_results
theorem ops1_v4 : StableHlo.after hostOps1 W (Proc.devRef .tc main_v4) = W (Proc.devRef .tc main_v4) := by after_results
theorem ops1_v15 : StableHlo.after hostOps1 W (Proc.devRef .tc main_v15) = W (Proc.devRef .tc main_v15) := by after_results

set_option maxHeartbeats 2000000 in
theorem ops3_v38 : StableHlo.after hostOps3 W (Proc.devRef .tc main_v38)
    = hostLayer (W (Proc.devRef .tc main_v28)) (W (Proc.devRef .tc main_v1)) (W (Proc.devRef .tc main_v3)) := by
  after_results; rfl
theorem ops3_v1 : StableHlo.after hostOps3 W (Proc.devRef .tc main_v1) = W (Proc.devRef .tc main_v1) := by after_results
theorem ops3_v3 : StableHlo.after hostOps3 W (Proc.devRef .tc main_v3) = W (Proc.devRef .tc main_v3) := by after_results
theorem ops3_v15 : StableHlo.after hostOps3 W (Proc.devRef .tc main_v15) = W (Proc.devRef .tc main_v15) := by after_results
theorem ops3_v27_0 : StableHlo.after hostOps3 W (Proc.devRef .tc main_v27_0) = W (Proc.devRef .tc main_v27_0) := by after_results

set_option maxHeartbeats 2000000 in
theorem ops5_v50 : StableHlo.after hostOps5 W (Proc.devRef .tc main_v50)
    = hostLayer (W (Proc.devRef .tc main_v40)) (W (Proc.devRef .tc main_v1)) (W (Proc.devRef .tc main_v3)) := by
  after_results; rfl
theorem ops5_v15 : StableHlo.after hostOps5 W (Proc.devRef .tc main_v15) = W (Proc.devRef .tc main_v15) := by after_results
theorem ops5_v39_0 : StableHlo.after hostOps5 W (Proc.devRef .tc main_v39_0) = W (Proc.devRef .tc main_v39_0) := by after_results

theorem ops6_v52 : StableHlo.after hostOps6 W (Proc.devRef .tc main_v52) = usersOf (W (Proc.devRef .tc main_v51_0)) := by
  after_results; rfl
theorem ops6_v53 : StableHlo.after hostOps6 W (Proc.devRef .tc main_v53) = itemsOf (W (Proc.devRef .tc main_v51_0)) := by
  after_results; rfl

end Cert.KernelIdeal.Chain

end
-- ==== Proof.BlocksCommon.lean ====
/-
  Whole-array forms of the two pipelined bodies of the idealized kernel program.

  Each body works on a block of 6000 consecutive rows of a matrix with 128 columns, beside the same rows of a
  one-column matrix `d`. The first body multiplies every row `r` by `d r` (`rowScale`). The second does the same to a
  matrix `y` and also forms `acc · s + (y scaled) · s` for one scalar `s` (`combine`). Both are the same function of the
  row at every block, so over the whole arrays they are the functions below, stated at any float instance.
-/
import proofs.«102811_j48352741819110_1_alg».proof.KernelIdeal
import Idealize.ShloMosaic.Lib.ValueIdx

noncomputable section

namespace Cert.KernelIdeal.Blocks

open Cert.KernelIdeal
open Idealize.ShloMosaic Idealize.ShloMosaic.ValueIdx

variable {F : FTy → Type} [FloatOps F]

theorem hz : (![0, 0] : Fin 2 → Nat) = fun _ => 0 := funext fun a => by fin_cases a <;> rfl

/-- Every row of a matrix multiplied by that row's entry of a one-column matrix. -/
def rowScale (x : S300000x128.Idx → Elt F .f32) (d : S300000x1.Idx → Elt F .f32) : S300000x128.Idx → Elt F .f32 :=
  fun i => FloatOps.mulf (x i) (d (ix2 (⟨(i 0).val, (i 0).isLt⟩ : Fin 300000) (0 : Fin 1)))

/-- The running combination: `acc · s + (y with its rows scaled by d) · s`. -/
def combine (s : F .f32) (acc y : S300000x128.Idx → Elt F .f32) (d : S300000x1.Idx → Elt F .f32) :
    S300000x128.Idx → Elt F .f32 :=
  fun i => FloatOps.addf (FloatOps.mulf (acc i) s) (FloatOps.mulf (rowScale y d i) s)

end Cert.KernelIdeal.Blocks

end
-- ==== Proof.BlocksScale0.lean ====
/-
  Region 0 of the idealized kernel program (the row-scaling body) read over whole arrays: its output array ends at
  `rowScale` of the two arrays it reads. Each grid point writes back one block of 6000 rows, which is that block of
  `rowScale`; the fifty blocks tile the array.
-/
import proofs.«102811_j48352741819110_1_alg».proof.Proof.Gen.KernelIdeal.Frame
import proofs.«102811_j48352741819110_1_alg».proof.Proof.BlocksCommon
import Idealize.ShloMosaic.Lib.Pipeline.Value
import Idealize.ShloMosaic.Lib.ValueIdx

set_option maxRecDepth 16384

noncomputable section

namespace Cert.KernelIdeal.Blocks

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

/-- The scaling payload at an entry of the block: the entry times its row's entry of the column block. -/
theorem pay0_1 (v0 : Vec F S6000x1 .f32) (v4 : Vec F S6000x128 .f32) (p : Fin 6000) (q : Fin 128) :
    k0_pay1 v0 v4 (ix2 p q) = FloatOps.mulf (v4 (ix2 p q)) (v0 (ix2 p (0 : Fin 1))) := by
  unfold k0_pay1
  simp only [shapeCast_self]
  show FloatOps.mulf (v4 (ix2 p q)) (broadcastTo S6000x128 v0 broadcasts_S6000x1_S6000x128 (ix2 p q)) = _
  rw [broadcastTo_apply v0 broadcasts_S6000x1_S6000x128 (ix2 p q) (ix2 p (0 : Fin 1)) (fun a => by
    match a with
    | ⟨0, _⟩ => rfl
    | ⟨1, _⟩ => rfl)]

/-- The printed index maps, decided over the grid: at point `t` every window's block is block `t` of the rows. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the scaled rows. -/
theorem flushed0_2 (c : Dev nD) (t : Fin cfg0.N) :
    (dat0 V c).flushed 2 t = ((cfg0.win 2).blk t).view.read (Elt F) (rowScale (V c main_v4) (V c main_v15)) := by
  show (cfg0.win 2).cut (grid0.coords t) ((dat0 V c).after 2 t) = _
  rw [after0_2]
  unfold out0_2
  rw [View.canon_unit_zero hz]
  simp only [View.ld_unit_zero (S := S6000x128) hz, View.ld_unit_zero (S := S6000x1) hz]
  obtain ⟨e0, e1, e2, e3, e4, e5⟩ := idx_facts0 t
  funext j
  obtain ⟨p, q, rfl⟩ : ∃ (p : Fin 6000) (q : Fin 128), j = ix2 p q := ⟨j 0, j 1, eq_ix2 j⟩
  show k0_pay1 (iblk0 V c 1 t) (iblk0 V c 0 t) (ix2 p q) = rowScale (V c main_v4) (V c main_v15) (((cfg0.win 2).blk t).view.emb (ix2 p q))
  refine (pay0_1 _ _ p q).trans ?_
  have h0 : ((cfg0.win 0).blk t).view.emb (ix2 p q) = ((cfg0.win 2).blk t).view.emb (ix2 p q) := by
    funext a; apply Fin.ext
    match a with
    | ⟨0, _⟩ => show win0_0.index t (0 : Fin 2) * 6000 + 1 * p.val = win0_2.index t (0 : Fin 2) * 6000 + 1 * p.val; omega
    | ⟨1, _⟩ => show win0_0.index t (1 : Fin 2) * 128 + 1 * q.val = win0_2.index t (1 : Fin 2) * 128 + 1 * q.val; omega
  have h1 : ((cfg0.win 1).blk t).view.emb (ix2 p (0 : Fin 1))
      = ix2 (⟨((((cfg0.win 2).blk t).view.emb (ix2 p q)) 0).val, ((((cfg0.win 2).blk t).view.emb (ix2 p q)) 0).isLt⟩ : Fin 300000) (0 : Fin 1) := by
    funext a; apply Fin.ext
    match a with
    | ⟨0, _⟩ => show win0_1.index t (0 : Fin 2) * 6000 + 1 * p.val = win0_2.index t (0 : Fin 2) * 6000 + 1 * p.val; omega
    | ⟨1, _⟩ => show win0_1.index t (1 : Fin 2) * 1 + 1 * 0 = 0; omega
  show FloatOps.mulf (V c main_v4 (((cfg0.win 0).blk t).view.emb (ix2 p q))) (V c main_v15 (((cfg0.win 1).blk t).view.emb (ix2 p (0 : Fin 1)))) = _
  rw [h0, h1]
  rfl

/-- An index of the array is in point `t`'s block of the output exactly when each coordinate is in the block's range. -/
theorem mem_blk0_2 (t : Fin cfg0.N) (i : S300000x128.Idx) :
    i ∈ ((cfg0.win 2).blk t).view.set ↔ ∀ a : Fin 2, win0_2.index t a * S6000x128.size a ≤ (i a).val ∧ (i a).val < win0_2.index t a * S6000x128.size a + S6000x128.size a := by
  show i ∈ ((View.whole main_v16).slice (win0_2.rect t)).set ↔ _
  rw [View.set_slice_whole, Rect.mem_set_unit]
  exact Iff.rfl

/-- The fifty blocks of 6000 rows tile the 300000 rows: row `r` is in block `r / 6000`. -/
theorem covered0_2 (i : S300000x128.Idx) : ∃ t : Fin cfg0.N, (cfg0.win 2).flush t = true ∧ i ∈ ((cfg0.win 2).blk t).view.set := by
  have hi0 : (i 0).val < 300000 := (i 0).isLt
  have hi1 : (i 1).val < 128 := (i 1).isLt
  have hN : cfg0.N = 50 := N_0
  let t : Fin cfg0.N := ⟨(i 0).val / 6000, by rw [hN]; omega⟩
  obtain ⟨e0, e1, e2, e3, e4, e5⟩ := idx_facts0 t
  have ht : t.val = (i 0).val / 6000 := rfl
  refine ⟨t, flush0_2 t, ?_⟩
  rw [mem_blk0_2]
  intro a
  match a with
  | ⟨0, _⟩ => show win0_2.index t (0 : Fin 2) * 6000 ≤ (i 0).val ∧ (i 0).val < win0_2.index t (0 : Fin 2) * 6000 + 6000; omega
  | ⟨1, _⟩ => show win0_2.index t (1 : Fin 2) * 128 ≤ (i 1).val ∧ (i 1).val < win0_2.index t (1 : Fin 2) * 128 + 128; omega

/-- Region 0 leaves its output array at the scaled rows of its input. -/
theorem arr0_2 (c : Dev nD) : (dat0 V c).arrAt 2 cfg0.N = rowScale (V c main_v4) (V c main_v15) :=
  (dat0 V c).arrAt_eq_of_cover 2 (rowScale (V c main_v4) (V c main_v15)) (fun t _ => flushed0_2 V c t) covered0_2

end Cert.KernelIdeal.Blocks

end
-- ==== Proof.BlocksScale2.lean ====
/-
  Region 2 of the idealized kernel program (the row-scaling body) read over whole arrays: its output array ends at
  `rowScale` of the two arrays it reads. Each grid point writes back one block of 6000 rows, which is that block of
  `rowScale`; the fifty blocks tile the array.
-/
import proofs.«102811_j48352741819110_1_alg».proof.Proof.Gen.KernelIdeal.Frame
import proofs.«102811_j48352741819110_1_alg».proof.Proof.BlocksCommon
import Idealize.ShloMosaic.Lib.Pipeline.Value
import Idealize.ShloMosaic.Lib.ValueIdx

set_option maxRecDepth 16384

noncomputable section

namespace Cert.KernelIdeal.Blocks

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

/-- The scaling payload at an entry of the block: the entry times its row's entry of the column block. -/
theorem pay2_1 (v0 : Vec F S6000x1 .f32) (v4 : Vec F S6000x128 .f32) (p : Fin 6000) (q : Fin 128) :
    k2_pay1 v0 v4 (ix2 p q) = FloatOps.mulf (v4 (ix2 p q)) (v0 (ix2 p (0 : Fin 1))) := by
  unfold k2_pay1
  simp only [shapeCast_self]
  show FloatOps.mulf (v4 (ix2 p q)) (broadcastTo S6000x128 v0 broadcasts_S6000x1_S6000x128 (ix2 p q)) = _
  rw [broadcastTo_apply v0 broadcasts_S6000x1_S6000x128 (ix2 p q) (ix2 p (0 : Fin 1)) (fun a => by
    match a with
    | ⟨0, _⟩ => rfl
    | ⟨1, _⟩ => rfl)]

/-- The printed index maps, decided over the grid: at point `t` every window's block is block `t` of the rows. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the scaled rows. -/
theorem flushed2_2 (c : Dev nD) (t : Fin cfg2.N) :
    (dat2 V c).flushed 2 t = ((cfg2.win 2).blk t).view.read (Elt F) (rowScale (V c main_v27_1) (V c main_v15)) := by
  show (cfg2.win 2).cut (grid2.coords t) ((dat2 V c).after 2 t) = _
  rw [after2_2]
  unfold out2_2
  rw [View.canon_unit_zero hz]
  simp only [View.ld_unit_zero (S := S6000x128) hz, View.ld_unit_zero (S := S6000x1) hz]
  obtain ⟨e0, e1, e2, e3, e4, e5⟩ := idx_facts2 t
  funext j
  obtain ⟨p, q, rfl⟩ : ∃ (p : Fin 6000) (q : Fin 128), j = ix2 p q := ⟨j 0, j 1, eq_ix2 j⟩
  show k2_pay1 (iblk2 V c 1 t) (iblk2 V c 0 t) (ix2 p q) = rowScale (V c main_v27_1) (V c main_v15) (((cfg2.win 2).blk t).view.emb (ix2 p q))
  refine (pay2_1 _ _ p q).trans ?_
  have h0 : ((cfg2.win 0).blk t).view.emb (ix2 p q) = ((cfg2.win 2).blk t).view.emb (ix2 p q) := by
    funext a; apply Fin.ext
    match a with
    | ⟨0, _⟩ => show win2_0.index t (0 : Fin 2) * 6000 + 1 * p.val = win2_2.index t (0 : Fin 2) * 6000 + 1 * p.val; omega
    | ⟨1, _⟩ => show win2_0.index t (1 : Fin 2) * 128 + 1 * q.val = win2_2.index t (1 : Fin 2) * 128 + 1 * q.val; omega
  have h1 : ((cfg2.win 1).blk t).view.emb (ix2 p (0 : Fin 1))
      = ix2 (⟨((((cfg2.win 2).blk t).view.emb (ix2 p q)) 0).val, ((((cfg2.win 2).blk t).view.emb (ix2 p q)) 0).isLt⟩ : Fin 300000) (0 : Fin 1) := by
    funext a; apply Fin.ext
    match a with
    | ⟨0, _⟩ => show win2_1.index t (0 : Fin 2) * 6000 + 1 * p.val = win2_2.index t (0 : Fin 2) * 6000 + 1 * p.val; omega
    | ⟨1, _⟩ => show win2_1.index t (1 : Fin 2) * 1 + 1 * 0 = 0; omega
  show FloatOps.mulf (V c main_v27_1 (((cfg2.win 0).blk t).view.emb (ix2 p q))) (V c main_v15 (((cfg2.win 1).blk t).view.emb (ix2 p (0 : Fin 1)))) = _
  rw [h0, h1]
  rfl

/-- An index of the array is in point `t`'s block of the output exactly when each coordinate is in the block's range. -/
theorem mem_blk2_2 (t : Fin cfg2.N) (i : S300000x128.Idx) :
    i ∈ ((cfg2.win 2).blk t).view.set ↔ ∀ a : Fin 2, win2_2.index t a * S6000x128.size a ≤ (i a).val ∧ (i a).val < win2_2.index t a * S6000x128.size a + S6000x128.size a := by
  show i ∈ ((View.whole main_v28).slice (win2_2.rect t)).set ↔ _
  rw [View.set_slice_whole, Rect.mem_set_unit]
  exact Iff.rfl

/-- The fifty blocks of 6000 rows tile the 300000 rows: row `r` is in block `r / 6000`. -/
theorem covered2_2 (i : S300000x128.Idx) : ∃ t : Fin cfg2.N, (cfg2.win 2).flush t = true ∧ i ∈ ((cfg2.win 2).blk t).view.set := by
  have hi0 : (i 0).val < 300000 := (i 0).isLt
  have hi1 : (i 1).val < 128 := (i 1).isLt
  have hN : cfg2.N = 50 := N_2
  let t : Fin cfg2.N := ⟨(i 0).val / 6000, by rw [hN]; omega⟩
  obtain ⟨e0, e1, e2, e3, e4, e5⟩ := idx_facts2 t
  have ht : t.val = (i 0).val / 6000 := rfl
  refine ⟨t, flush2_2 t, ?_⟩
  rw [mem_blk2_2]
  intro a
  match a with
  | ⟨0, _⟩ => show win2_2.index t (0 : Fin 2) * 6000 ≤ (i 0).val ∧ (i 0).val < win2_2.index t (0 : Fin 2) * 6000 + 6000; omega
  | ⟨1, _⟩ => show win2_2.index t (1 : Fin 2) * 128 ≤ (i 1).val ∧ (i 1).val < win2_2.index t (1 : Fin 2) * 128 + 128; omega

/-- Region 2 leaves its output array at the scaled rows of its input. -/
theorem arr2_2 (c : Dev nD) : (dat2 V c).arrAt 2 cfg2.N = rowScale (V c main_v27_1) (V c main_v15) :=
  (dat2 V c).arrAt_eq_of_cover 2 (rowScale (V c main_v27_1) (V c main_v15)) (fun t _ => flushed2_2 V c t) covered2_2

end Cert.KernelIdeal.Blocks

end
-- ==== Proof.BlocksScale4.lean ====
/-
  Region 4 of the idealized kernel program (the row-scaling body) read over whole arrays: its output array ends at
  `rowScale` of the two arrays it reads. Each grid point writes back one block of 6000 rows, which is that block of
  `rowScale`; the fifty blocks tile the array.
-/
import proofs.«102811_j48352741819110_1_alg».proof.Proof.Gen.KernelIdeal.Frame
import proofs.«102811_j48352741819110_1_alg».proof.Proof.BlocksCommon
import Idealize.ShloMosaic.Lib.Pipeline.Value
import Idealize.ShloMosaic.Lib.ValueIdx

set_option maxRecDepth 16384

noncomputable section

namespace Cert.KernelIdeal.Blocks

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

/-- The scaling payload at an entry of the block: the entry times its row's entry of the column block. -/
theorem pay4_1 (v0 : Vec F S6000x1 .f32) (v4 : Vec F S6000x128 .f32) (p : Fin 6000) (q : Fin 128) :
    k4_pay1 v0 v4 (ix2 p q) = FloatOps.mulf (v4 (ix2 p q)) (v0 (ix2 p (0 : Fin 1))) := by
  unfold k4_pay1
  simp only [shapeCast_self]
  show FloatOps.mulf (v4 (ix2 p q)) (broadcastTo S6000x128 v0 broadcasts_S6000x1_S6000x128 (ix2 p q)) = _
  rw [broadcastTo_apply v0 broadcasts_S6000x1_S6000x128 (ix2 p q) (ix2 p (0 : Fin 1)) (fun a => by
    match a with
    | ⟨0, _⟩ => rfl
    | ⟨1, _⟩ => rfl)]

/-- The printed index maps, decided over the grid: at point `t` every window's block is block `t` of the rows. -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point `t` writes back is block `t` of the scaled rows. -/
theorem flushed4_2 (c : Dev nD) (t : Fin cfg4.N) :
    (dat4 V c).flushed 2 t = ((cfg4.win 2).blk t).view.read (Elt F) (rowScale (V c main_v39_1) (V c main_v15)) := by
  show (cfg4.win 2).cut (grid4.coords t) ((dat4 V c).after 2 t) = _
  rw [after4_2]
  unfold out4_2
  rw [View.canon_unit_zero hz]
  simp only [View.ld_unit_zero (S := S6000x128) hz, View.ld_unit_zero (S := S6000x1) hz]
  obtain ⟨e0, e1, e2, e3, e4, e5⟩ := idx_facts4 t
  funext j
  obtain ⟨p, q, rfl⟩ : ∃ (p : Fin 6000) (q : Fin 128), j = ix2 p q := ⟨j 0, j 1, eq_ix2 j⟩
  show k4_pay1 (iblk4 V c 1 t) (iblk4 V c 0 t) (ix2 p q) = rowScale (V c main_v39_1) (V c main_v15) (((cfg4.win 2).blk t).view.emb (ix2 p q))
  refine (pay4_1 _ _ p q).trans ?_
  have h0 : ((cfg4.win 0).blk t).view.emb (ix2 p q) = ((cfg4.win 2).blk t).view.emb (ix2 p q) := by
    funext a; apply Fin.ext
    match a with
    | ⟨0, _⟩ => show win4_0.index t (0 : Fin 2) * 6000 + 1 * p.val = win4_2.index t (0 : Fin 2) * 6000 + 1 * p.val; omega
    | ⟨1, _⟩ => show win4_0.index t (1 : Fin 2) * 128 + 1 * q.val = win4_2.index t (1 : Fin 2) * 128 + 1 * q.val; omega
  have h1 : ((cfg4.win 1).blk t).view.emb (ix2 p (0 : Fin 1))
      = ix2 (⟨((((cfg4.win 2).blk t).view.emb (ix2 p q)) 0).val, ((((cfg4.win 2).blk t).view.emb (ix2 p q)) 0).isLt⟩ : Fin 300000) (0 : Fin 1) := by
    funext a; apply Fin.ext
    match a with
    | ⟨0, _⟩ => show win4_1.index t (0 : Fin 2) * 6000 + 1 * p.val = win4_2.index t (0 : Fin 2) * 6000 + 1 * p.val; omega
    | ⟨1, _⟩ => show win4_1.index t (1 : Fin 2) * 1 + 1 * 0 = 0; omega
  show FloatOps.mulf (V c main_v39_1 (((cfg4.win 0).blk t).view.emb (ix2 p q))) (V c main_v15 (((cfg4.win 1).blk t).view.emb (ix2 p (0 : Fin 1)))) = _
  rw [h0, h1]
  rfl

/-- An index of the array is in point `t`'s block of the output exactly when each coordinate is in the block's range. -/
theorem mem_blk4_2 (t : Fin cfg4.N) (i : S300000x128.Idx) :
    i ∈ ((cfg4.win 2).blk t).view.set ↔ ∀ a : Fin 2, win4_2.index t a * S6000x128.size a ≤ (i a).val ∧ (i a).val < win4_2.index t a * S6000x128.size a + S6000x128.size a := by
  show i ∈ ((View.whole main_v40).slice (win4_2.rect t)).set ↔ _
  rw [View.set_slice_whole, Rect.mem_set_unit]
  exact Iff.rfl

/-- The fifty blocks of 6000 rows tile the 300000 rows: row `r` is in block `r / 6000`. -/
theorem covered4_2 (i : S300000x128.Idx) : ∃ t : Fin cfg4.N, (cfg4.win 2).flush t = true ∧ i ∈ ((cfg4.win 2).blk t).view.set := by
  have hi0 : (i 0).val < 300000 := (i 0).isLt
  have hi1 : (i 1).val < 128 := (i 1).isLt
  have hN : cfg4.N = 50 := N_4
  let t : Fin cfg4.N := ⟨(i 0).val / 6000, by rw [hN]; omega⟩
  obtain ⟨e0, e1, e2, e3, e4, e5⟩ := idx_facts4 t
  have ht : t.val = (i 0).val / 6000 := rfl
  refine ⟨t, flush4_2 t, ?_⟩
  rw [mem_blk4_2]
  intro a
  match a with
  | ⟨0, _⟩ => show win4_2.index t (0 : Fin 2) * 6000 ≤ (i 0).val ∧ (i 0).val < win4_2.index t (0 : Fin 2) * 6000 + 6000; omega
  | ⟨1, _⟩ => show win4_2.index t (1 : Fin 2) * 128 ≤ (i 1).val ∧ (i 1).val < win4_2.index t (1 : Fin 2) * 128 + 128; omega

/-- Region 4 leaves its output array at the scaled rows of its input. -/
theorem arr4_2 (c : Dev nD) : (dat4 V c).arrAt 2 cfg4.N = rowScale (V c main_v39_1) (V c main_v15) :=
  (dat4 V c).arrAt_eq_of_cover 2 (rowScale (V c main_v39_1) (V c main_v15)) (fun t _ => flushed4_2 V c t) covered4_2

end Cert.KernelIdeal.Blocks

end
-- ==== Proof.BlocksCombine1.lean ====
/-
  Region 1 of the idealized kernel program (the scale-and-accumulate body) read over whole arrays: of its two output
  arrays one ends at `rowScale` of the summed messages and the column, the other at `combine` of the running total, the
  summed messages and the column. Each grid point writes back one block of 6000 rows of each, which is that block of
  the whole-array function; the fifty blocks tile the arrays.
-/
import proofs.«102811_j48352741819110_1_alg».proof.Proof.Gen.KernelIdeal.Frame
import proofs.«102811_j48352741819110_1_alg».proof.Proof.BlocksCommon
import Idealize.ShloMosaic.Lib.Pipeline.Value
import Idealize.ShloMosaic.Lib.ValueIdx

set_option maxRecDepth 16384

noncomputable section

namespace Cert.KernelIdeal.Blocks

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

/-- The scaling payload at an entry of the block: the entry times its row's entry of the column block. -/
theorem pay1_1 (v0 : Vec F S6000x1 .f32) (v4 : Vec F S6000x128 .f32) (p : Fin 6000) (q : Fin 128) :
    k1_pay1 v0 v4 (ix2 p q) = FloatOps.mulf (v4 (ix2 p q)) (v0 (ix2 p (0 : Fin 1))) := by
  unfold k1_pay1
  simp only [shapeCast_self]
  show FloatOps.mulf (v4 (ix2 p q)) (broadcastTo S6000x128 v0 broadcasts_S6000x1_S6000x128 (ix2 p q)) = _
  rw [broadcastTo_apply v0 broadcasts_S6000x1_S6000x128 (ix2 p q) (ix2 p (0 : Fin 1)) (fun a => by
    match a with
    | ⟨0, _⟩ => rfl
    | ⟨1, _⟩ => rfl)]

/-- The accumulating payload at an entry of the block. -/
theorem pay1_2 (v0 : Vec F S6000x1 .f32) (v4 : Vec F S6000x128 .f32) (v8 : Vec F S6000x128 .f32) (p : Fin 6000) (q : Fin 128) :
    k1_pay2 v0 v4 v8 (ix2 p q)
      = FloatOps.addf (FloatOps.mulf (v8 (ix2 p q)) (Scalar.ofBits .f32 0x3F800000#32))
          (FloatOps.mulf (FloatOps.mulf (v4 (ix2 p q)) (v0 (ix2 p (0 : Fin 1)))) (Scalar.ofBits .f32 0x3F800000#32)) := by
  unfold k1_pay2
  simp only [shapeCast_self]
  show FloatOps.addf (FloatOps.mulf (v8 (ix2 p q)) (Scalar.ofBits .f32 0x3F800000#32))
      (FloatOps.mulf (k1_pay1 v0 v4 (ix2 p q)) (Scalar.ofBits .f32 0x3F800000#32)) = _
  rw [pay1_1]

/-- The printed index maps, decided over the grid: at point `t` every window's block is block `t` of the rows. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- What point `t` writes back to the scaled-messages output is block `t` of the scaled rows. -/
theorem flushed1_4 (c : Dev nD) (t : Fin cfg1.N) :
    (dat1 V c).flushed 4 t = ((cfg1.win 4).blk t).view.read (Elt F) (rowScale (V c main_v26) (V c main_v15)) := by
  show (cfg1.win 4).cut (grid1.coords t) ((dat1 V c).after 4 t) = _
  rw [after1_4]
  unfold out1_4
  rw [View.canon_unit_zero hz]
  simp only [View.ld_unit_zero (S := S6000x128) hz, View.ld_unit_zero (S := S6000x1) hz]
  obtain ⟨e0, e1, e2, e3, e4, e5, e6, e7, e8, e9⟩ := idx_facts1 t
  funext j
  obtain ⟨p, q, rfl⟩ : ∃ (p : Fin 6000) (q : Fin 128), j = ix2 p q := ⟨j 0, j 1, eq_ix2 j⟩
  show k1_pay1 (iblk1 V c 2 t) (iblk1 V c 1 t) (ix2 p q) = rowScale (V c main_v26) (V c main_v15) (((cfg1.win 4).blk t).view.emb (ix2 p q))
  refine (pay1_1 _ _ p q).trans ?_
  have h1 : ((cfg1.win 1).blk t).view.emb (ix2 p q) = ((cfg1.win 4).blk t).view.emb (ix2 p q) := by
    funext a; apply Fin.ext
    match a with
    | ⟨0, _⟩ => show win1_1.index t (0 : Fin 2) * 6000 + 1 * p.val = win1_4.index t (0 : Fin 2) * 6000 + 1 * p.val; omega
    | ⟨1, _⟩ => show win1_1.index t (1 : Fin 2) * 128 + 1 * q.val = win1_4.index t (1 : Fin 2) * 128 + 1 * q.val; omega
  have h2 : ((cfg1.win 2).blk t).view.emb (ix2 p (0 : Fin 1))
      = ix2 (⟨((((cfg1.win 4).blk t).view.emb (ix2 p q)) 0).val, ((((cfg1.win 4).blk t).view.emb (ix2 p q)) 0).isLt⟩ : Fin 300000) (0 : Fin 1) := by
    funext a; apply Fin.ext
    match a with
    | ⟨0, _⟩ => show win1_2.index t (0 : Fin 2) * 6000 + 1 * p.val = win1_4.index t (0 : Fin 2) * 6000 + 1 * p.val; omega
    | ⟨1, _⟩ => show win1_2.index t (1 : Fin 2) * 1 + 1 * 0 = 0; omega
  show FloatOps.mulf (V c main_v26 (((cfg1.win 1).blk t).view.emb (ix2 p q))) (V c main_v15 (((cfg1.win 2).blk t).view.emb (ix2 p (0 : Fin 1)))) = _
  rw [h1, h2]
  rfl

/-- What point `t` writes back to the running-total output is block `t` of the combination. -/
theorem flushed1_3 (c : Dev nD) (t : Fin cfg1.N) :
    (dat1 V c).flushed 3 t = ((cfg1.win 3).blk t).view.read (Elt F)
      (combine (Scalar.ofBits .f32 0x3F800000#32) (V c main_v4) (V c main_v26) (V c main_v15)) := by
  show (cfg1.win 3).cut (grid1.coords t) ((dat1 V c).after 3 t) = _
  rw [after1_3]
  unfold out1_3
  rw [View.canon_unit_zero hz]
  simp only [View.ld_unit_zero (S := S6000x128) hz, View.ld_unit_zero (S := S6000x1) hz]
  obtain ⟨e0, e1, e2, e3, e4, e5, e6, e7, e8, e9⟩ := idx_facts1 t
  funext j
  obtain ⟨p, q, rfl⟩ : ∃ (p : Fin 6000) (q : Fin 128), j = ix2 p q := ⟨j 0, j 1, eq_ix2 j⟩
  show k1_pay2 (iblk1 V c 2 t) (iblk1 V c 1 t) (iblk1 V c 0 t) (ix2 p q)
    = combine (Scalar.ofBits .f32 0x3F800000#32) (V c main_v4) (V c main_v26) (V c main_v15) (((cfg1.win 3).blk t).view.emb (ix2 p q))
  refine (pay1_2 _ _ _ p q).trans ?_
  have h0 : ((cfg1.win 0).blk t).view.emb (ix2 p q) = ((cfg1.win 3).blk t).view.emb (ix2 p q) := by
    funext a; apply Fin.ext
    match a with
    | ⟨0, _⟩ => show win1_0.index t (0 : Fin 2) * 6000 + 1 * p.val = win1_3.index t (0 : Fin 2) * 6000 + 1 * p.val; omega
    | ⟨1, _⟩ => show win1_0.index t (1 : Fin 2) * 128 + 1 * q.val = win1_3.index t (1 : Fin 2) * 128 + 1 * q.val; omega
  have h1 : ((cfg1.win 1).blk t).view.emb (ix2 p q) = ((cfg1.win 3).blk t).view.emb (ix2 p q) := by
    funext a; apply Fin.ext
    match a with
    | ⟨0, _⟩ => show win1_1.index t (0 : Fin 2) * 6000 + 1 * p.val = win1_3.index t (0 : Fin 2) * 6000 + 1 * p.val; omega
    | ⟨1, _⟩ => show win1_1.index t (1 : Fin 2) * 128 + 1 * q.val = win1_3.index t (1 : Fin 2) * 128 + 1 * q.val; omega
  have h2 : ((cfg1.win 2).blk t).view.emb (ix2 p (0 : Fin 1))
      = ix2 (⟨((((cfg1.win 3).blk t).view.emb (ix2 p q)) 0).val, ((((cfg1.win 3).blk t).view.emb (ix2 p q)) 0).isLt⟩ : Fin 300000) (0 : Fin 1) := by
    funext a; apply Fin.ext
    match a with
    | ⟨0, _⟩ => show win1_2.index t (0 : Fin 2) * 6000 + 1 * p.val = win1_3.index t (0 : Fin 2) * 6000 + 1 * p.val; omega
    | ⟨1, _⟩ => show win1_2.index t (1 : Fin 2) * 1 + 1 * 0 = 0; omega
  show FloatOps.addf (FloatOps.mulf (V c main_v4 (((cfg1.win 0).blk t).view.emb (ix2 p q))) (Scalar.ofBits .f32 0x3F800000#32))
      (FloatOps.mulf (FloatOps.mulf (V c main_v26 (((cfg1.win 1).blk t).view.emb (ix2 p q))) (V c main_v15 (((cfg1.win 2).blk t).view.emb (ix2 p (0 : Fin 1))))) (Scalar.ofBits .f32 0x3F800000#32)) = _
  rw [h0, h1, h2]
  rfl

/-- An index of the array is in point `t`'s block of the output exactly when each coordinate is in the block's range. -/
theorem mem_blk1_3 (t : Fin cfg1.N) (i : S300000x128.Idx) :
    i ∈ ((cfg1.win 3).blk t).view.set ↔ ∀ a : Fin 2, win1_3.index t a * S6000x128.size a ≤ (i a).val ∧ (i a).val < win1_3.index t a * S6000x128.size a + S6000x128.size a := by
  show i ∈ ((View.whole main_v27_0).slice (win1_3.rect t)).set ↔ _
  rw [View.set_slice_whole, Rect.mem_set_unit]
  exact Iff.rfl

/-- The fifty blocks of 6000 rows tile the 300000 rows: row `r` is in block `r / 6000`. -/
theorem covered1_3 (i : S300000x128.Idx) : ∃ t : Fin cfg1.N, (cfg1.win 3).flush t = true ∧ i ∈ ((cfg1.win 3).blk t).view.set := by
  have hi0 : (i 0).val < 300000 := (i 0).isLt
  have hi1 : (i 1).val < 128 := (i 1).isLt
  have hN : cfg1.N = 50 := N_1
  let t : Fin cfg1.N := ⟨(i 0).val / 6000, by rw [hN]; omega⟩
  obtain ⟨e0, e1, e2, e3, e4, e5, e6, e7, e8, e9⟩ := idx_facts1 t
  have ht : t.val = (i 0).val / 6000 := rfl
  refine ⟨t, flush1_3 t, ?_⟩
  rw [mem_blk1_3]
  intro a
  match a with
  | ⟨0, _⟩ => show win1_3.index t (0 : Fin 2) * 6000 ≤ (i 0).val ∧ (i 0).val < win1_3.index t (0 : Fin 2) * 6000 + 6000; omega
  | ⟨1, _⟩ => show win1_3.index t (1 : Fin 2) * 128 ≤ (i 1).val ∧ (i 1).val < win1_3.index t (1 : Fin 2) * 128 + 128; omega

/-- An index of the array is in point `t`'s block of the output exactly when each coordinate is in the block's range. -/
theorem mem_blk1_4 (t : Fin cfg1.N) (i : S300000x128.Idx) :
    i ∈ ((cfg1.win 4).blk t).view.set ↔ ∀ a : Fin 2, win1_4.index t a * S6000x128.size a ≤ (i a).val ∧ (i a).val < win1_4.index t a * S6000x128.size a + S6000x128.size a := by
  show i ∈ ((View.whole main_v27_1).slice (win1_4.rect t)).set ↔ _
  rw [View.set_slice_whole, Rect.mem_set_unit]
  exact Iff.rfl

/-- The fifty blocks of 6000 rows tile the 300000 rows: row `r` is in block `r / 6000`. -/
theorem covered1_4 (i : S300000x128.Idx) : ∃ t : Fin cfg1.N, (cfg1.win 4).flush t = true ∧ i ∈ ((cfg1.win 4).blk t).view.set := by
  have hi0 : (i 0).val < 300000 := (i 0).isLt
  have hi1 : (i 1).val < 128 := (i 1).isLt
  have hN : cfg1.N = 50 := N_1
  let t : Fin cfg1.N := ⟨(i 0).val / 6000, by rw [hN]; omega⟩
  obtain ⟨e0, e1, e2, e3, e4, e5, e6, e7, e8, e9⟩ := idx_facts1 t
  have ht : t.val = (i 0).val / 6000 := rfl
  refine ⟨t, flush1_4 t, ?_⟩
  rw [mem_blk1_4]
  intro a
  match a with
  | ⟨0, _⟩ => show win1_4.index t (0 : Fin 2) * 6000 ≤ (i 0).val ∧ (i 0).val < win1_4.index t (0 : Fin 2) * 6000 + 6000; omega
  | ⟨1, _⟩ => show win1_4.index t (1 : Fin 2) * 128 ≤ (i 1).val ∧ (i 1).val < win1_4.index t (1 : Fin 2) * 128 + 128; omega

/-- Region 1 leaves its running-total output at the combination … -/
theorem arr1_3 (c : Dev nD) : (dat1 V c).arrAt 3 cfg1.N
    = combine (Scalar.ofBits .f32 0x3F800000#32) (V c main_v4) (V c main_v26) (V c main_v15) :=
  (dat1 V c).arrAt_eq_of_cover 3 _ (fun t _ => flushed1_3 V c t) covered1_3

/-- … and its scaled-messages output at the scaled rows. -/
theorem arr1_4 (c : Dev nD) : (dat1 V c).arrAt 4 cfg1.N = rowScale (V c main_v26) (V c main_v15) :=
  (dat1 V c).arrAt_eq_of_cover 4 _ (fun t _ => flushed1_4 V c t) covered1_4

end Cert.KernelIdeal.Blocks

end
-- ==== Proof.BlocksCombine3.lean ====
/-
  Region 3 of the idealized kernel program (the scale-and-accumulate body) read over whole arrays: of its two output
  arrays one ends at `rowScale` of the summed messages and the column, the other at `combine` of the running total, the
  summed messages and the column. Each grid point writes back one block of 6000 rows of each, which is that block of
  the whole-array function; the fifty blocks tile the arrays.
-/
import proofs.«102811_j48352741819110_1_alg».proof.Proof.Gen.KernelIdeal.Frame
import proofs.«102811_j48352741819110_1_alg».proof.Proof.BlocksCommon
import Idealize.ShloMosaic.Lib.Pipeline.Value
import Idealize.ShloMosaic.Lib.ValueIdx

set_option maxRecDepth 16384

noncomputable section

namespace Cert.KernelIdeal.Blocks

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

/-- The scaling payload at an entry of the block: the entry times its row's entry of the column block. -/
theorem pay3_1 (v0 : Vec F S6000x1 .f32) (v4 : Vec F S6000x128 .f32) (p : Fin 6000) (q : Fin 128) :
    k3_pay1 v0 v4 (ix2 p q) = FloatOps.mulf (v4 (ix2 p q)) (v0 (ix2 p (0 : Fin 1))) := by
  unfold k3_pay1
  simp only [shapeCast_self]
  show FloatOps.mulf (v4 (ix2 p q)) (broadcastTo S6000x128 v0 broadcasts_S6000x1_S6000x128 (ix2 p q)) = _
  rw [broadcastTo_apply v0 broadcasts_S6000x1_S6000x128 (ix2 p q) (ix2 p (0 : Fin 1)) (fun a => by
    match a with
    | ⟨0, _⟩ => rfl
    | ⟨1, _⟩ => rfl)]

/-- The accumulating payload at an entry of the block. -/
theorem pay3_2 (v0 : Vec F S6000x1 .f32) (v4 : Vec F S6000x128 .f32) (v8 : Vec F S6000x128 .f32) (p : Fin 6000) (q : Fin 128) :
    k3_pay2 v0 v4 v8 (ix2 p q)
      = FloatOps.addf (FloatOps.mulf (v8 (ix2 p q)) (Scalar.ofBits .f32 0x3F800000#32))
          (FloatOps.mulf (FloatOps.mulf (v4 (ix2 p q)) (v0 (ix2 p (0 : Fin 1)))) (Scalar.ofBits .f32 0x3F800000#32)) := by
  unfold k3_pay2
  simp only [shapeCast_self]
  show FloatOps.addf (FloatOps.mulf (v8 (ix2 p q)) (Scalar.ofBits .f32 0x3F800000#32))
      (FloatOps.mulf (k3_pay1 v0 v4 (ix2 p q)) (Scalar.ofBits .f32 0x3F800000#32)) = _
  rw [pay3_1]

/-- The printed index maps, decided over the grid: at point `t` every window's block is block `t` of the rows. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- What point `t` writes back to the scaled-messages output is block `t` of the scaled rows. -/
theorem flushed3_4 (c : Dev nD) (t : Fin cfg3.N) :
    (dat3 V c).flushed 4 t = ((cfg3.win 4).blk t).view.read (Elt F) (rowScale (V c main_v38) (V c main_v15)) := by
  show (cfg3.win 4).cut (grid3.coords t) ((dat3 V c).after 4 t) = _
  rw [after3_4]
  unfold out3_4
  rw [View.canon_unit_zero hz]
  simp only [View.ld_unit_zero (S := S6000x128) hz, View.ld_unit_zero (S := S6000x1) hz]
  obtain ⟨e0, e1, e2, e3, e4, e5, e6, e7, e8, e9⟩ := idx_facts3 t
  funext j
  obtain ⟨p, q, rfl⟩ : ∃ (p : Fin 6000) (q : Fin 128), j = ix2 p q := ⟨j 0, j 1, eq_ix2 j⟩
  show k3_pay1 (iblk3 V c 2 t) (iblk3 V c 1 t) (ix2 p q) = rowScale (V c main_v38) (V c main_v15) (((cfg3.win 4).blk t).view.emb (ix2 p q))
  refine (pay3_1 _ _ p q).trans ?_
  have h1 : ((cfg3.win 1).blk t).view.emb (ix2 p q) = ((cfg3.win 4).blk t).view.emb (ix2 p q) := by
    funext a; apply Fin.ext
    match a with
    | ⟨0, _⟩ => show win3_1.index t (0 : Fin 2) * 6000 + 1 * p.val = win3_4.index t (0 : Fin 2) * 6000 + 1 * p.val; omega
    | ⟨1, _⟩ => show win3_1.index t (1 : Fin 2) * 128 + 1 * q.val = win3_4.index t (1 : Fin 2) * 128 + 1 * q.val; omega
  have h2 : ((cfg3.win 2).blk t).view.emb (ix2 p (0 : Fin 1))
      = ix2 (⟨((((cfg3.win 4).blk t).view.emb (ix2 p q)) 0).val, ((((cfg3.win 4).blk t).view.emb (ix2 p q)) 0).isLt⟩ : Fin 300000) (0 : Fin 1) := by
    funext a; apply Fin.ext
    match a with
    | ⟨0, _⟩ => show win3_2.index t (0 : Fin 2) * 6000 + 1 * p.val = win3_4.index t (0 : Fin 2) * 6000 + 1 * p.val; omega
    | ⟨1, _⟩ => show win3_2.index t (1 : Fin 2) * 1 + 1 * 0 = 0; omega
  show FloatOps.mulf (V c main_v38 (((cfg3.win 1).blk t).view.emb (ix2 p q))) (V c main_v15 (((cfg3.win 2).blk t).view.emb (ix2 p (0 : Fin 1)))) = _
  rw [h1, h2]
  rfl

/-- What point `t` writes back to the running-total output is block `t` of the combination. -/
theorem flushed3_3 (c : Dev nD) (t : Fin cfg3.N) :
    (dat3 V c).flushed 3 t = ((cfg3.win 3).blk t).view.read (Elt F)
      (combine (Scalar.ofBits .f32 0x3F800000#32) (V c main_v27_0) (V c main_v38) (V c main_v15)) := by
  show (cfg3.win 3).cut (grid3.coords t) ((dat3 V c).after 3 t) = _
  rw [after3_3]
  unfold out3_3
  rw [View.canon_unit_zero hz]
  simp only [View.ld_unit_zero (S := S6000x128) hz, View.ld_unit_zero (S := S6000x1) hz]
  obtain ⟨e0, e1, e2, e3, e4, e5, e6, e7, e8, e9⟩ := idx_facts3 t
  funext j
  obtain ⟨p, q, rfl⟩ : ∃ (p : Fin 6000) (q : Fin 128), j = ix2 p q := ⟨j 0, j 1, eq_ix2 j⟩
  show k3_pay2 (iblk3 V c 2 t) (iblk3 V c 1 t) (iblk3 V c 0 t) (ix2 p q)
    = combine (Scalar.ofBits .f32 0x3F800000#32) (V c main_v27_0) (V c main_v38) (V c main_v15) (((cfg3.win 3).blk t).view.emb (ix2 p q))
  refine (pay3_2 _ _ _ p q).trans ?_
  have h0 : ((cfg3.win 0).blk t).view.emb (ix2 p q) = ((cfg3.win 3).blk t).view.emb (ix2 p q) := by
    funext a; apply Fin.ext
    match a with
    | ⟨0, _⟩ => show win3_0.index t (0 : Fin 2) * 6000 + 1 * p.val = win3_3.index t (0 : Fin 2) * 6000 + 1 * p.val; omega
    | ⟨1, _⟩ => show win3_0.index t (1 : Fin 2) * 128 + 1 * q.val = win3_3.index t (1 : Fin 2) * 128 + 1 * q.val; omega
  have h1 : ((cfg3.win 1).blk t).view.emb (ix2 p q) = ((cfg3.win 3).blk t).view.emb (ix2 p q) := by
    funext a; apply Fin.ext
    match a with
    | ⟨0, _⟩ => show win3_1.index t (0 : Fin 2) * 6000 + 1 * p.val = win3_3.index t (0 : Fin 2) * 6000 + 1 * p.val; omega
    | ⟨1, _⟩ => show win3_1.index t (1 : Fin 2) * 128 + 1 * q.val = win3_3.index t (1 : Fin 2) * 128 + 1 * q.val; omega
  have h2 : ((cfg3.win 2).blk t).view.emb (ix2 p (0 : Fin 1))
      = ix2 (⟨((((cfg3.win 3).blk t).view.emb (ix2 p q)) 0).val, ((((cfg3.win 3).blk t).view.emb (ix2 p q)) 0).isLt⟩ : Fin 300000) (0 : Fin 1) := by
    funext a; apply Fin.ext
    match a with
    | ⟨0, _⟩ => show win3_2.index t (0 : Fin 2) * 6000 + 1 * p.val = win3_3.index t (0 : Fin 2) * 6000 + 1 * p.val; omega
    | ⟨1, _⟩ => show win3_2.index t (1 : Fin 2) * 1 + 1 * 0 = 0; omega
  show FloatOps.addf (FloatOps.mulf (V c main_v27_0 (((cfg3.win 0).blk t).view.emb (ix2 p q))) (Scalar.ofBits .f32 0x3F800000#32))
      (FloatOps.mulf (FloatOps.mulf (V c main_v38 (((cfg3.win 1).blk t).view.emb (ix2 p q))) (V c main_v15 (((cfg3.win 2).blk t).view.emb (ix2 p (0 : Fin 1))))) (Scalar.ofBits .f32 0x3F800000#32)) = _
  rw [h0, h1, h2]
  rfl

/-- An index of the array is in point `t`'s block of the output exactly when each coordinate is in the block's range. -/
theorem mem_blk3_3 (t : Fin cfg3.N) (i : S300000x128.Idx) :
    i ∈ ((cfg3.win 3).blk t).view.set ↔ ∀ a : Fin 2, win3_3.index t a * S6000x128.size a ≤ (i a).val ∧ (i a).val < win3_3.index t a * S6000x128.size a + S6000x128.size a := by
  show i ∈ ((View.whole main_v39_0).slice (win3_3.rect t)).set ↔ _
  rw [View.set_slice_whole, Rect.mem_set_unit]
  exact Iff.rfl

/-- The fifty blocks of 6000 rows tile the 300000 rows: row `r` is in block `r / 6000`. -/
theorem covered3_3 (i : S300000x128.Idx) : ∃ t : Fin cfg3.N, (cfg3.win 3).flush t = true ∧ i ∈ ((cfg3.win 3).blk t).view.set := by
  have hi0 : (i 0).val < 300000 := (i 0).isLt
  have hi1 : (i 1).val < 128 := (i 1).isLt
  have hN : cfg3.N = 50 := N_3
  let t : Fin cfg3.N := ⟨(i 0).val / 6000, by rw [hN]; omega⟩
  obtain ⟨e0, e1, e2, e3, e4, e5, e6, e7, e8, e9⟩ := idx_facts3 t
  have ht : t.val = (i 0).val / 6000 := rfl
  refine ⟨t, flush3_3 t, ?_⟩
  rw [mem_blk3_3]
  intro a
  match a with
  | ⟨0, _⟩ => show win3_3.index t (0 : Fin 2) * 6000 ≤ (i 0).val ∧ (i 0).val < win3_3.index t (0 : Fin 2) * 6000 + 6000; omega
  | ⟨1, _⟩ => show win3_3.index t (1 : Fin 2) * 128 ≤ (i 1).val ∧ (i 1).val < win3_3.index t (1 : Fin 2) * 128 + 128; omega

/-- An index of the array is in point `t`'s block of the output exactly when each coordinate is in the block's range. -/
theorem mem_blk3_4 (t : Fin cfg3.N) (i : S300000x128.Idx) :
    i ∈ ((cfg3.win 4).blk t).view.set ↔ ∀ a : Fin 2, win3_4.index t a * S6000x128.size a ≤ (i a).val ∧ (i a).val < win3_4.index t a * S6000x128.size a + S6000x128.size a := by
  show i ∈ ((View.whole main_v39_1).slice (win3_4.rect t)).set ↔ _
  rw [View.set_slice_whole, Rect.mem_set_unit]
  exact Iff.rfl

/-- The fifty blocks of 6000 rows tile the 300000 rows: row `r` is in block `r / 6000`. -/
theorem covered3_4 (i : S300000x128.Idx) : ∃ t : Fin cfg3.N, (cfg3.win 4).flush t = true ∧ i ∈ ((cfg3.win 4).blk t).view.set := by
  have hi0 : (i 0).val < 300000 := (i 0).isLt
  have hi1 : (i 1).val < 128 := (i 1).isLt
  have hN : cfg3.N = 50 := N_3
  let t : Fin cfg3.N := ⟨(i 0).val / 6000, by rw [hN]; omega⟩
  obtain ⟨e0, e1, e2, e3, e4, e5, e6, e7, e8, e9⟩ := idx_facts3 t
  have ht : t.val = (i 0).val / 6000 := rfl
  refine ⟨t, flush3_4 t, ?_⟩
  rw [mem_blk3_4]
  intro a
  match a with
  | ⟨0, _⟩ => show win3_4.index t (0 : Fin 2) * 6000 ≤ (i 0).val ∧ (i 0).val < win3_4.index t (0 : Fin 2) * 6000 + 6000; omega
  | ⟨1, _⟩ => show win3_4.index t (1 : Fin 2) * 128 ≤ (i 1).val ∧ (i 1).val < win3_4.index t (1 : Fin 2) * 128 + 128; omega

/-- Region 3 leaves its running-total output at the combination … -/
theorem arr3_3 (c : Dev nD) : (dat3 V c).arrAt 3 cfg3.N
    = combine (Scalar.ofBits .f32 0x3F800000#32) (V c main_v27_0) (V c main_v38) (V c main_v15) :=
  (dat3 V c).arrAt_eq_of_cover 3 _ (fun t _ => flushed3_3 V c t) covered3_3

/-- … and its scaled-messages output at the scaled rows. -/
theorem arr3_4 (c : Dev nD) : (dat3 V c).arrAt 4 cfg3.N = rowScale (V c main_v38) (V c main_v15) :=
  (dat3 V c).arrAt_eq_of_cover 4 _ (fun t _ => flushed3_4 V c t) covered3_4

end Cert.KernelIdeal.Blocks

end
-- ==== Proof.BlocksCombine5.lean ====
/-
  Region 5 of the idealized kernel program (the scale-and-accumulate body) read over whole arrays: of its two output
  arrays one ends at `rowScale` of the summed messages and the column, the other at `combine` of the running total, the
  summed messages and the column. Each grid point writes back one block of 6000 rows of each, which is that block of
  the whole-array function; the fifty blocks tile the arrays.
-/
import proofs.«102811_j48352741819110_1_alg».proof.Proof.Gen.KernelIdeal.Frame
import proofs.«102811_j48352741819110_1_alg».proof.Proof.BlocksCommon
import Idealize.ShloMosaic.Lib.Pipeline.Value
import Idealize.ShloMosaic.Lib.ValueIdx

set_option maxRecDepth 16384

noncomputable section

namespace Cert.KernelIdeal.Blocks

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

/-- The scaling payload at an entry of the block: the entry times its row's entry of the column block. -/
theorem pay5_1 (v0 : Vec F S6000x1 .f32) (v4 : Vec F S6000x128 .f32) (p : Fin 6000) (q : Fin 128) :
    k5_pay1 v0 v4 (ix2 p q) = FloatOps.mulf (v4 (ix2 p q)) (v0 (ix2 p (0 : Fin 1))) := by
  unfold k5_pay1
  simp only [shapeCast_self]
  show FloatOps.mulf (v4 (ix2 p q)) (broadcastTo S6000x128 v0 broadcasts_S6000x1_S6000x128 (ix2 p q)) = _
  rw [broadcastTo_apply v0 broadcasts_S6000x1_S6000x128 (ix2 p q) (ix2 p (0 : Fin 1)) (fun a => by
    match a with
    | ⟨0, _⟩ => rfl
    | ⟨1, _⟩ => rfl)]

/-- The accumulating payload at an entry of the block. -/
theorem pay5_2 (v0 : Vec F S6000x1 .f32) (v4 : Vec F S6000x128 .f32) (v8 : Vec F S6000x128 .f32) (p : Fin 6000) (q : Fin 128) :
    k5_pay2 v0 v4 v8 (ix2 p q)
      = FloatOps.addf (FloatOps.mulf (v8 (ix2 p q)) (Scalar.ofBits .f32 0x3E800000#32))
          (FloatOps.mulf (FloatOps.mulf (v4 (ix2 p q)) (v0 (ix2 p (0 : Fin 1)))) (Scalar.ofBits .f32 0x3E800000#32)) := by
  unfold k5_pay2
  simp only [shapeCast_self]
  show FloatOps.addf (FloatOps.mulf (v8 (ix2 p q)) (Scalar.ofBits .f32 0x3E800000#32))
      (FloatOps.mulf (k5_pay1 v0 v4 (ix2 p q)) (Scalar.ofBits .f32 0x3E800000#32)) = _
  rw [pay5_1]

/-- The printed index maps, decided over the grid: at point `t` every window's block is block `t` of the rows. -/
theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0
    ∧ win5_4.index t (0 : Fin 2) = t.val ∧ win5_4.index t (1 : Fin 2) = 0 :=
  (by decide +kernel : ∀ t : Fin grid5.N, _)

/-- What point `t` writes back to the scaled-messages output is block `t` of the scaled rows. -/
theorem flushed5_4 (c : Dev nD) (t : Fin cfg5.N) :
    (dat5 V c).flushed 4 t = ((cfg5.win 4).blk t).view.read (Elt F) (rowScale (V c main_v50) (V c main_v15)) := by
  show (cfg5.win 4).cut (grid5.coords t) ((dat5 V c).after 4 t) = _
  rw [after5_4]
  unfold out5_4
  rw [View.canon_unit_zero hz]
  simp only [View.ld_unit_zero (S := S6000x128) hz, View.ld_unit_zero (S := S6000x1) hz]
  obtain ⟨e0, e1, e2, e3, e4, e5, e6, e7, e8, e9⟩ := idx_facts5 t
  funext j
  obtain ⟨p, q, rfl⟩ : ∃ (p : Fin 6000) (q : Fin 128), j = ix2 p q := ⟨j 0, j 1, eq_ix2 j⟩
  show k5_pay1 (iblk5 V c 2 t) (iblk5 V c 1 t) (ix2 p q) = rowScale (V c main_v50) (V c main_v15) (((cfg5.win 4).blk t).view.emb (ix2 p q))
  refine (pay5_1 _ _ p q).trans ?_
  have h1 : ((cfg5.win 1).blk t).view.emb (ix2 p q) = ((cfg5.win 4).blk t).view.emb (ix2 p q) := by
    funext a; apply Fin.ext
    match a with
    | ⟨0, _⟩ => show win5_1.index t (0 : Fin 2) * 6000 + 1 * p.val = win5_4.index t (0 : Fin 2) * 6000 + 1 * p.val; omega
    | ⟨1, _⟩ => show win5_1.index t (1 : Fin 2) * 128 + 1 * q.val = win5_4.index t (1 : Fin 2) * 128 + 1 * q.val; omega
  have h2 : ((cfg5.win 2).blk t).view.emb (ix2 p (0 : Fin 1))
      = ix2 (⟨((((cfg5.win 4).blk t).view.emb (ix2 p q)) 0).val, ((((cfg5.win 4).blk t).view.emb (ix2 p q)) 0).isLt⟩ : Fin 300000) (0 : Fin 1) := by
    funext a; apply Fin.ext
    match a with
    | ⟨0, _⟩ => show win5_2.index t (0 : Fin 2) * 6000 + 1 * p.val = win5_4.index t (0 : Fin 2) * 6000 + 1 * p.val; omega
    | ⟨1, _⟩ => show win5_2.index t (1 : Fin 2) * 1 + 1 * 0 = 0; omega
  show FloatOps.mulf (V c main_v50 (((cfg5.win 1).blk t).view.emb (ix2 p q))) (V c main_v15 (((cfg5.win 2).blk t).view.emb (ix2 p (0 : Fin 1)))) = _
  rw [h1, h2]
  rfl

/-- What point `t` writes back to the running-total output is block `t` of the combination. -/
theorem flushed5_3 (c : Dev nD) (t : Fin cfg5.N) :
    (dat5 V c).flushed 3 t = ((cfg5.win 3).blk t).view.read (Elt F)
      (combine (Scalar.ofBits .f32 0x3E800000#32) (V c main_v39_0) (V c main_v50) (V c main_v15)) := by
  show (cfg5.win 3).cut (grid5.coords t) ((dat5 V c).after 3 t) = _
  rw [after5_3]
  unfold out5_3
  rw [View.canon_unit_zero hz]
  simp only [View.ld_unit_zero (S := S6000x128) hz, View.ld_unit_zero (S := S6000x1) hz]
  obtain ⟨e0, e1, e2, e3, e4, e5, e6, e7, e8, e9⟩ := idx_facts5 t
  funext j
  obtain ⟨p, q, rfl⟩ : ∃ (p : Fin 6000) (q : Fin 128), j = ix2 p q := ⟨j 0, j 1, eq_ix2 j⟩
  show k5_pay2 (iblk5 V c 2 t) (iblk5 V c 1 t) (iblk5 V c 0 t) (ix2 p q)
    = combine (Scalar.ofBits .f32 0x3E800000#32) (V c main_v39_0) (V c main_v50) (V c main_v15) (((cfg5.win 3).blk t).view.emb (ix2 p q))
  refine (pay5_2 _ _ _ p q).trans ?_
  have h0 : ((cfg5.win 0).blk t).view.emb (ix2 p q) = ((cfg5.win 3).blk t).view.emb (ix2 p q) := by
    funext a; apply Fin.ext
    match a with
    | ⟨0, _⟩ => show win5_0.index t (0 : Fin 2) * 6000 + 1 * p.val = win5_3.index t (0 : Fin 2) * 6000 + 1 * p.val; omega
    | ⟨1, _⟩ => show win5_0.index t (1 : Fin 2) * 128 + 1 * q.val = win5_3.index t (1 : Fin 2) * 128 + 1 * q.val; omega
  have h1 : ((cfg5.win 1).blk t).view.emb (ix2 p q) = ((cfg5.win 3).blk t).view.emb (ix2 p q) := by
    funext a; apply Fin.ext
    match a with
    | ⟨0, _⟩ => show win5_1.index t (0 : Fin 2) * 6000 + 1 * p.val = win5_3.index t (0 : Fin 2) * 6000 + 1 * p.val; omega
    | ⟨1, _⟩ => show win5_1.index t (1 : Fin 2) * 128 + 1 * q.val = win5_3.index t (1 : Fin 2) * 128 + 1 * q.val; omega
  have h2 : ((cfg5.win 2).blk t).view.emb (ix2 p (0 : Fin 1))
      = ix2 (⟨((((cfg5.win 3).blk t).view.emb (ix2 p q)) 0).val, ((((cfg5.win 3).blk t).view.emb (ix2 p q)) 0).isLt⟩ : Fin 300000) (0 : Fin 1) := by
    funext a; apply Fin.ext
    match a with
    | ⟨0, _⟩ => show win5_2.index t (0 : Fin 2) * 6000 + 1 * p.val = win5_3.index t (0 : Fin 2) * 6000 + 1 * p.val; omega
    | ⟨1, _⟩ => show win5_2.index t (1 : Fin 2) * 1 + 1 * 0 = 0; omega
  show FloatOps.addf (FloatOps.mulf (V c main_v39_0 (((cfg5.win 0).blk t).view.emb (ix2 p q))) (Scalar.ofBits .f32 0x3E800000#32))
      (FloatOps.mulf (FloatOps.mulf (V c main_v50 (((cfg5.win 1).blk t).view.emb (ix2 p q))) (V c main_v15 (((cfg5.win 2).blk t).view.emb (ix2 p (0 : Fin 1))))) (Scalar.ofBits .f32 0x3E800000#32)) = _
  rw [h0, h1, h2]
  rfl

/-- An index of the array is in point `t`'s block of the output exactly when each coordinate is in the block's range. -/
theorem mem_blk5_3 (t : Fin cfg5.N) (i : S300000x128.Idx) :
    i ∈ ((cfg5.win 3).blk t).view.set ↔ ∀ a : Fin 2, win5_3.index t a * S6000x128.size a ≤ (i a).val ∧ (i a).val < win5_3.index t a * S6000x128.size a + S6000x128.size a := by
  show i ∈ ((View.whole main_v51_0).slice (win5_3.rect t)).set ↔ _
  rw [View.set_slice_whole, Rect.mem_set_unit]
  exact Iff.rfl

/-- The fifty blocks of 6000 rows tile the 300000 rows: row `r` is in block `r / 6000`. -/
theorem covered5_3 (i : S300000x128.Idx) : ∃ t : Fin cfg5.N, (cfg5.win 3).flush t = true ∧ i ∈ ((cfg5.win 3).blk t).view.set := by
  have hi0 : (i 0).val < 300000 := (i 0).isLt
  have hi1 : (i 1).val < 128 := (i 1).isLt
  have hN : cfg5.N = 50 := N_5
  let t : Fin cfg5.N := ⟨(i 0).val / 6000, by rw [hN]; omega⟩
  obtain ⟨e0, e1, e2, e3, e4, e5, e6, e7, e8, e9⟩ := idx_facts5 t
  have ht : t.val = (i 0).val / 6000 := rfl
  refine ⟨t, flush5_3 t, ?_⟩
  rw [mem_blk5_3]
  intro a
  match a with
  | ⟨0, _⟩ => show win5_3.index t (0 : Fin 2) * 6000 ≤ (i 0).val ∧ (i 0).val < win5_3.index t (0 : Fin 2) * 6000 + 6000; omega
  | ⟨1, _⟩ => show win5_3.index t (1 : Fin 2) * 128 ≤ (i 1).val ∧ (i 1).val < win5_3.index t (1 : Fin 2) * 128 + 128; omega

/-- An index of the array is in point `t`'s block of the output exactly when each coordinate is in the block's range. -/
theorem mem_blk5_4 (t : Fin cfg5.N) (i : S300000x128.Idx) :
    i ∈ ((cfg5.win 4).blk t).view.set ↔ ∀ a : Fin 2, win5_4.index t a * S6000x128.size a ≤ (i a).val ∧ (i a).val < win5_4.index t a * S6000x128.size a + S6000x128.size a := by
  show i ∈ ((View.whole main_v51_1).slice (win5_4.rect t)).set ↔ _
  rw [View.set_slice_whole, Rect.mem_set_unit]
  exact Iff.rfl

/-- The fifty blocks of 6000 rows tile the 300000 rows: row `r` is in block `r / 6000`. -/
theorem covered5_4 (i : S300000x128.Idx) : ∃ t : Fin cfg5.N, (cfg5.win 4).flush t = true ∧ i ∈ ((cfg5.win 4).blk t).view.set := by
  have hi0 : (i 0).val < 300000 := (i 0).isLt
  have hi1 : (i 1).val < 128 := (i 1).isLt
  have hN : cfg5.N = 50 := N_5
  let t : Fin cfg5.N := ⟨(i 0).val / 6000, by rw [hN]; omega⟩
  obtain ⟨e0, e1, e2, e3, e4, e5, e6, e7, e8, e9⟩ := idx_facts5 t
  have ht : t.val = (i 0).val / 6000 := rfl
  refine ⟨t, flush5_4 t, ?_⟩
  rw [mem_blk5_4]
  intro a
  match a with
  | ⟨0, _⟩ => show win5_4.index t (0 : Fin 2) * 6000 ≤ (i 0).val ∧ (i 0).val < win5_4.index t (0 : Fin 2) * 6000 + 6000; omega
  | ⟨1, _⟩ => show win5_4.index t (1 : Fin 2) * 128 ≤ (i 1).val ∧ (i 1).val < win5_4.index t (1 : Fin 2) * 128 + 128; omega

/-- Region 5 leaves its running-total output at the combination … -/
theorem arr5_3 (c : Dev nD) : (dat5 V c).arrAt 3 cfg5.N
    = combine (Scalar.ofBits .f32 0x3E800000#32) (V c main_v39_0) (V c main_v50) (V c main_v15) :=
  (dat5 V c).arrAt_eq_of_cover 3 _ (fun t _ => flushed5_3 V c t) covered5_3

/-- … and its scaled-messages output at the scaled rows. -/
theorem arr5_4 (c : Dev nD) : (dat5 V c).arrAt 4 cfg5.N = rowScale (V c main_v50) (V c main_v15) :=
  (dat5 V c).arrAt_eq_of_cover 4 _ (fun t _ => flushed5_4 V c t) covered5_4

end Cert.KernelIdeal.Blocks

end
-- ==== Proof.KernelChain.lean ====
/-
  The idealized kernel program's two results as one function of its argument arrays.

  The buffer contents at each boundary of the run are followed from the end back to the launch: a host stretch by the
  function it computes, a region by the whole-array form of its body, and every buffer a segment does not write by
  what it held before. What comes out is `kernelAcc`: three times, scale the rows by the weight column, gather and
  segment-sum them along the edges, scale again; the running total takes each layer with factor one, and the last
  step applies the factor one quarter to the total and to the third layer.
-/
import proofs.«102811_j48352741819110_1_alg».proof.Proof.Gen.KernelIdeal.Frame
import proofs.«102811_j48352741819110_1_alg».proof.Proof.KernelHost
import proofs.«102811_j48352741819110_1_alg».proof.Proof.BlocksScale0
import proofs.«102811_j48352741819110_1_alg».proof.Proof.BlocksScale2
import proofs.«102811_j48352741819110_1_alg».proof.Proof.BlocksScale4
import proofs.«102811_j48352741819110_1_alg».proof.Proof.BlocksCombine1
import proofs.«102811_j48352741819110_1_alg».proof.Proof.BlocksCombine3
import proofs.«102811_j48352741819110_1_alg».proof.Proof.BlocksCombine5

set_option maxRecDepth 16384

noncomputable section

namespace Cert.KernelIdeal.Chain

open Cert.KernelIdeal Cert.KernelIdeal.Gen Cert.KernelIdeal.Blocks
open Idealize.ShloMosaic Idealize.ShloMosaic.TcCoe Idealize.SL.Sem Idealize.ShloMosaic.StableHlo

variable {F : FTy → Type} [FloatOps F]

/-- The whole computation between the stacked features `x0`, the weight column `d` and the two index arrays. -/
def kernelAcc (x0 : FVec F S300000x128 .f32) (d : FVec F S300000x1 .f32) (src dst : IVec S600000 32) : FVec F S300000x128 .f32 :=
  combine (Scalar.ofBits .f32 0x3E800000#32)
    (combine (Scalar.ofBits .f32 0x3F800000#32)
      (combine (Scalar.ofBits .f32 0x3F800000#32) x0 (hostLayer (rowScale x0 d) src dst) d)
      (hostLayer (rowScale (rowScale (hostLayer (rowScale x0 d) src dst) d) d) src dst) d)
    (hostLayer (rowScale (rowScale (hostLayer (rowScale (rowScale (hostLayer (rowScale x0 d) src dst) d) d) src dst) d) d) src dst) d

variable (m : (ℓ : Loc nD τ sig) → Buf (Elt F) ℓ) (ρ : Dev nD → PrngReg)

/-! ## Region 0's entry -/

theorem s3_v1 (c : Dev nD) : W3 m ρ c (Proc.devRef .tc main_v1) = srcOf (m ((c : Thread nD τ).loc main_arg0)) :=
  (ops02_v1 (W2 m ρ c)).trans ((ops01_v1 (W1 m ρ c)).trans (ops0_v1 (W0 m ρ c)))
theorem s3_v3 (c : Dev nD) : W3 m ρ c (Proc.devRef .tc main_v3) = dstOf (m ((c : Thread nD τ).loc main_arg0)) :=
  (ops02_v3 (W2 m ρ c)).trans ((ops01_v3 (W1 m ρ c)).trans (ops0_v3 (W0 m ρ c)))
theorem s3_v4 (c : Dev nD) : W3 m ρ c (Proc.devRef .tc main_v4)
    = x0Of (m ((c : Thread nD τ).loc main_arg1)) (m ((c : Thread nD τ).loc main_arg2)) :=
  (ops02_v4 (W2 m ρ c)).trans ((ops01_v4 (W1 m ρ c)).trans (ops0_v4 (W0 m ρ c)))
theorem s3_v15 (c : Dev nD) : W3 m ρ c (Proc.devRef .tc main_v15) = colOf (dinvOf (dstOf (m ((c : Thread nD τ).loc main_arg0)))) := by
  refine (ops02_v15 (W2 m ρ c)).trans (congrArg colOf ?_)
  refine (ops01_v14 (W1 m ρ c)).trans ?_
  show select (StableHlo.after hostOps0 (W0 m ρ c) (Proc.devRef .tc main_v10)) (StableHlo.after hostOps0 (W0 m ρ c) (Proc.devRef .tc main_v13))
    (broadcastInDim S300000 ![] bcast_S_S300000 (id (StableHlo.after hostOps0 (W0 m ρ c) (Proc.devRef .tc main_cst_3)))) = _
  rw [ops0_v10, ops0_v13, ops0_cst3]
  rfl

/-! ## One boundary at a time -/

theorem s4_v16 (c : Dev nD) : W4 m ρ c (Proc.devRef .tc main_v16) = rowScale (W3 m ρ c (Proc.devRef .tc main_v4)) (W3 m ρ c (Proc.devRef .tc main_v15)) :=
  (W4_arr m ρ c 2).trans (arr0_2 (V3 m ρ) c)
theorem s4_v1 (c : Dev nD) : W4 m ρ c (Proc.devRef .tc main_v1) = W3 m ρ c (Proc.devRef .tc main_v1) :=
  W4_of_ne m ρ c main_v1 (by decide)
theorem s4_v3 (c : Dev nD) : W4 m ρ c (Proc.devRef .tc main_v3) = W3 m ρ c (Proc.devRef .tc main_v3) :=
  W4_of_ne m ρ c main_v3 (by decide)
theorem s4_v4 (c : Dev nD) : W4 m ρ c (Proc.devRef .tc main_v4) = W3 m ρ c (Proc.devRef .tc main_v4) :=
  (W4_arr m ρ c 0).trans (((dat0 (V3 m ρ) c).arrAt_in 0 rfl cfg0.N).trans (A_eq0 (V3 m ρ) c 0))
theorem s4_v15 (c : Dev nD) : W4 m ρ c (Proc.devRef .tc main_v15) = W3 m ρ c (Proc.devRef .tc main_v15) :=
  (W4_arr m ρ c 1).trans (((dat0 (V3 m ρ) c).arrAt_in 1 rfl cfg0.N).trans (A_eq0 (V3 m ρ) c 1))
theorem s5_v26 (c : Dev nD) : W5 m ρ c (Proc.devRef .tc main_v26) = hostLayer (W4 m ρ c (Proc.devRef .tc main_v16)) (W4 m ρ c (Proc.devRef .tc main_v1)) (W4 m ρ c (Proc.devRef .tc main_v3)) :=
  ops1_v26 (W4 m ρ c)
theorem s5_v1 (c : Dev nD) : W5 m ρ c (Proc.devRef .tc main_v1) = W4 m ρ c (Proc.devRef .tc main_v1) :=
  ops1_v1 (W4 m ρ c)
theorem s5_v3 (c : Dev nD) : W5 m ρ c (Proc.devRef .tc main_v3) = W4 m ρ c (Proc.devRef .tc main_v3) :=
  ops1_v3 (W4 m ρ c)
theorem s5_v4 (c : Dev nD) : W5 m ρ c (Proc.devRef .tc main_v4) = W4 m ρ c (Proc.devRef .tc main_v4) :=
  ops1_v4 (W4 m ρ c)
theorem s5_v15 (c : Dev nD) : W5 m ρ c (Proc.devRef .tc main_v15) = W4 m ρ c (Proc.devRef .tc main_v15) :=
  ops1_v15 (W4 m ρ c)
theorem s6_v27_0 (c : Dev nD) : W6 m ρ c (Proc.devRef .tc main_v27_0) = combine (Scalar.ofBits .f32 0x3F800000#32) (W5 m ρ c (Proc.devRef .tc main_v4)) (W5 m ρ c (Proc.devRef .tc main_v26)) (W5 m ρ c (Proc.devRef .tc main_v15)) :=
  (W6_arr m ρ c 3).trans (arr1_3 (V5 m ρ) c)
theorem s6_v27_1 (c : Dev nD) : W6 m ρ c (Proc.devRef .tc main_v27_1) = rowScale (W5 m ρ c (Proc.devRef .tc main_v26)) (W5 m ρ c (Proc.devRef .tc main_v15)) :=
  (W6_arr m ρ c 4).trans (arr1_4 (V5 m ρ) c)
theorem s6_v1 (c : Dev nD) : W6 m ρ c (Proc.devRef .tc main_v1) = W5 m ρ c (Proc.devRef .tc main_v1) :=
  W6_of_ne m ρ c main_v1 (by decide)
theorem s6_v3 (c : Dev nD) : W6 m ρ c (Proc.devRef .tc main_v3) = W5 m ρ c (Proc.devRef .tc main_v3) :=
  W6_of_ne m ρ c main_v3 (by decide)
theorem s6_v15 (c : Dev nD) : W6 m ρ c (Proc.devRef .tc main_v15) = W5 m ρ c (Proc.devRef .tc main_v15) :=
  (W6_arr m ρ c 2).trans (((dat1 (V5 m ρ) c).arrAt_in 2 rfl cfg1.N).trans (A_eq1 (V5 m ρ) c 2))
theorem s7_v28 (c : Dev nD) : W7 m ρ c (Proc.devRef .tc main_v28) = rowScale (W6 m ρ c (Proc.devRef .tc main_v27_1)) (W6 m ρ c (Proc.devRef .tc main_v15)) :=
  (W7_arr m ρ c 2).trans (arr2_2 (V6 m ρ) c)
theorem s7_v1 (c : Dev nD) : W7 m ρ c (Proc.devRef .tc main_v1) = W6 m ρ c (Proc.devRef .tc main_v1) :=
  W7_of_ne m ρ c main_v1 (by decide)
theorem s7_v3 (c : Dev nD) : W7 m ρ c (Proc.devRef .tc main_v3) = W6 m ρ c (Proc.devRef .tc main_v3) :=
  W7_of_ne m ρ c main_v3 (by decide)
theorem s7_v15 (c : Dev nD) : W7 m ρ c (Proc.devRef .tc main_v15) = W6 m ρ c (Proc.devRef .tc main_v15) :=
  (W7_arr m ρ c 1).trans (((dat2 (V6 m ρ) c).arrAt_in 1 rfl cfg2.N).trans (A_eq2 (V6 m ρ) c 1))
theorem s7_v27_0 (c : Dev nD) : W7 m ρ c (Proc.devRef .tc main_v27_0) = W6 m ρ c (Proc.devRef .tc main_v27_0) :=
  W7_of_ne m ρ c main_v27_0 (by decide)
theorem s8_v38 (c : Dev nD) : W8 m ρ c (Proc.devRef .tc main_v38) = hostLayer (W7 m ρ c (Proc.devRef .tc main_v28)) (W7 m ρ c (Proc.devRef .tc main_v1)) (W7 m ρ c (Proc.devRef .tc main_v3)) :=
  ops3_v38 (W7 m ρ c)
theorem s8_v1 (c : Dev nD) : W8 m ρ c (Proc.devRef .tc main_v1) = W7 m ρ c (Proc.devRef .tc main_v1) :=
  ops3_v1 (W7 m ρ c)
theorem s8_v3 (c : Dev nD) : W8 m ρ c (Proc.devRef .tc main_v3) = W7 m ρ c (Proc.devRef .tc main_v3) :=
  ops3_v3 (W7 m ρ c)
theorem s8_v15 (c : Dev nD) : W8 m ρ c (Proc.devRef .tc main_v15) = W7 m ρ c (Proc.devRef .tc main_v15) :=
  ops3_v15 (W7 m ρ c)
theorem s8_v27_0 (c : Dev nD) : W8 m ρ c (Proc.devRef .tc main_v27_0) = W7 m ρ c (Proc.devRef .tc main_v27_0) :=
  ops3_v27_0 (W7 m ρ c)
theorem s9_v39_0 (c : Dev nD) : W9 m ρ c (Proc.devRef .tc main_v39_0) = combine (Scalar.ofBits .f32 0x3F800000#32) (W8 m ρ c (Proc.devRef .tc main_v27_0)) (W8 m ρ c (Proc.devRef .tc main_v38)) (W8 m ρ c (Proc.devRef .tc main_v15)) :=
  (W9_arr m ρ c 3).trans (arr3_3 (V8 m ρ) c)
theorem s9_v39_1 (c : Dev nD) : W9 m ρ c (Proc.devRef .tc main_v39_1) = rowScale (W8 m ρ c (Proc.devRef .tc main_v38)) (W8 m ρ c (Proc.devRef .tc main_v15)) :=
  (W9_arr m ρ c 4).trans (arr3_4 (V8 m ρ) c)
theorem s9_v1 (c : Dev nD) : W9 m ρ c (Proc.devRef .tc main_v1) = W8 m ρ c (Proc.devRef .tc main_v1) :=
  W9_of_ne m ρ c main_v1 (by decide)
theorem s9_v3 (c : Dev nD) : W9 m ρ c (Proc.devRef .tc main_v3) = W8 m ρ c (Proc.devRef .tc main_v3) :=
  W9_of_ne m ρ c main_v3 (by decide)
theorem s9_v15 (c : Dev nD) : W9 m ρ c (Proc.devRef .tc main_v15) = W8 m ρ c (Proc.devRef .tc main_v15) :=
  (W9_arr m ρ c 2).trans (((dat3 (V8 m ρ) c).arrAt_in 2 rfl cfg3.N).trans (A_eq3 (V8 m ρ) c 2))
theorem s10_v40 (c : Dev nD) : W10 m ρ c (Proc.devRef .tc main_v40) = rowScale (W9 m ρ c (Proc.devRef .tc main_v39_1)) (W9 m ρ c (Proc.devRef .tc main_v15)) :=
  (W10_arr m ρ c 2).trans (arr4_2 (V9 m ρ) c)
theorem s10_v1 (c : Dev nD) : W10 m ρ c (Proc.devRef .tc main_v1) = W9 m ρ c (Proc.devRef .tc main_v1) :=
  W10_of_ne m ρ c main_v1 (by decide)
theorem s10_v3 (c : Dev nD) : W10 m ρ c (Proc.devRef .tc main_v3) = W9 m ρ c (Proc.devRef .tc main_v3) :=
  W10_of_ne m ρ c main_v3 (by decide)
theorem s10_v15 (c : Dev nD) : W10 m ρ c (Proc.devRef .tc main_v15) = W9 m ρ c (Proc.devRef .tc main_v15) :=
  (W10_arr m ρ c 1).trans (((dat4 (V9 m ρ) c).arrAt_in 1 rfl cfg4.N).trans (A_eq4 (V9 m ρ) c 1))
theorem s10_v39_0 (c : Dev nD) : W10 m ρ c (Proc.devRef .tc main_v39_0) = W9 m ρ c (Proc.devRef .tc main_v39_0) :=
  W10_of_ne m ρ c main_v39_0 (by decide)
theorem s11_v50 (c : Dev nD) : W11 m ρ c (Proc.devRef .tc main_v50) = hostLayer (W10 m ρ c (Proc.devRef .tc main_v40)) (W10 m ρ c (Proc.devRef .tc main_v1)) (W10 m ρ c (Proc.devRef .tc main_v3)) :=
  ops5_v50 (W10 m ρ c)
theorem s11_v15 (c : Dev nD) : W11 m ρ c (Proc.devRef .tc main_v15) = W10 m ρ c (Proc.devRef .tc main_v15) :=
  ops5_v15 (W10 m ρ c)
theorem s11_v39_0 (c : Dev nD) : W11 m ρ c (Proc.devRef .tc main_v39_0) = W10 m ρ c (Proc.devRef .tc main_v39_0) :=
  ops5_v39_0 (W10 m ρ c)
theorem s12_v51_0 (c : Dev nD) : W12 m ρ c (Proc.devRef .tc main_v51_0) = combine (Scalar.ofBits .f32 0x3E800000#32) (W11 m ρ c (Proc.devRef .tc main_v39_0)) (W11 m ρ c (Proc.devRef .tc main_v50)) (W11 m ρ c (Proc.devRef .tc main_v15)) :=
  (W12_arr m ρ c 3).trans (arr5_3 (V11 m ρ) c)
theorem s13_v52 (c : Dev nD) : W13 m ρ c (Proc.devRef .tc main_v52) = usersOf (W12 m ρ c (Proc.devRef .tc main_v51_0)) :=
  ops6_v52 (W12 m ρ c)
theorem s13_v53 (c : Dev nD) : W13 m ρ c (Proc.devRef .tc main_v53) = itemsOf (W12 m ρ c (Proc.devRef .tc main_v51_0)) :=
  ops6_v53 (W12 m ρ c)

/-! ## The results -/

theorem acc_eq (c : Dev nD) : W12 m ρ c (Proc.devRef .tc main_v51_0)
    = kernelAcc (x0Of (m ((c : Thread nD τ).loc main_arg1)) (m ((c : Thread nD τ).loc main_arg2)))
        (colOf (dinvOf (dstOf (m ((c : Thread nD τ).loc main_arg0)))))
        (srcOf (m ((c : Thread nD τ).loc main_arg0))) (dstOf (m ((c : Thread nD τ).loc main_arg0))) := by
  rw [s12_v51_0, s11_v39_0, s11_v15, s11_v50, s10_v39_0, s10_v15, s10_v3, s10_v1, s10_v40, s9_v15, s9_v3, s9_v1, s9_v39_1, s9_v39_0, s8_v27_0, s8_v15, s8_v3, s8_v1, s8_v38, s7_v27_0, s7_v15, s7_v3, s7_v1, s7_v28, s6_v15, s6_v3, s6_v1, s6_v27_1, s6_v27_0, s5_v15, s5_v4, s5_v3, s5_v1, s5_v26, s4_v15, s4_v4, s4_v3, s4_v1, s4_v16, s3_v1, s3_v3, s3_v4, s3_v15]
  rfl

theorem users_eq (c : Dev nD) : W13 m ρ c (Proc.devRef .tc main_v52)
    = usersOf (kernelAcc (x0Of (m ((c : Thread nD τ).loc main_arg1)) (m ((c : Thread nD τ).loc main_arg2)))
        (colOf (dinvOf (dstOf (m ((c : Thread nD τ).loc main_arg0)))))
        (srcOf (m ((c : Thread nD τ).loc main_arg0))) (dstOf (m ((c : Thread nD τ).loc main_arg0)))) :=
  (s13_v52 m ρ c).trans (congrArg usersOf (acc_eq m ρ c))

theorem items_eq (c : Dev nD) : W13 m ρ c (Proc.devRef .tc main_v53)
    = itemsOf (kernelAcc (x0Of (m ((c : Thread nD τ).loc main_arg1)) (m ((c : Thread nD τ).loc main_arg2)))
        (colOf (dinvOf (dstOf (m ((c : Thread nD τ).loc main_arg0)))))
        (srcOf (m ((c : Thread nD τ).loc main_arg0))) (dstOf (m ((c : Thread nD τ).loc main_arg0)))) :=
  (s13_v53 m ρ c).trans (congrArg itemsOf (acc_eq m ρ c))

end Cert.KernelIdeal.Chain

end
-- ==== Proof.RefValue.lean ====
/-
  The idealized reference program's two results as one function of its argument arrays.

  The reference's run ends with each result at the composed term of its 169 host operations. That term is the
  following: the two rows of the edge list (`srcOf`, `dstOf`), the node features stacked (`x0Of`), the in-degree as a
  segment sum of ones (`degOf`), the weight `1 / sqrt(max(deg, ε))` where the degree is positive and zero elsewhere
  (`dinvOf`), one propagation layer `refLayer` (gather the source rows, multiply each by the product of the weights
  gathered at the edge's two ends, segment-sum into the target rows), and `refAcc`, the features plus three successive
  layers, divided by four; the results are its two row ranges.
-/
import proofs.«102811_j48352741819110_1_alg».proof.Proof.RefRun

set_option maxRecDepth 16384

noncomputable section

namespace Cert.ReferenceIdeal.RefValue

open Cert.ReferenceIdeal Cert.ReferenceIdeal.Gen
open Idealize.ShloMosaic Idealize.ShloMosaic.TcCoe Idealize.SL.Sem

variable {F : FTy → Type} [FloatOps F]

def srcOf (a0 : IVec S2x600000 32) : IVec S600000 32 :=
  shapeCast S600000 (extractStridedSlice S1x600000 ![0, 0] a0 slices_S2x600000_S1x600000_0_0) shapeCasts_S1x600000_S600000

def dstOf (a0 : IVec S2x600000 32) : IVec S600000 32 :=
  shapeCast S600000 (extractStridedSlice S1x600000 ![1, 0] a0 slices_S2x600000_S1x600000_1_0) shapeCasts_S1x600000_S600000

def x0Of (a1 : FVec F S100000x128 .f32) (a2 : FVec F S200000x128 .f32) : FVec F S300000x128 .f32 :=
  concatenate S300000x128 0 [⟨S100000x128, a1⟩, ⟨S200000x128, a2⟩] concatenates_S100000x128_S200000x128_S300000x128_d0

def degOf (dst : IVec S600000 32) : FVec F S300000 .f32 :=
  Host.scatterAdd scatter_S300000_S600000x1_S600000_n_0_0_1
    (broadcastInDim S300000 ![] bcast_S_S300000 (constant (F := F) S_ .f32 0x00000000#32))
    (broadcastInDim S600000x1 ![0] bcast_S600000_S600000x1_0 dst)
    (broadcastInDim S600000 ![] bcast_S_S600000 (constant (F := F) S_ .f32 0x3F800000#32))

def dinvOf (dst : IVec S600000 32) : FVec F S300000 .f32 :=
  select (cmpf (F := F) .ogt (degOf dst) (broadcastInDim S300000 ![] bcast_S_S300000 (constant (F := F) S_ .f32 0x00000000#32)))
    (Host.rsqrt (maximumf (degOf dst) (broadcastInDim S300000 ![] bcast_S_S300000 (constant (F := F) S_ .f32 0x2B8CBCCC#32))))
    (broadcastInDim S300000 ![] bcast_S_S300000 (id (constant (F := F) S_ .f32 0x00000000#32)))

/-- An index array as a gather's column of start indices: a negative entry wrapped by the table's length once. -/
def wrapCol (v : IVec S600000 32) : IVec S600000x1 32 :=
  broadcastInDim S600000x1 ![0] bcast_S600000_S600000x1_0
    (select (cmpi .slt v (broadcastInDim S600000 ![] bcast_S_S600000 (constantI S_ 32 0#32)))
      (addi v (broadcastInDim S600000 ![] bcast_S_S600000 (constantI S_ 32 300000#32))) v)

/-- One propagation layer of the reference. -/
def refLayer (src dst : IVec S600000 32) (x : FVec F S300000x128 .f32) : FVec F S300000x128 .f32 :=
  Host.scatterAdd scatter_S300000x128_S600000x1_S600000x128_1_0_0_1
    (broadcastInDim S300000x128 ![] bcast_S_S300000x128 (constant (F := F) S_ .f32 0x00000000#32))
    (broadcastInDim S600000x1 ![0] bcast_S600000_S600000x1_0 dst)
    (mulf (Host.gather gather_S300000x128_S600000x1_S600000x128_1_0_n_n_0_1_1128 x (wrapCol src))
      (broadcastInDim S600000x128 ![0, 1] bcast_S600000x1_S600000x128_0_1
        (broadcastInDim S600000x1 ![0] bcast_S600000_S600000x1_0
          (mulf (Host.gather gather_S300000_S600000x1_S600000_n_0_n_n_0_1_1 (dinvOf (F := F) dst) (wrapCol src))
            (Host.gather gather_S300000_S600000x1_S600000_n_0_n_n_0_1_1 (dinvOf (F := F) dst) (wrapCol dst))))))

/-- The features plus three successive layers, over four. -/
def refAcc (a0 : IVec S2x600000 32) (a1 : FVec F S100000x128 .f32) (a2 : FVec F S200000x128 .f32) : FVec F S300000x128 .f32 :=
  Host.divf
    (addf (addf (addf (x0Of a1 a2) (refLayer (srcOf a0) (dstOf a0) (x0Of a1 a2)))
        (refLayer (srcOf a0) (dstOf a0) (refLayer (srcOf a0) (dstOf a0) (x0Of a1 a2))))
      (refLayer (srcOf a0) (dstOf a0) (refLayer (srcOf a0) (dstOf a0) (refLayer (srcOf a0) (dstOf a0) (x0Of a1 a2)))))
    (broadcastInDim S300000x128 ![] bcast_S_S300000x128 (constant (F := F) S_ .f32 0x40800000#32))

variable (m : (ℓ : Loc nD τ sig) → Buf (Elt F) ℓ)

set_option maxHeartbeats 4000000 in
/-- The run's first result is the first 100000 rows of `refAcc` of the argument arrays … -/
theorem users_eq (c : Dev nD) : ValueP.res_main_v124 m c
    = extractStridedSlice S100000x128 ![0, 0]
        (refAcc (m ((c.tc : Thread nD τ).loc main_arg0)) (m ((c.tc : Thread nD τ).loc main_arg1)) (m ((c.tc : Thread nD τ).loc main_arg2)))
        slices_S300000x128_S100000x128_0_0 := by
  unfold ValueP.res_main_v124
  rfl

set_option maxHeartbeats 4000000 in
/-- … and its second the other 200000 rows. -/
theorem items_eq (c : Dev nD) : ValueP.res_main_v125 m c
    = extractStridedSlice S200000x128 ![100000, 0]
        (refAcc (m ((c.tc : Thread nD τ).loc main_arg0)) (m ((c.tc : Thread nD τ).loc main_arg1)) (m ((c.tc : Thread nD τ).loc main_arg2)))
        slices_S300000x128_S200000x128_100000_0 := by
  unfold ValueP.res_main_v125
  rfl

end Cert.ReferenceIdeal.RefValue

end
-- ==== Proof.LibRowIndexing.lean ====
/-
  Row gather and accumulating row scatter read at an index, for the dimension numbers that `x[idx]` and
  `segment_sum` lower to.

  A table `x : [N, F]` (or a flat array `[N]`) is indexed by an integer column `idx : [E, 1]`.
  * GATHER: result row `e` is the table's row at `idx[e, 0]`, the index read as a signed integer and clamped
    into `[0, N − 1]` (every start index of a gather is clamped so that its slice fits).
  * SCATTER with an `add` body, at the ideal instance: element `(r, f)` of the result is the operand's element plus
    the sum of the updates `upd[e, f]` over the edges `e` whose index `idx[e, 0]`, read signed and NOT clamped, is `r`;
    an index outside `[0, N)` lands nowhere and contributes nothing.
  Shapes are parameters, so each statement serves every literal shape of a program; a program's own record of
  dimension numbers is one of the records below by `rfl`.
-/
import Idealize.ShloMosaic.PureOps.Ideal
import Idealize.ShloMosaic.Lib.ValueIdx

noncomputable section

namespace Cert.Gcn

open Idealize.ShloMosaic Idealize.ShloMosaic.ValueIdx

/-! ## Gather -/

section Gather
variable {α : Type}

/-- The dimension numbers of `x[idx]` for a table `[N, F]` and an index column `[E, 1]`: the row axis collapsed
    and indexed, the feature axis kept whole. -/
abbrev rowGatherDims (N E F : Nat)
    (wf : GatherDims.WF ⟨2, ![N, F]⟩ ⟨2, ![E, 1]⟩ ⟨2, ![E, F]⟩ [1] [0] [] [0] [] 1 ![1, F]) :
    GatherDims ⟨2, ![N, F]⟩ ⟨2, ![E, 1]⟩ ⟨2, ![E, F]⟩ where
  offsetDims := [1]
  collapsedSliceDims := [0]
  operandBatchingDims := []
  startIndicesBatchingDims := []
  startIndexMap := [0]
  indexVectorDim := 1
  sliceSizes := ![1, F]
  wf := wf

/-- The row a gather reads for edge `e`: the index read signed, clamped into `[0, N − 1]`. -/
def clampRow {N w : Nat} (hN : 0 < N) (v : BitVec w) : Fin N := ⟨min v.toInt.toNat (N - 1), by omega⟩

/-- THE ROW GATHER AT `(e, f)`: the table at the clamped row, same feature. -/
theorem rowGather_apply {N E F w : Nat} (hN : 0 < N)
    (wf : GatherDims.WF ⟨2, ![N, F]⟩ ⟨2, ![E, 1]⟩ ⟨2, ![E, F]⟩ [1] [0] [] [0] [] 1 ![1, F])
    (x : (⟨2, ![N, F]⟩ : Shape).Idx → α) (idx : IVec ⟨2, ![E, 1]⟩ w) (e : Fin E) (f : Fin F) :
    Host.gather (rowGatherDims N E F wf) x idx (ix2 e f) = x (ix2 (clampRow hN (idx (ix2 e (0 : Fin 1)))) f) := by
  unfold Host.gather
  congr 1
  funext a
  refine Fin.ext ?_
  have hsi : (rowGatherDims N E F wf).siIdx (ix2 e f) ⟨List.idxOf (0 : Fin 2) (rowGatherDims N E F wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  match a with
  | ⟨0, _⟩ =>
    show (rowGatherDims N E F wf).start (ix2 e f) idx (0 : Fin 2) + (rowGatherDims N E F wf).batchCoord (ix2 e f) (0 : Fin 2)
        + (rowGatherDims N E F wf).offCoord (ix2 e f) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E F wf).startIndexMap from List.mem_singleton.mpr rfl)]
    rw [hsi]
    rfl
  | ⟨1, _⟩ =>
    show (rowGatherDims N E F wf).start (ix2 e f) idx (1 : Fin 2) + (rowGatherDims N E F wf).batchCoord (ix2 e f) (1 : Fin 2)
        + (rowGatherDims N E F wf).offCoord (ix2 e f) (1 : Fin 2) = _
    rw [GatherDims.batchCoord_eq_zero _ _ _ List.not_mem_nil]
    unfold GatherDims.start
    rw [dif_neg (show (1 : Fin 2) ∉ [(0 : Fin 2)] from by decide)]
    simp only [Nat.zero_add]
    unfold GatherDims.offCoord
    rw [dif_pos (show (1 : Fin 2) ∈ (rowGatherDims N E F wf).sKept from by
      rw [GatherDims.mem_sKept]; exact ⟨(show (1 : Fin 2) ∉ [(0 : Fin 2)] from by decide), List.not_mem_nil⟩)]
    rfl

/-- The dimension numbers of `x[idx]` for a flat array `[N]` and an index column `[E, 1]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER AT `e`: the array at the clamped index. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow hN (idx (ix2 e (0 : Fin 1))))) := by
  unfold Host.gather
  congr 1
  funext a
  obtain rfl : a = 0 := Subsingleton.elim _ _
  refine Fin.ext ?_
  show (vecGatherDims N E wf).start (ix1 e) idx 0 + (vecGatherDims N E wf).batchCoord (ix1 e) 0
      + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

/-! ## Accumulating scatter -/

section Scatter

/-- The dimension numbers of `segment_sum` into a table `[N, F]` from updates `[E, F]` by an index column `[E, 1]`:
    the row axis indexed, the feature axis a window kept whole. -/
abbrev rowScatterDims (N E F : Nat)
    (wf : ScatterDims.WF ⟨2, ![N, F]⟩ ⟨2, ![E, 1]⟩ ⟨2, ![E, F]⟩ [1] [0] [0] 1) :
    ScatterDims ⟨2, ![N, F]⟩ ⟨2, ![E, 1]⟩ ⟨2, ![E, F]⟩ where
  updateWindowDims := [1]
  insertedWindowDims := [0]
  scatterDimsToOperandDims := [0]
  indexVectorDim := 1
  wf := wf

variable {N E F w : Nat} (wf : ScatterDims.WF ⟨2, ![N, F]⟩ ⟨2, ![E, 1]⟩ ⟨2, ![E, F]⟩ [1] [0] [0] 1)
  (idx : IVec ⟨2, ![E, 1]⟩ w) (e : Fin E) (f : Fin F)

/-- On the row axis an update starts at its edge's index, read signed. -/
theorem rowScatter_start0 : (rowScatterDims N E F wf).start (ix2 e f) idx (0 : Fin 2) = (idx (ix2 e (0 : Fin 1))).toInt := by
  unfold ScatterDims.start
  rw [dif_pos (show (0 : Fin 2) ∈ (rowScatterDims N E F wf).scatterDimsToOperandDims from List.mem_singleton.mpr rfl)]
  have hsi : (rowScatterDims N E F wf).siIdx (ix2 e f) ⟨List.idxOf (0 : Fin 2) (rowScatterDims N E F wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the feature axis it starts at zero. -/
theorem rowScatter_start1 : (rowScatterDims N E F wf).start (ix2 e f) idx (1 : Fin 2) = 0 := by
  unfold ScatterDims.start
  rw [dif_neg (show (1 : Fin 2) ∉ [(0 : Fin 2)] from by decide)]

/-- The row axis is no window axis. -/
theorem rowScatter_window0 : (rowScatterDims N E F wf).window (ix2 e f) (0 : Fin 2) = 0 := by
  unfold ScatterDims.window
  rw [dif_neg (show (0 : Fin 2) ∉ (rowScatterDims N E F wf).sKept from
    (by decide : (0 : Fin 2) ∉ (List.finRange 2).filter (fun a => a ∉ [(0 : Fin 2)])))]

/-- The feature axis is the window: the update's own feature. -/
theorem rowScatter_window1 : (rowScatterDims N E F wf).window (ix2 e f) (1 : Fin 2) = f.val := by
  unfold ScatterDims.window
  rw [dif_pos (show (1 : Fin 2) ∈ (rowScatterDims N E F wf).sKept from
    (by decide : (1 : Fin 2) ∈ (List.finRange 2).filter (fun a => a ∉ [(0 : Fin 2)])))]
  rfl

/-- WHERE AN UPDATE LANDS: update `(e, f)` lands on `(r, g)` exactly when the edge's index, read signed, is `r`
    and `f = g`; an index outside `[0, N)` lands nowhere. -/
theorem rowScatter_lands (r : Fin N) (g : Fin F) :
    (rowScatterDims N E F wf).resultIdx? (ix2 e f) idx = some (ix2 r g)
      ↔ (idx (ix2 e (0 : Fin 1))).toInt = (r.val : ℤ) ∧ f = g := by
  have h0 := r.isLt
  have h1 := g.isLt
  have hf := f.isLt
  unfold ScatterDims.resultIdx?
  split
  · rename_i h
    rw [Option.some.injEq]
    constructor
    · intro hi
      have e0 : ((rowScatterDims N E F wf).start (ix2 e f) idx (0 : Fin 2)
          + ((rowScatterDims N E F wf).window (ix2 e f) (0 : Fin 2) : ℤ)).toNat = r.val :=
        congrArg (fun j : (⟨2, ![N, F]⟩ : Shape).Idx => (j 0).val) hi
      have e1 : ((rowScatterDims N E F wf).start (ix2 e f) idx (1 : Fin 2)
          + ((rowScatterDims N E F wf).window (ix2 e f) (1 : Fin 2) : ℤ)).toNat = g.val :=
        congrArg (fun j : (⟨2, ![N, F]⟩ : Shape).Idx => (j 1).val) hi
      have k0 := (h (0 : Fin 2)).1
      rw [rowScatter_start0, rowScatter_window0] at e0 k0
      rw [rowScatter_start1, rowScatter_window1] at e1
      exact ⟨by omega, Fin.ext (by omega)⟩
    · rintro ⟨g0, g1⟩
      funext a
      refine Fin.ext ?_
      match a with
      | ⟨0, _⟩ =>
        show ((rowScatterDims N E F wf).start (ix2 e f) idx (0 : Fin 2) + ((rowScatterDims N E F wf).window (ix2 e f) (0 : Fin 2) : ℤ)).toNat = r.val
        rw [rowScatter_start0, rowScatter_window0]; omega
      | ⟨1, _⟩ =>
        show ((rowScatterDims N E F wf).start (ix2 e f) idx (1 : Fin 2) + ((rowScatterDims N E F wf).window (ix2 e f) (1 : Fin 2) : ℤ)).toNat = g.val
        rw [rowScatter_start1, rowScatter_window1, g1]; omega
  · rename_i h
    constructor
    · intro hi; exact absurd hi (by simp)
    · rintro ⟨g0, g1⟩
      exfalso; apply h
      intro a
      match a with
      | ⟨0, _⟩ =>
        show 0 ≤ (rowScatterDims N E F wf).start (ix2 e f) idx (0 : Fin 2) + ((rowScatterDims N E F wf).window (ix2 e f) (0 : Fin 2) : ℤ)
          ∧ (rowScatterDims N E F wf).start (ix2 e f) idx (0 : Fin 2) + ((rowScatterDims N E F wf).window (ix2 e f) (0 : Fin 2) : ℤ) < (N : ℤ)
        rw [rowScatter_start0, rowScatter_window0]; omega
      | ⟨1, _⟩ =>
        show 0 ≤ (rowScatterDims N E F wf).start (ix2 e f) idx (1 : Fin 2) + ((rowScatterDims N E F wf).window (ix2 e f) (1 : Fin 2) : ℤ)
          ∧ (rowScatterDims N E F wf).start (ix2 e f) idx (1 : Fin 2) + ((rowScatterDims N E F wf).window (ix2 e f) (1 : Fin 2) : ℤ) < (F : ℤ)
        rw [rowScatter_start1, rowScatter_window1]; omega

/-- THE ACCUMULATING ROW SCATTER AT `(r, g)`: the operand's element plus the updates `upd[e, g]` of the edges whose
    index is `r`. -/
theorem rowScatterAdd_apply (x : (⟨2, ![N, F]⟩ : Shape).Idx → EReal) (upd : (⟨2, ![E, F]⟩ : Shape).Idx → EReal)
    (r : Fin N) (g : Fin F) :
    Ideal.hostScatterAdd (rowScatterDims N E F wf) x idx upd (ix2 r g)
      = x (ix2 r g) + ∑ e : Fin E, if (idx (ix2 e (0 : Fin 1))).toInt = (r.val : ℤ) then upd (ix2 e g) else 0 := by
  unfold Ideal.hostScatterAdd
  congr 1
  rw [Finset.sum_filter, sum_idx2]
  refine Finset.sum_congr rfl fun e _ => ?_
  simp only [rowScatter_lands]
  by_cases hP : (idx (ix2 e (0 : Fin 1))).toInt = (r.val : ℤ)
  · simp only [hP, true_and, if_true]
    rw [Finset.sum_ite_eq' Finset.univ g (fun f => upd (ix2 e f))]
    exact if_pos (Finset.mem_univ _)
  · simp only [hP, false_and, if_false]
    exact Finset.sum_const_zero

end Scatter

/-! ## Accumulating scatter into a flat array -/

section VecScatter

/-- A rank-1 index set is its one coordinate range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of `segment_sum` into a flat array `[N]` from updates `[E]` by an index column `[E, 1]`. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)
  (idx : IVec ⟨2, ![E, 1]⟩ w) (e : Fin E)

/-- An update starts at its edge's index, read signed. -/
theorem vecScatter_start0 : (vecScatterDims N E wf).start (ix1 e) idx (0 : Fin 1) = (idx (ix2 e (0 : Fin 1))).toInt := by
  unfold ScatterDims.start
  rw [dif_pos (show (0 : Fin 1) ∈ (vecScatterDims N E wf).scatterDimsToOperandDims from List.mem_singleton.mpr rfl)]
  have hsi : (vecScatterDims N E wf).siIdx (ix1 e) ⟨List.idxOf (0 : Fin 1) (vecScatterDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- There is no window axis. -/
theorem vecScatter_window0 : (vecScatterDims N E wf).window (ix1 e) (0 : Fin 1) = 0 := by
  unfold ScatterDims.window
  rw [dif_neg (show (0 : Fin 1) ∉ (vecScatterDims N E wf).sKept from
    (by decide : (0 : Fin 1) ∉ (List.finRange 1).filter (fun a => a ∉ [(0 : Fin 1)])))]

/-- WHERE AN UPDATE LANDS: update `e` lands on `r` exactly when the edge's index, read signed, is `r`. -/
theorem vecScatter_lands (r : Fin N) :
    (vecScatterDims N E wf).resultIdx? (ix1 e) idx = some (ix1 r) ↔ (idx (ix2 e (0 : Fin 1))).toInt = (r.val : ℤ) := by
  have h0 := r.isLt
  unfold ScatterDims.resultIdx?
  split
  · rename_i h
    rw [Option.some.injEq]
    constructor
    · intro hi
      have e0 : ((vecScatterDims N E wf).start (ix1 e) idx (0 : Fin 1)
          + ((vecScatterDims N E wf).window (ix1 e) (0 : Fin 1) : ℤ)).toNat = r.val :=
        congrArg (fun j : (⟨1, ![N]⟩ : Shape).Idx => (j 0).val) hi
      have k0 := (h (0 : Fin 1)).1
      rw [vecScatter_start0, vecScatter_window0] at e0 k0
      omega
    · intro g0
      funext a
      refine Fin.ext ?_
      match a with
      | ⟨0, _⟩ =>
        show ((vecScatterDims N E wf).start (ix1 e) idx (0 : Fin 1) + ((vecScatterDims N E wf).window (ix1 e) (0 : Fin 1) : ℤ)).toNat = r.val
        rw [vecScatter_start0, vecScatter_window0]; omega
  · rename_i h
    constructor
    · intro hi; exact absurd hi (by simp)
    · intro g0
      exfalso; apply h
      intro a
      match a with
      | ⟨0, _⟩ =>
        show 0 ≤ (vecScatterDims N E wf).start (ix1 e) idx (0 : Fin 1) + ((vecScatterDims N E wf).window (ix1 e) (0 : Fin 1) : ℤ)
          ∧ (vecScatterDims N E wf).start (ix1 e) idx (0 : Fin 1) + ((vecScatterDims N E wf).window (ix1 e) (0 : Fin 1) : ℤ) < (N : ℤ)
        rw [vecScatter_start0, vecScatter_window0]; omega

/-- THE ACCUMULATING FLAT SCATTER AT `r`: the operand's element plus the updates of the edges whose index is `r`. -/
theorem vecScatterAdd_apply (x : (⟨1, ![N]⟩ : Shape).Idx → EReal) (upd : (⟨1, ![E]⟩ : Shape).Idx → EReal) (r : Fin N) :
    Ideal.hostScatterAdd (vecScatterDims N E wf) x idx upd (ix1 r)
      = x (ix1 r) + ∑ e : Fin E, if (idx (ix2 e (0 : Fin 1))).toInt = (r.val : ℤ) then upd (ix1 e) else 0 := by
  unfold Ideal.hostScatterAdd
  congr 1
  rw [Finset.sum_filter, sum_idx1]
  refine Finset.sum_congr rfl fun e _ => ?_
  simp only [vecScatter_lands]

end VecScatter

/-! ## The same four reads, stated for the host operations at a program's own record of dimension numbers

A program names its dimension numbers by a definition; `hd` identifies that record with the one above (by `rfl`), and the
statement is then about the host operation as the program prints it, so that it rewrites without unfolding anything. -/

section Host

theorem rowGather_host {α : Type} {N E F w : Nat} (hN : 0 < N)
    (d : GatherDims ⟨2, ![N, F]⟩ ⟨2, ![E, 1]⟩ ⟨2, ![E, F]⟩)
    (wf : GatherDims.WF ⟨2, ![N, F]⟩ ⟨2, ![E, 1]⟩ ⟨2, ![E, F]⟩ [1] [0] [] [0] [] 1 ![1, F]) (hd : d = rowGatherDims N E F wf)
    (x : (⟨2, ![N, F]⟩ : Shape).Idx → α) (idx : IVec ⟨2, ![E, 1]⟩ w) (e : Fin E) (f : Fin F) :
    Host.gather d x idx (ix2 e f) = x (ix2 (clampRow hN (idx (ix2 e (0 : Fin 1)))) f) := by
  subst hd; exact rowGather_apply hN wf x idx e f

theorem vecGather_host {α : Type} {N E w : Nat} (hN : 0 < N)
    (d : GatherDims ⟨1, ![N]⟩ ⟨2, ![E, 1]⟩ ⟨1, ![E]⟩)
    (wf : GatherDims.WF ⟨1, ![N]⟩ ⟨2, ![E, 1]⟩ ⟨1, ![E]⟩ [] [0] [] [0] [] 1 ![1]) (hd : d = vecGatherDims N E wf)
    (x : (⟨1, ![N]⟩ : Shape).Idx → α) (idx : IVec ⟨2, ![E, 1]⟩ w) (e : Fin E) :
    Host.gather d x idx (ix1 e) = x (ix1 (clampRow hN (idx (ix2 e (0 : Fin 1))))) := by
  subst hd; exact vecGather_apply hN wf x idx e

theorem rowScatterAdd_host {N E F w : Nat} {φ : FTy}
    (d : ScatterDims ⟨2, ![N, F]⟩ ⟨2, ![E, 1]⟩ ⟨2, ![E, F]⟩)
    (wf : ScatterDims.WF ⟨2, ![N, F]⟩ ⟨2, ![E, 1]⟩ ⟨2, ![E, F]⟩ [1] [0] [0] 1) (hd : d = rowScatterDims N E F wf)
    (x : FVec Ideal ⟨2, ![N, F]⟩ φ) (idx : IVec ⟨2, ![E, 1]⟩ w) (upd : FVec Ideal ⟨2, ![E, F]⟩ φ) (r : Fin N) (g : Fin F) :
    Host.scatterAdd d x idx upd (ix2 r g)
      = x (ix2 r g) + ∑ e : Fin E, if (idx (ix2 e (0 : Fin 1))).toInt = (r.val : ℤ) then upd (ix2 e g) else 0 := by
  subst hd
  unfold Host.scatterAdd
  rw [Ideal.hostScatterAdd_def]
  exact rowScatterAdd_apply wf idx x upd r g

theorem vecScatterAdd_host {N E w : Nat} {φ : FTy}
    (d : ScatterDims ⟨1, ![N]⟩ ⟨2, ![E, 1]⟩ ⟨1, ![E]⟩)
    (wf : ScatterDims.WF ⟨1, ![N]⟩ ⟨2, ![E, 1]⟩ ⟨1, ![E]⟩ [] [0] [0] 1) (hd : d = vecScatterDims N E wf)
    (x : FVec Ideal ⟨1, ![N]⟩ φ) (idx : IVec ⟨2, ![E, 1]⟩ w) (upd : FVec Ideal ⟨1, ![E]⟩ φ) (r : Fin N) :
    Host.scatterAdd d x idx upd (ix1 r)
      = x (ix1 r) + ∑ e : Fin E, if (idx (ix2 e (0 : Fin 1))).toInt = (r.val : ℤ) then upd (ix1 e) else 0 := by
  subst hd
  unfold Host.scatterAdd
  rw [Ideal.hostScatterAdd_def]
  exact vecScatterAdd_apply wf idx x upd r

end Host

end Cert.Gcn

end
-- ==== Proof.LibLayoutReads.lean ====
/-
  Small reads at an index, for the layout operations around a gather and a scatter, and the two facts about
  32-bit index words that the aggregation needs.

  * A flat array broadcast to a column, a scalar broadcast to any shape, a column repeated along the features, a
    bias `[F]` repeated for every node (through `[1, F]`), and the reshapes `[F] → [1, F]`, `[N] → [N, 1]`:
    each read at an index is the operand at the evident index.
  * `x[idx]` wraps a negative index by the table's length once before the gather clamps it. An index word whose
    signed value is a row `c` of the table is read back as `c`: it is not negative, so it is not wrapped, and it is
    inside the table, so the clamp leaves it. The word of a small natural number `i` has signed value `i`.
-/
import Idealize.ShloMosaic.Lib.Pipeline.Value
import Idealize.ShloMosaic.Lib.ValueIdx
import proofs.«102811_j48352741819110_1_alg».proof.Proof.LibRowIndexing

noncomputable section

namespace Cert.Gcn

open Idealize.ShloMosaic Idealize.ShloMosaic.ValueIdx

section Layout
variable {α : Type}

/-- A scalar broadcast holds the scalar everywhere. -/
theorem bcastScalar_apply {t : Shape} (h : (⟨0, ![]⟩ : Shape).BroadcastsInDim t ![]) (x : (⟨0, ![]⟩ : Shape).Idx → α)
    (j : t.Idx) : broadcastInDim t ![] h x j = x ix0 :=
  broadcastInDim_apply _ h x j ix0 (fun a => a.elim0)

/-- A flat array as a column: entry `e` of the column is entry `e` of the array. -/
theorem bcastCol_apply {E : ℕ} (hE : E ≠ 1) (h : (⟨1, ![E]⟩ : Shape).BroadcastsInDim ⟨2, ![E, 1]⟩ ![0])
    (x : (⟨1, ![E]⟩ : Shape).Idx → α) (e : Fin E) :
    broadcastInDim ⟨2, ![E, 1]⟩ ![0] h x (ix2 e (0 : Fin 1)) = x (ix1 e) :=
  broadcastInDim_apply _ h x _ (ix1 e) (fun a => match a with
    | ⟨0, _⟩ => by show e.val = if E = 1 then 0 else e.val; rw [if_neg hE])

/-- A column repeated along the features: entry `(e, g)` is the column's entry `e`. -/
theorem bcastAlong_apply {E F : ℕ} (hE : E ≠ 1) (h : (⟨2, ![E, 1]⟩ : Shape).BroadcastsInDim ⟨2, ![E, F]⟩ ![0, 1])
    (x : (⟨2, ![E, 1]⟩ : Shape).Idx → α) (e : Fin E) (g : Fin F) :
    broadcastInDim ⟨2, ![E, F]⟩ ![0, 1] h x (ix2 e g) = x (ix2 e (0 : Fin 1)) :=
  broadcastInDim_apply _ h x _ (ix2 e (0 : Fin 1)) (fun a => match a with
    | ⟨0, _⟩ => by show e.val = if E = 1 then 0 else e.val; rw [if_neg hE]
    | ⟨1, _⟩ => by show 0 = if (1 : ℕ) = 1 then 0 else g.val; rw [if_pos rfl])

/-- A bias `[F]` as a row `[1, F]` repeated for every node: entry `(c, g)` is `b g`. -/
theorem bcastBias_apply {N F : ℕ} (hF : F ≠ 1) (h1 : (⟨1, ![F]⟩ : Shape).BroadcastsInDim ⟨2, ![1, F]⟩ ![1])
    (h2 : (⟨2, ![1, F]⟩ : Shape).BroadcastsInDim ⟨2, ![N, F]⟩ ![0, 1]) (b : (⟨1, ![F]⟩ : Shape).Idx → α) (c : Fin N) (g : Fin F) :
    broadcastInDim ⟨2, ![N, F]⟩ ![0, 1] h2 (broadcastInDim ⟨2, ![1, F]⟩ ![1] h1 b) (ix2 c g) = b (ix1 g) := by
  rw [broadcastInDim_apply _ h2 _ _ (ix2 (0 : Fin 1) g) (fun a => match a with
    | ⟨0, _⟩ => by show 0 = if (1 : ℕ) = 1 then 0 else c.val; rw [if_pos rfl]
    | ⟨1, _⟩ => by show g.val = if F = 1 then 0 else g.val; rw [if_neg hF])]
  exact broadcastInDim_apply _ h1 b _ (ix1 g) (fun a => match a with
    | ⟨0, _⟩ => by show g.val = if F = 1 then 0 else g.val; rw [if_neg hF])

/-- The reshape `[F] → [1, F]`. -/
theorem reshapeRow_apply {F : ℕ} (h : (⟨1, ![F]⟩ : Shape).ShapeCasts ⟨2, ![1, F]⟩) (b : (⟨1, ![F]⟩ : Shape).Idx → α) (g : Fin F) :
    shapeCast ⟨2, ![1, F]⟩ b h (ix2 (0 : Fin 1) g) = b (ix1 g) :=
  shapeCast_apply b h _ (ix1 g) (by
    rw [Shape.rowMajor_val_two, Shape.rowMajor_val_one]; show g.val = 0 * F + g.val; omega)

/-- The reshape `[N] → [N, 1]`. -/
theorem reshapeCol_apply {N : ℕ} (h : (⟨1, ![N]⟩ : Shape).ShapeCasts ⟨2, ![N, 1]⟩) (v : (⟨1, ![N]⟩ : Shape).Idx → α) (r : Fin N) :
    shapeCast ⟨2, ![N, 1]⟩ v h (ix2 r (0 : Fin 1)) = v (ix1 r) :=
  shapeCast_apply v h _ (ix1 r) (by
    rw [Shape.rowMajor_val_two, Shape.rowMajor_val_one]; show r.val = r.val * 1 + 0; omega)

end Layout

/-! ## Index words -/

/-- How `x[idx]` prepares an index word for a table of length `n`: a negative one is wrapped by `n` once. -/
def wrapIdx (n v : BitVec 32) : BitVec 32 := Scalar.select (IntOp.cmpi .slt v 0#32) (IntOp.addi v n) v

/-- A word that is not negative is not wrapped. -/
theorem wrapIdx_of_nonneg (n v : BitVec 32) (h : 0 ≤ v.toInt) : wrapIdx n v = v := by
  unfold wrapIdx IntOp.cmpi
  have hs : v.slt 0#32 = false := by
    rw [BitVec.slt]; simp only [BitVec.toInt_zero]; exact decide_eq_false (by omega)
  simp only [hs, BitVec.ofBool_false]
  exact if_neg (by decide)

/-- A word whose signed value is a row `c` of the table is read back as `c`. -/
theorem clampRow_wrapIdx_of_toInt {N : ℕ} (hN : 0 < N) (n v : BitVec 32) (c : Fin N) (h : v.toInt = (c.val : ℤ)) :
    clampRow hN (wrapIdx n v) = c := by
  rw [wrapIdx_of_nonneg n v (by omega)]
  refine Fin.ext ?_
  show min v.toInt.toNat (N - 1) = c.val
  have := c.isLt
  omega

/-- The word of a natural number below `2 ^ 31` has that number as its signed value. -/
theorem toInt_ofNat_small (i : ℕ) (h : i < 2147483648) : (BitVec.ofNat 32 i).toInt = (i : ℤ) := by
  rw [BitVec.toInt_eq_toNat_cond, BitVec.toNat_ofNat]
  have hm : i % 2 ^ 32 = i := Nat.mod_eq_of_lt (by omega)
  rw [hm]
  split <;> omega

/-- So the word of a row `i` is read back as `i`. -/
theorem clampRow_wrapIdx_ofNat {N : ℕ} (hN : 0 < N) (hN' : N ≤ 2147483648) (n : BitVec 32) (i : Fin N) :
    clampRow hN (wrapIdx n (BitVec.ofNat 32 i.val)) = i :=
  clampRow_wrapIdx_of_toInt hN n _ i (toInt_ofNat_small i.val (by have := i.isLt; omega))

end Cert.Gcn

end
-- ==== Proof.EdgeMaps.lean ====
/-
  The edge list read as maps between edges and nodes, and the gather and the segment sum read through them.

  An edge `e` has two index words. `nodeOf v e` is the node a gather of a 300000-row table reads for the word `v e`: the
  word wrapped once by 300000 if negative, then clamped into the table. `landAt v e r` says the word, read signed and
  neither wrapped nor clamped, is `r`: the row a segment sum adds edge `e`'s update to (a word outside the table
  lands nowhere). A word that lands at `r` is also gathered at `r`. The four reads below are a row gather, a flat
  gather, a segment sum of rows from zero and a segment sum of a constant from zero, at the shapes of this graph.
-/
import proofs.«102811_j48352741819110_1_alg».proof.Proof.LibRowIndexing
import proofs.«102811_j48352741819110_1_alg».proof.Proof.LibLayoutReads
import Idealize.ShloMosaic.PureOps.Ideal.Laws

noncomputable section

namespace Cert.Propagation

open Idealize.ShloMosaic Idealize.ShloMosaic.ValueIdx Cert.Gcn

/-- Edge `e`'s update is added into row `r`. -/
def landAt (v : (⟨1, ![600000]⟩ : Shape).Idx → BitVec 32) (e : Fin 600000) (r : Fin 300000) : Prop :=
  (v (ix1 e)).toInt = (r.val : ℤ)

instance (v : (⟨1, ![600000]⟩ : Shape).Idx → BitVec 32) (e : Fin 600000) (r : Fin 300000) : Decidable (landAt v e r) := by
  unfold landAt; infer_instance

/-- The row a gather reads for edge `e`. -/
def nodeOf (v : (⟨1, ![600000]⟩ : Shape).Idx → BitVec 32) (e : Fin 600000) : Fin 300000 :=
  clampRow (by norm_num) (wrapIdx 300000#32 (v (ix1 e)))

/-- An edge that lands at `r` is gathered at `r`. -/
theorem nodeOf_of_land (v : (⟨1, ![600000]⟩ : Shape).Idx → BitVec 32) (e : Fin 600000) (r : Fin 300000)
    (h : landAt v e r) : nodeOf v e = r :=
  clampRow_wrapIdx_of_toInt _ _ _ r h

section Reads

variable (h0 : (⟨0, ![]⟩ : Shape).BroadcastsInDim ⟨1, ![600000]⟩ ![])
  (h1 : (⟨1, ![600000]⟩ : Shape).BroadcastsInDim ⟨2, ![600000, 1]⟩ ![0])

/-- The column of start indices at edge `e`: the wrapped word. -/
theorem wrapCol_apply (v : IVec ⟨1, ![600000]⟩ 32) (e : Fin 600000) :
    broadcastInDim ⟨2, ![600000, 1]⟩ ![0] h1
        (select (cmpi .slt v (broadcastInDim ⟨1, ![600000]⟩ ![] h0 (constantI ⟨0, ![]⟩ 32 0#32)))
          (addi v (broadcastInDim ⟨1, ![600000]⟩ ![] h0 (constantI ⟨0, ![]⟩ 32 300000#32))) v) (ix2 e (0 : Fin 1))
      = wrapIdx 300000#32 (v (ix1 e)) := by
  rw [bcastCol_apply (by norm_num) h1]
  show Scalar.select (IntOp.cmpi .slt (v (ix1 e)) (broadcastInDim ⟨1, ![600000]⟩ ![] h0 (constantI ⟨0, ![]⟩ 32 0#32) (ix1 e)))
      (IntOp.addi (v (ix1 e)) (broadcastInDim ⟨1, ![600000]⟩ ![] h0 (constantI ⟨0, ![]⟩ 32 300000#32) (ix1 e))) (v (ix1 e)) = _
  rw [bcastScalar_apply h0, bcastScalar_apply h0]
  rfl

/-- A row gather at the wrapped source indices reads the row of the edge's node. -/
theorem gatherRows_apply {α : Type} (gd : GatherDims ⟨2, ![300000, 128]⟩ ⟨2, ![600000, 1]⟩ ⟨2, ![600000, 128]⟩)
    (wf : GatherDims.WF ⟨2, ![300000, 128]⟩ ⟨2, ![600000, 1]⟩ ⟨2, ![600000, 128]⟩ [1] [0] [] [0] [] 1 ![1, 128])
    (hd : gd = rowGatherDims 300000 600000 128 wf) (x : (⟨2, ![300000, 128]⟩ : Shape).Idx → α)
    (v : IVec ⟨1, ![600000]⟩ 32) (e : Fin 600000) (g : Fin 128) :
    Host.gather gd x (broadcastInDim ⟨2, ![600000, 1]⟩ ![0] h1
        (select (cmpi .slt v (broadcastInDim ⟨1, ![600000]⟩ ![] h0 (constantI ⟨0, ![]⟩ 32 0#32)))
          (addi v (broadcastInDim ⟨1, ![600000]⟩ ![] h0 (constantI ⟨0, ![]⟩ 32 300000#32))) v)) (ix2 e g)
      = x (ix2 (nodeOf v e) g) := by
  rw [rowGather_host (by norm_num) gd wf hd, wrapCol_apply h0 h1]
  rfl

/-- A flat gather at the wrapped indices reads the entry of the edge's node. -/
theorem gatherFlat_apply {α : Type} (gd : GatherDims ⟨1, ![300000]⟩ ⟨2, ![600000, 1]⟩ ⟨1, ![600000]⟩)
    (wf : GatherDims.WF ⟨1, ![300000]⟩ ⟨2, ![600000, 1]⟩ ⟨1, ![600000]⟩ [] [0] [] [0] [] 1 ![1])
    (hd : gd = vecGatherDims 300000 600000 wf) (x : (⟨1, ![300000]⟩ : Shape).Idx → α)
    (v : IVec ⟨1, ![600000]⟩ 32) (e : Fin 600000) :
    Host.gather gd x (broadcastInDim ⟨2, ![600000, 1]⟩ ![0] h1
        (select (cmpi .slt v (broadcastInDim ⟨1, ![600000]⟩ ![] h0 (constantI ⟨0, ![]⟩ 32 0#32)))
          (addi v (broadcastInDim ⟨1, ![600000]⟩ ![] h0 (constantI ⟨0, ![]⟩ 32 300000#32))) v)) (ix1 e)
      = x (ix1 (nodeOf v e)) := by
  rw [vecGather_host (by norm_num) gd wf hd, wrapCol_apply h0 h1]
  rfl

/-- A segment sum of rows, from zero, at `(r, g)`: the updates of the edges landing at `r`. -/
theorem segSumRows_apply (sd : ScatterDims ⟨2, ![300000, 128]⟩ ⟨2, ![600000, 1]⟩ ⟨2, ![600000, 128]⟩)
    (wf : ScatterDims.WF ⟨2, ![300000, 128]⟩ ⟨2, ![600000, 1]⟩ ⟨2, ![600000, 128]⟩ [1] [0] [0] 1)
    (hd : sd = rowScatterDims 300000 600000 128 wf)
    (hz : (⟨0, ![]⟩ : Shape).BroadcastsInDim ⟨2, ![300000, 128]⟩ ![])
    (v : IVec ⟨1, ![600000]⟩ 32) (upd : FVec Ideal ⟨2, ![600000, 128]⟩ .f32) (r : Fin 300000) (g : Fin 128) :
    Host.scatterAdd sd (broadcastInDim ⟨2, ![300000, 128]⟩ ![] hz (constant (F := Ideal) ⟨0, ![]⟩ .f32 0x00000000#32))
        (broadcastInDim ⟨2, ![600000, 1]⟩ ![0] h1 v) upd (ix2 r g)
      = 0 + ∑ e : Fin 600000, if landAt v e r then upd (ix2 e g) else 0 := by
  rw [rowScatterAdd_host sd wf hd, bcastScalar_apply hz]
  refine congrArg₂ (· + ·) ?_ (Finset.sum_congr rfl fun e _ => ?_)
  · show Ideal.ofBits .f32 0x00000000#32 = 0
    exact Ideal.ofBits_zero_f32
  · rw [bcastCol_apply (by norm_num) h1]
    rfl

/-- A segment sum of one constant, from zero, at `r`: the constant once per edge landing at `r`. -/
theorem segSumConst_apply (sd : ScatterDims ⟨1, ![300000]⟩ ⟨2, ![600000, 1]⟩ ⟨1, ![600000]⟩)
    (wf : ScatterDims.WF ⟨1, ![300000]⟩ ⟨2, ![600000, 1]⟩ ⟨1, ![600000]⟩ [] [0] [0] 1)
    (hd : sd = vecScatterDims 300000 600000 wf)
    (hz : (⟨0, ![]⟩ : Shape).BroadcastsInDim ⟨1, ![300000]⟩ ![])
    (v : IVec ⟨1, ![600000]⟩ 32) (w : BitVec 32) (r : Fin 300000) :
    Host.scatterAdd sd (broadcastInDim ⟨1, ![300000]⟩ ![] hz (constant (F := Ideal) ⟨0, ![]⟩ .f32 0x00000000#32))
        (broadcastInDim ⟨2, ![600000, 1]⟩ ![0] h1 v)
        (broadcastInDim ⟨1, ![600000]⟩ ![] h0 (constant (F := Ideal) ⟨0, ![]⟩ .f32 w)) (ix1 r)
      = 0 + ∑ e : Fin 600000, if landAt v e r then Ideal.ofBits .f32 w else 0 := by
  rw [vecScatterAdd_host sd wf hd, bcastScalar_apply hz]
  refine congrArg₂ (· + ·) ?_ (Finset.sum_congr rfl fun e _ => ?_)
  · show Ideal.ofBits .f32 0x00000000#32 = 0
    exact Ideal.ofBits_zero_f32
  · rw [bcastCol_apply (by norm_num) h1, bcastScalar_apply h0]
    rfl

end Reads

end Cert.Propagation

end
-- ==== Proof.LibEdgeSumLaw.lean ====
/-
  The algebra that joins the two programs.

  One propagation layer sends node features `x` to `r ↦ Σ_{edges e landing at r} x(s e) · d(s e) · d(r)`, where `s e` is the
  edge's source node, `d` a fixed real weight per node, and "landing at r" an arbitrary decidable relation. One program
  multiplies by `d(s e)` before the sum and by `d(r)` after it; the other multiplies each term by `d(s e) · d(t e)`, `t e` a
  node that IS `r` whenever the edge lands at `r`. On real numbers these are one function (the sum is finite and
  multiplication distributes over it); on the extended reals that needs the entries to be real, which is why both
  forms are first shown to be the image of the same real-valued function.

  The pooled result: `((x₀ + x₁) + x₂ + x₃) / 4` against `((x₀·1 + x₁·1)·1 + x₂·1)·¼ + x₃·¼`.
-/
import Idealize.ShloMosaic.PureOps.Ideal
import Idealize.ShloMosaic.PureOps.Ideal.Laws

noncomputable section

namespace Cert.Propagation

open Idealize.ShloMosaic

/-- The image of a finite real sum is the sum of the images. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

section Layer

variable {ε ν : Type} [Fintype ε] (land : ε → ν → Prop) [∀ e r, Decidable (land e r)] (s t : ε → ν)

/-- Scale by the source's weight, sum over the landing edges (from zero), scale by the target's weight. -/
def scaledSum (d x : ν → EReal) (r : ν) : EReal :=
  (0 + ∑ e, if land e r then x (s e) * d (s e) else 0) * d r

/-- Sum over the landing edges (from zero) of the source's feature times the edge's weight `d(s e) · d(t e)`. -/
def weightedSum (d x : ν → EReal) (r : ν) : EReal :=
  0 + ∑ e, if land e r then x (s e) * (d (s e) * d (t e)) else 0

/-- The layer on real numbers. -/
def realLayer (d x : ν → ℝ) (r : ν) : ℝ := ∑ e, if land e r then x (s e) * d (s e) * d r else 0

theorem scaledSum_coe (d x : ν → ℝ) (r : ν) :
    scaledSum land s (fun n => (d n : EReal)) (fun n => (x n : EReal)) r = ((realLayer land s d x r : ℝ) : EReal) := by
  unfold scaledSum realLayer
  have h : ∀ e, (if land e r then ((x (s e) : ℝ) : EReal) * ((d (s e) : ℝ) : EReal) else 0)
      = (((if land e r then x (s e) * d (s e) else 0 : ℝ)) : EReal) := by
    intro e
    by_cases hl : land e r
    · rw [if_pos hl, if_pos hl, EReal.coe_mul]
    · rw [if_neg hl, if_neg hl, EReal.coe_zero]
  rw [Finset.sum_congr rfl (fun e _ => h e), ← coe_sum, zero_add, ← EReal.coe_mul, Finset.sum_mul]
  refine congrArg _ (Finset.sum_congr rfl fun e _ => ?_)
  by_cases hl : land e r
  · rw [if_pos hl, if_pos hl]
  · rw [if_neg hl, if_neg hl, zero_mul]

theorem weightedSum_coe (hland : ∀ e r, land e r → t e = r) (d x : ν → ℝ) (r : ν) :
    weightedSum land s t (fun n => (d n : EReal)) (fun n => (x n : EReal)) r = ((realLayer land s d x r : ℝ) : EReal) := by
  unfold weightedSum realLayer
  have h : ∀ e, (if land e r then ((x (s e) : ℝ) : EReal) * (((d (s e) : ℝ) : EReal) * ((d (t e) : ℝ) : EReal)) else 0)
      = (((if land e r then x (s e) * d (s e) * d r else 0 : ℝ)) : EReal) := by
    intro e
    by_cases hl : land e r
    · rw [if_pos hl, if_pos hl, hland e r hl, ← EReal.coe_mul, ← EReal.coe_mul, mul_assoc]
    · rw [if_neg hl, if_neg hl, EReal.coe_zero]
  rw [Finset.sum_congr rfl (fun e _ => h e), ← coe_sum, zero_add]

end Layer

/-! ## The pooled result -/

/-- The mean of four real layers, accumulated with the scale folded into the last step, is their sum over four. -/
theorem pooled (a b c e : ℝ) :
    (((a : EReal) * ((1 : ℝ) : EReal) + (b : EReal) * ((1 : ℝ) : EReal)) * ((1 : ℝ) : EReal) + (c : EReal) * ((1 : ℝ) : EReal)) * ((1 / 4 : ℝ) : EReal)
        + (e : EReal) * ((1 / 4 : ℝ) : EReal)
      = Ideal.div ((((a : EReal) + (b : EReal)) + (c : EReal)) + (e : EReal)) ((4 : ℝ) : EReal) := by
  rw [Ideal.div_coe (by norm_num : (4 : ℝ) ≠ 0)]
  simp only [← EReal.coe_mul, ← EReal.coe_add]
  refine congrArg _ ?_
  ring

/-! ## The literals -/

theorem ofBits_one : Ideal.ofBits .f32 0x3F800000#32 = ((1 : ℝ) : EReal) := by
  simp [Ideal.ofBits, Ideal.ieee, -EReal.coe_mul]; norm_num

theorem ofBits_quarter : Ideal.ofBits .f32 0x3E800000#32 = ((1 / 4 : ℝ) : EReal) := by
  simp [Ideal.ofBits, Ideal.ieee, -EReal.coe_mul]; norm_num

theorem ofBits_four : Ideal.ofBits .f32 0x40800000#32 = ((4 : ℝ) : EReal) := by
  simp [Ideal.ofBits, Ideal.ieee, -EReal.coe_mul]; norm_num

end Cert.Propagation

end
-- ==== Proof.KernelIndex.lean ====
/-
  The idealized kernel program's layer read at an entry, on the extended reals.

  Scaling the rows by the weight column, gathering them along the edges, summing them into the target rows and scaling
  again is, at row `r` and column `g`, the scaled edge sum of the column's features (`Propagation.scaledSum`). The weight
  of a node is a real number: its in-degree is a finite count, and where the degree is positive the reciprocal square
  root is taken of a positive real.
-/
import proofs.«102811_j48352741819110_1_alg».proof.Proof.KernelHost
import proofs.«102811_j48352741819110_1_alg».proof.Proof.BlocksCommon
import proofs.«102811_j48352741819110_1_alg».proof.Proof.EdgeMaps
import proofs.«102811_j48352741819110_1_alg».proof.Proof.LibEdgeSumLaw

noncomputable section

namespace Cert.KernelIdeal.Index

open Cert.KernelIdeal Cert.KernelIdeal.Gen Cert.KernelIdeal.Chain Cert.KernelIdeal.Blocks
open Cert.Propagation Cert.Gcn
open Idealize.ShloMosaic Idealize.ShloMosaic.ValueIdx

/-- The gather and segment sum between two regions, at an entry. -/
theorem hostLayer_apply (x : FVec Ideal S300000x128 .f32) (src dst : IVec S600000 32) (r : Fin 300000) (g : Fin 128) :
    hostLayer x src dst (ix2 r g) = 0 + ∑ e : Fin 600000, if landAt dst e r then x (ix2 (nodeOf src e) g) else 0 := by
  unfold hostLayer wrapCol
  rw [segSumRows_apply bcast_S600000_S600000x1_0 scatter_S300000x128_S600000x1_S600000x128_1_0_0_1
    scatter_S300000x128_S600000x1_S600000x128_1_0_0_1.wf rfl bcast_S_S300000x128]
  refine congrArg (0 + ·) (Finset.sum_congr rfl fun e _ => ?_)
  rw [gatherRows_apply bcast_S_S600000 bcast_S600000_S600000x1_0 gather_S300000x128_S600000x1_S600000x128_1_0_n_n_0_1_1128
    gather_S300000x128_S600000x1_S600000x128_1_0_n_n_0_1_1128.wf rfl]

theorem rowScale_apply (x : FVec Ideal S300000x128 .f32) (d : FVec Ideal S300000x1 .f32) (r : Fin 300000) (g : Fin 128) :
    rowScale (F := Ideal) x d (ix2 r g) = x (ix2 r g) * d (ix2 r (0 : Fin 1)) := rfl

theorem colOf_apply (d : FVec Ideal S300000 .f32) (r : Fin 300000) : colOf d (ix2 r (0 : Fin 1)) = d (ix1 r) :=
  reshapeCol_apply shapeCasts_S300000_S300000x1 d r

/-- One layer of the kernel program at an entry: the scaled edge sum. -/
theorem layer_apply (dinv : FVec Ideal S300000 .f32) (src dst : IVec S600000 32) (x : FVec Ideal S300000x128 .f32)
    (r : Fin 300000) (g : Fin 128) :
    rowScale (F := Ideal) (hostLayer (F := Ideal) (rowScale (F := Ideal) x (colOf dinv)) src dst) (colOf dinv) (ix2 r g)
      = scaledSum (landAt dst) (nodeOf src) (fun n => dinv (ix1 n)) (fun n => x (ix2 n g)) r := by
  rw [rowScale_apply, hostLayer_apply, colOf_apply]
  unfold scaledSum
  refine congrArg (· * dinv (ix1 r)) (congrArg (0 + ·) (Finset.sum_congr rfl fun e _ => ?_))
  rw [rowScale_apply, colOf_apply]

/-- The in-degree of a node is a real number. -/
theorem deg_real (dst : IVec S600000 32) (n : Fin 300000) : ∃ a : ℝ, degOf (F := Ideal) dst (ix1 n) = (a : EReal) := by
  unfold degOf
  rw [segSumConst_apply bcast_S_S600000 bcast_S600000_S600000x1_0 scatter_S300000_S600000x1_S600000_n_0_0_1
    scatter_S300000_S600000x1_S600000_n_0_0_1.wf rfl bcast_S_S300000, ofBits_one]
  refine ⟨∑ e : Fin 600000, if landAt dst e n then 1 else 0, ?_⟩
  rw [zero_add, coe_sum]
  refine Finset.sum_congr rfl fun e _ => ?_
  by_cases h : landAt dst e n
  · rw [if_pos h, if_pos h]
  · rw [if_neg h, if_neg h, EReal.coe_zero]

theorem eps_real : ∃ a : ℝ, Ideal.ofBits .f32 0x2B8CBCCC#32 = (a : EReal) := by
  simp [Ideal.ofBits, Ideal.ieee, -EReal.coe_mul]

theorem hostRsqrt_apply (v : FVec Ideal S300000 .f32) (i : S300000.Idx) : Host.rsqrt v i = Ideal.rsqrt (v i) := rfl

/-- The weight of a node is a real number. -/
theorem dinv_real (dst : IVec S600000 32) (n : Fin 300000) : ∃ a : ℝ, dinvOf (F := Ideal) dst (ix1 n) = (a : EReal) := by
  obtain ⟨a, ha⟩ := deg_real dst n
  obtain ⟨ε, hε⟩ := eps_real
  unfold dinvOf
  generalize degOf (F := Ideal) dst = dg at ha ⊢
  rw [select_apply, cmpf_apply, hostRsqrt_apply, maximumf_apply, bcastScalar_apply bcast_S_S300000,
    bcastScalar_apply bcast_S_S300000, bcastScalar_apply bcast_S_S300000, ha, Ideal.cmpf_def]
  have z : (constant (F := Ideal) S_ .f32 0x00000000#32) ix0 = (0 : EReal) := Ideal.ofBits_zero_f32
  have z' : id (constant (F := Ideal) S_ .f32 0x00000000#32) ix0 = (0 : EReal) := Ideal.ofBits_zero_f32
  have e' : (constant (F := Ideal) S_ .f32 0x2B8CBCCC#32) ix0 = (ε : EReal) := hε
  rw [z, z', e']
  by_cases hpos : (0 : EReal) < (a : EReal)
  · have hpos' : 0 < a := by exact_mod_cast hpos
    have hm : max (a : EReal) (ε : EReal) = ((max a ε : ℝ) : EReal) :=
      (Monotone.map_max (f := fun x : ℝ => (x : EReal)) (fun x y h => EReal.coe_le_coe_iff.mpr h)).symm
    have hmpos : 0 < max a ε := lt_max_of_lt_left hpos'
    have hc : Ideal.cmp .ogt (a : EReal) 0 = 1#1 := by
      show BitVec.ofBool (decide ((0 : EReal) < (a : EReal))) = 1#1
      rw [decide_eq_true hpos]; rfl
    rw [hc, select_one, hm, Ideal.rsqrt_coe, if_neg (not_lt.mpr hmpos.le), if_neg hmpos.ne']
    exact ⟨_, rfl⟩
  · have hc : Ideal.cmp .ogt (a : EReal) 0 = 0#1 := by
      show BitVec.ofBool (decide ((0 : EReal) < (a : EReal))) = 0#1
      rw [decide_eq_false hpos]; rfl
    rw [hc, select_zero]
    exact ⟨0, rfl⟩

end Cert.KernelIdeal.Index

end
-- ==== Proof.RefIndex.lean ====
/-
  The idealized reference program's layer read at an entry, on the extended reals: at row `r` and column `g` it is the
  weighted edge sum of the column's features (`Propagation.weightedSum`), each landing edge's source feature times the
  product of the weights gathered at the edge's two ends.
-/
import proofs.«102811_j48352741819110_1_alg».proof.Proof.RefValue
import proofs.«102811_j48352741819110_1_alg».proof.Proof.EdgeMaps
import proofs.«102811_j48352741819110_1_alg».proof.Proof.LibEdgeSumLaw

noncomputable section

namespace Cert.ReferenceIdeal.Index

open Cert.ReferenceIdeal Cert.ReferenceIdeal.Gen Cert.ReferenceIdeal.RefValue
open Cert.Propagation Cert.Gcn
open Idealize.ShloMosaic Idealize.ShloMosaic.ValueIdx

theorem refLayer_apply (src dst : IVec S600000 32) (x : FVec Ideal S300000x128 .f32) (r : Fin 300000) (g : Fin 128) :
    refLayer src dst x (ix2 r g)
      = weightedSum (landAt dst) (nodeOf src) (nodeOf dst) (fun n => dinvOf (F := Ideal) dst (ix1 n)) (fun n => x (ix2 n g)) r := by
  unfold refLayer wrapCol weightedSum
  generalize dinvOf (F := Ideal) dst = dv
  rw [segSumRows_apply bcast_S600000_S600000x1_0 scatter_S300000x128_S600000x1_S600000x128_1_0_0_1
    scatter_S300000x128_S600000x1_S600000x128_1_0_0_1.wf rfl bcast_S_S300000x128]
  refine congrArg (0 + ·) (Finset.sum_congr rfl fun e _ => ?_)
  by_cases hl : landAt dst e r
  · rw [if_pos hl, if_pos hl]
    rw [mulf_apply, gatherRows_apply bcast_S_S600000 bcast_S600000_S600000x1_0 gather_S300000x128_S600000x1_S600000x128_1_0_n_n_0_1_1128
        gather_S300000x128_S600000x1_S600000x128_1_0_n_n_0_1_1128.wf rfl,
      bcastAlong_apply (by norm_num) bcast_S600000x1_S600000x128_0_1, bcastCol_apply (by norm_num) bcast_S600000_S600000x1_0,
      mulf_apply,
      gatherFlat_apply bcast_S_S600000 bcast_S600000_S600000x1_0 gather_S300000_S600000x1_S600000_n_0_n_n_0_1_1
        gather_S300000_S600000x1_S600000_n_0_n_n_0_1_1.wf rfl,
      gatherFlat_apply bcast_S_S600000 bcast_S600000_S600000x1_0 gather_S300000_S600000x1_S600000_n_0_n_n_0_1_1
        gather_S300000_S600000x1_S600000_n_0_n_n_0_1_1.wf rfl]
  · rw [if_neg hl, if_neg hl]

end Cert.ReferenceIdeal.Index

end
-- ==== Proof.LibRealClosed.lean ====
/-
  Arrays of extended reals whose every entry is a real number, and the host operations that keep them so.

  On the extended reals the field laws fail at the infinities (a product distributes over a sum only off them), so a
  proof that rearranges sums of products first shows that every number in sight is real. The facts here do that
  without reading any array at an index: an entry of a matrix product is a finite sum of products of entries; an entry
  of a transposed, sliced, reshaped, broadcast or concatenated array is an entry of an operand; sums, differences,
  products and negatives of reals are real; and a quotient of reals is real when the divisor is not zero.
-/
import Idealize.ShloMosaic.PureOps.Ideal
import Idealize.ShloMosaic.PureOps.Ideal.Laws
import Idealize.ShloMosaic.Lib.ValueIdx

noncomputable section

open scoped BigOperators

namespace Cert.LibRealClosed

open Idealize.ShloMosaic

/-- An extended real that is a real number (neither infinity). -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.one : IsReal (1 : EReal) := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

/-- A finite sum of reals is real. -/
theorem IsReal.sum {ι : Type*} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact (h _ (Finset.mem_insert_self _ _)).add (ih fun i hi => h i (Finset.mem_insert_of_mem hi))

/-- The quotient of a real by a real other than zero is real: it is the product with the reciprocal. -/
theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h]; rfl)
  rw [Ideal.div_coe hb, ← EReal.coe_mul]
  exact ⟨_, rfl⟩

/-- A real is neither infinity; conversely an extended real strictly between the infinities is real. -/
theorem isReal_of_abs_lt_top {x : EReal} (h : max x (-x) < ⊤) : IsReal x := by
  induction x using EReal.rec with
  | bot => exact absurd h (by simp)
  | coe r => exact ⟨r, rfl⟩
  | top => exact absurd h (by simp)

/-- Every entry of the array is a real number. -/
def AllReal {S : Shape} {φ : FTy} (v : FVec Ideal S φ) : Prop := ∀ i, IsReal (v i)

variable {s t : Shape} {φ : FTy}

/-- An entry of a matrix product (any dimension numbers) is a finite sum of products of entries of the operands. -/
theorem AllReal.dotGeneral {sl sr so : Shape} {φ₁ φ₂ : FTy} (d : DotDims sl sr so) (p : Option ContractPrecision)
    {l : FVec Ideal sl φ₁} {r : FVec Ideal sr φ₂} (hl : AllReal l) (hr : AllReal r) :
    AllReal (Host.dotGeneral d p l r) := by
  intro j
  show IsReal (FloatOps.dotGeneral d p _ l r j)
  rw [Ideal.dotGeneral_apply]
  exact IsReal.sum _ _ fun k _ => (hl _).mul (hr _)

theorem AllReal.transpose (perm : List (Fin s.rank)) {x : FVec Ideal s φ} (h : s.Transposes perm t) (hx : AllReal x) :
    AllReal (φ := φ) (transpose t perm x h) := fun _ => hx _

theorem AllReal.slice (off : Fin s.rank → Nat) {x : FVec Ideal s φ} (h : s.Slices off t) (hx : AllReal x) :
    AllReal (φ := φ) (extractStridedSlice t off x h) := fun _ => hx _

theorem AllReal.shapeCast {x : FVec Ideal s φ} (h : s.ShapeCasts t) (hx : AllReal x) :
    AllReal (φ := φ) (shapeCast t x h) := fun _ => hx _

theorem AllReal.broadcastInDim (dims : Fin s.rank → Fin t.rank) (h : s.BroadcastsInDim t dims) {x : FVec Ideal s φ}
    (hx : AllReal x) : AllReal (φ := φ) (broadcastInDim t dims h x) := fun _ => hx _

/-- An entry of arrays joined along an axis is an entry of one of them. -/
theorem AllReal.concatenate (a : Fin t.rank) (xs : List ((s : Shape) × (s.Idx → Ideal φ)))
    (h : Shape.Concatenates (xs.map (·.1)) t a) (hx : ∀ p ∈ xs, ∀ i, IsReal (p.2 i)) :
    AllReal (φ := φ) (concatenate t a xs h) := by
  intro j
  unfold Idealize.ShloMosaic.concatenate
  exact hx _ (List.getElem_mem _) _

theorem AllReal.addf {x y : FVec Ideal s φ} (hx : AllReal x) (hy : AllReal y) : AllReal (addf x y) :=
  fun i => (hx i).add (hy i)

theorem AllReal.subf {x y : FVec Ideal s φ} (hx : AllReal x) (hy : AllReal y) : AllReal (subf x y) :=
  fun i => (hx i).sub (hy i)

theorem AllReal.mulf {x y : FVec Ideal s φ} (hx : AllReal x) (hy : AllReal y) : AllReal (mulf x y) :=
  fun i => (hx i).mul (hy i)

theorem AllReal.hostNegf {x : FVec Ideal s φ} (hx : AllReal x) : AllReal (Host.negf x) :=
  fun i => (hx i).neg

/-- The quotient of two arrays of reals is an array of reals when no divisor is zero. -/
theorem AllReal.hostDivf {x y : FVec Ideal s φ} (hx : AllReal x) (hy : AllReal y) (h0 : ∀ i, y i ≠ 0) :
    AllReal (Host.divf x y) :=
  fun i => (hx i).div (hy i) (h0 i)

end Cert.LibRealClosed

end
-- ==== Proof.Bridge.lean ====
/-
  The two idealized programs compute one array.

  Both start from the same stacked features, the same two index arrays and the same node weights (the programs spell
  these with the same operations). On features that are real numbers, one layer of the kernel program and one layer of
  the reference are the image of the same real-valued layer (`Propagation.scaledSum_coe`, `weightedSum_coe`), so this
  holds again of the next layer, three times over; and the kernel program's running total, with the factor one quarter
  folded into its last step, is the reference's sum of the four arrays divided by four (`Propagation.pooled`).
-/
import proofs.«102811_j48352741819110_1_alg».proof.Proof.KernelChain
import proofs.«102811_j48352741819110_1_alg».proof.Proof.KernelIndex
import proofs.«102811_j48352741819110_1_alg».proof.Proof.RefValue
import proofs.«102811_j48352741819110_1_alg».proof.Proof.RefIndex
import proofs.«102811_j48352741819110_1_alg».proof.Proof.LibRealClosed
import Idealize.ShloMosaic.Lib.IdealHost

noncomputable section

namespace Cert.Bridge

open Cert.Propagation Cert.Gcn
open Idealize.ShloMosaic Idealize.ShloMosaic.ValueIdx

section Layers

variable (src dst : IVec Cert.KernelIdeal.S600000 32) (d' : Fin 300000 → ℝ)
  (hd' : ∀ n, Cert.KernelIdeal.Chain.dinvOf (F := Ideal) dst (ix1 n) = ((d' n : ℝ) : EReal))

include hd' in
/-- One layer of the kernel program on real features is the image of the real layer. -/
theorem kstep (x : FVec Ideal Cert.KernelIdeal.S300000x128 .f32) (x' : Fin 300000 → Fin 128 → ℝ)
    (hx : ∀ r g, x (ix2 r g) = ((x' r g : ℝ) : EReal)) (r : Fin 300000) (g : Fin 128) :
    Cert.KernelIdeal.Blocks.rowScale (F := Ideal) (Cert.KernelIdeal.Chain.hostLayer (F := Ideal) (Cert.KernelIdeal.Blocks.rowScale (F := Ideal) x (Cert.KernelIdeal.Chain.colOf (Cert.KernelIdeal.Chain.dinvOf (F := Ideal) dst))) src dst)
        (Cert.KernelIdeal.Chain.colOf (Cert.KernelIdeal.Chain.dinvOf (F := Ideal) dst)) (ix2 r g)
      = ((realLayer (landAt dst) (nodeOf src) d' (fun n => x' n g) r : ℝ) : EReal) := by
  rw [Cert.KernelIdeal.Index.layer_apply, ← scaledSum_coe]
  refine congrArg₂ (fun a b => scaledSum (landAt dst) (nodeOf src) a b r) (funext fun n => hd' n) (funext fun n => hx n g)

include hd' in
/-- One layer of the reference on real features is the image of the same real layer. -/
theorem rstep (x : FVec Ideal Cert.ReferenceIdeal.S300000x128 .f32) (x' : Fin 300000 → Fin 128 → ℝ)
    (hx : ∀ r g, x (ix2 r g) = ((x' r g : ℝ) : EReal)) (r : Fin 300000) (g : Fin 128) :
    Cert.ReferenceIdeal.RefValue.refLayer (F := Ideal) src dst x (ix2 r g)
      = ((realLayer (landAt dst) (nodeOf src) d' (fun n => x' n g) r : ℝ) : EReal) := by
  rw [Cert.ReferenceIdeal.Index.refLayer_apply, ← weightedSum_coe (landAt dst) (nodeOf src) (nodeOf dst) (nodeOf_of_land dst)]
  refine congrArg₂ (fun a b => weightedSum (landAt dst) (nodeOf src) (nodeOf dst) a b r) (funext fun n => ?_) (funext fun n => hx n g)
  exact (hd' n)

end Layers

theorem combine_apply (s : Ideal .f32) (acc u : FVec Ideal Cert.KernelIdeal.S300000x128 .f32)
    (d : FVec Ideal Cert.KernelIdeal.S300000x1 .f32) (i : Cert.KernelIdeal.S300000x128.Idx) :
    Cert.KernelIdeal.Blocks.combine (F := Ideal) s acc u d i = acc i * s + Cert.KernelIdeal.Blocks.rowScale (F := Ideal) u d i * s := rfl

/-- The kernel program's running total is the reference's pooled sum, when the features are real numbers. -/
theorem acc_eq (a0 : IVec Cert.KernelIdeal.S2x600000 32) (a1 : FVec Ideal Cert.KernelIdeal.S100000x128 .f32)
    (a2 : FVec Ideal Cert.KernelIdeal.S200000x128 .f32)
    (h1 : ∀ i, ∃ r : ℝ, a1 i = (r : EReal)) (h2 : ∀ i, ∃ r : ℝ, a2 i = (r : EReal)) :
    Cert.KernelIdeal.Chain.kernelAcc (F := Ideal) (Cert.KernelIdeal.Chain.x0Of a1 a2) (Cert.KernelIdeal.Chain.colOf (Cert.KernelIdeal.Chain.dinvOf (F := Ideal) (Cert.KernelIdeal.Chain.dstOf a0))) (Cert.KernelIdeal.Chain.srcOf a0) (Cert.KernelIdeal.Chain.dstOf a0)
      = Cert.ReferenceIdeal.RefValue.refAcc (F := Ideal) a0 a1 a2 := by
  -- the shared pieces
  have es : Cert.ReferenceIdeal.RefValue.srcOf a0 = Cert.KernelIdeal.Chain.srcOf a0 := rfl
  have ed : Cert.ReferenceIdeal.RefValue.dstOf a0 = Cert.KernelIdeal.Chain.dstOf a0 := rfl
  have ex : Cert.ReferenceIdeal.RefValue.x0Of (F := Ideal) a1 a2 = Cert.KernelIdeal.Chain.x0Of a1 a2 := rfl
  have hX : ∀ i, ∃ r : ℝ, Cert.KernelIdeal.Chain.x0Of (F := Ideal) a1 a2 i = (r : EReal) :=
    Cert.LibRealClosed.AllReal.concatenate (φ := .f32) 0 [⟨Cert.KernelIdeal.S100000x128, a1⟩, ⟨Cert.KernelIdeal.S200000x128, a2⟩] _ (by
      intro p hp
      simp only [List.mem_cons, List.mem_nil_iff, or_false] at hp
      rcases hp with rfl | rfl
      · exact h1
      · exact h2)
  unfold Cert.ReferenceIdeal.RefValue.refAcc
  rw [es, ed, ex]
  generalize Cert.KernelIdeal.Chain.srcOf a0 = src
  generalize Cert.KernelIdeal.Chain.dstOf a0 = dst
  generalize Cert.KernelIdeal.Chain.x0Of (F := Ideal) a1 a2 = X at hX ⊢
  have edv : ∀ n, Cert.ReferenceIdeal.RefValue.dinvOf (F := Ideal) dst (ix1 n) = Cert.KernelIdeal.Chain.dinvOf (F := Ideal) dst (ix1 n) := fun n => rfl
  choose d' hd' using Cert.KernelIdeal.Index.dinv_real dst
  choose x' hx' using fun (r : Fin 300000) (g : Fin 128) => hX (ix2 r g)
  have K1 := kstep src dst d' hd' X x' hx'
  have K2 := kstep src dst d' hd' _ _ K1
  have K3 := kstep src dst d' hd' _ _ K2
  have R1 := rstep src dst d' hd' X x' hx'
  have R2 := rstep src dst d' hd' _ _ R1
  have R3 := rstep src dst d' hd' _ _ R2
  funext i
  obtain ⟨r, g, rfl⟩ : ∃ (r : Fin 300000) (g : Fin 128), i = ix2 r g := ⟨i 0, i 1, eq_ix2 i⟩
  unfold Cert.KernelIdeal.Chain.kernelAcc
  rw [combine_apply, combine_apply, combine_apply, K3, K2, K1, hx']
  rw [hostDivf_apply, addf_apply, addf_apply, addf_apply, R3, R2, R1, hx',
    bcastScalar_apply Cert.ReferenceIdeal.Gen.bcast_S_S300000x128]
  show _ = Ideal.div _ (Ideal.ofBits .f32 0x40800000#32)
  rw [ofBits_four]
  show ((((x' r g : ℝ) : EReal) * Ideal.ofBits .f32 0x3F800000#32 + _ * Ideal.ofBits .f32 0x3F800000#32) * Ideal.ofBits .f32 0x3F800000#32
      + _ * Ideal.ofBits .f32 0x3F800000#32) * Ideal.ofBits .f32 0x3E800000#32 + _ * Ideal.ofBits .f32 0x3E800000#32 = _
  rw [ofBits_one, ofBits_quarter]
  exact pooled _ _ _ _

end Cert.Bridge

end
-- ==== Proof.LibFiniteInputs.lean ====
/-
  Finite inputs are real numbers.

  A certificate's usual precondition says of each float argument x that all(|x| < +∞). It prints as a reduction by
  "and", over every axis and from the constant 1, of the comparison of |x| with a broadcast of the word 0x7F800000. On
  the extended reals |x| is max x (-x), that word is ⊤, and the comparison is the linear order's: so when the reduction
  is 1 at its one index, every entry x has max x (-x) < ⊤, which excludes x = ⊤ directly and x = ⊥ through -⊥ = ⊤, and
  what is left is a real number. Generic in the argument's shape and in the axes of the reduction.
-/
import Idealize.ShloMosaic.Lib.ReduceAll
import Idealize.ShloMosaic.Lib.ValueIdx
import Idealize.ShloMosaic.Lib.IdealHost
import Idealize.ShloMosaic.PureOps.Ideal
import Idealize.ShloMosaic.PureOps.Ideal.Laws

noncomputable section

open Idealize.ShloMosaic Idealize.ShloMosaic.ValueIdx

namespace Cert.LibFiniteInputs

/-- The rank-0 shape has one index. -/
instance : Subsingleton (⟨0, ![]⟩ : Shape).Idx := ⟨fun a b => funext fun d => d.elim0⟩

/-- The word 0x7F800000 read as an f32 is +∞. -/
theorem ofBits_inf_f32 : Ideal.ofBits .f32 0x7F800000#32 = ⊤ := by simp [Ideal.ofBits, Ideal.ieee]

/-- An extended real whose absolute value max x (-x) is below ⊤ is a real number. -/
theorem real_of_abs_lt_top (x : EReal) (h : max x (-x) < ⊤) : ∃ r : ℝ, x = (r : EReal) := by
  induction x using EReal.rec with
  | bot => simp at h
  | top => simp at h
  | coe r => exact ⟨r, rfl⟩

/-- One argument's part of the precondition: if all(|x| < +∞), printed as the reduce by and over all axes of the
    comparison of |x| with the broadcast +∞ word, is 1 at the one index, every entry of x is a real number. -/
theorem real_of_all_finite {S : Shape} {axes : List (Fin S.rank)} (x : FVec Ideal S .f32)
    (hb : (⟨0, ![]⟩ : Shape).BroadcastsInDim S (![] : Fin 0 → Fin S.rank)) (hr : S.ReducesTo axes ⟨0, ![]⟩)
    (hu : 0 < (⟨0, ![]⟩ : Shape).numel)
    (h : Host.reduce IntOp.andi
          (cmpf .olt (Host.absf x) (broadcastInDim S ![] hb (constant (⟨0, ![]⟩ : Shape) .f32 0x7F800000#32)))
          (constantI (⟨0, ![]⟩ : Shape) 1 1#1) hr hu ix0 = 1#1) :
    ∀ i, ∃ r : ℝ, x i = (r : EReal) := by
  intro i
  have e := Host.reduce_andi_all _ _ hr hu ix0 h i
  have e' : Ideal.cmp .olt (max (x i) (-(x i))) ⊤ = 1#1 := by
    rw [← ofBits_inf_f32]; exact e
  refine real_of_abs_lt_top (x i) ?_
  simp only [Ideal.cmp] at e'
  by_contra hc
  simp [hc] at e'

end Cert.LibFiniteInputs

end
-- ==== Proof.Finite.lean ====
/-
  The precondition read back: every entry of the two feature arrays is a real number.

  The precondition is the conjunction, over the two float arguments, of "all(|x| < +∞)"; each half, being one at the one
  index of the rank-0 result, makes every entry of its argument a real number.
-/
import proofs.«102811_j48352741819110_1_alg».proof.Pre_finite_inputs
import proofs.«102811_j48352741819110_1_alg».proof.Proof.LibFiniteInputs
import Idealize.ShloMosaic.Lib.Affine

noncomputable section

namespace Cert.Finite

open Idealize.ShloMosaic Idealize.ShloMosaic.ValueIdx Cert.Pre_finite_inputs Cert.LibFiniteInputs

theorem args_real [hF : Cert.Pre_finite_inputs.Facts] (a0 : IVec S2x600000 32) (a1 : FVec Ideal S100000x128 .f32)
    (a2 : FVec Ideal S200000x128 .f32) (h : Cert.Pre_finite_inputs.fn (F := Ideal) a0 a1 a2 = fun _ => 1#1) :
    (∀ i, ∃ r : ℝ, a1 i = (r : EReal)) ∧ (∀ i, ∃ r : ℝ, a2 i = (r : EReal)) := by
  have h0 := congrFun h ix0
  dsimp only [Cert.Pre_finite_inputs.fn] at h0
  obtain ⟨h1, h2⟩ := IntOp.andi_eq_one.mp h0
  exact ⟨real_of_all_finite a1 Facts.bcast_S_S100000x128 Facts.reducesTo_S100000x128_S_d0_1 Facts.h_S_ h1,
    real_of_all_finite a2 Facts.bcast_S_S200000x128 Facts.reducesTo_S200000x128_S_d0_1 Facts.h_S_ h2⟩

end Cert.Finite

end
-- ==== Proof.lean ====
/-
  The certificate: a three-layer neighbourhood aggregation with layer-mean pooling, as six pipelined regions among
  host gathers and segment sums, against its plain reference.

  Both idealized programs stack the two feature tables into `x₀`, compute the in-degree of every node and the weight
  `d = 1/sqrt(max(deg, ε))` where the degree is positive (zero elsewhere), and apply three times the layer
  `x ↦ (r ↦ Σ_{edges e landing at r} x(src e) · d(src e) · d(r))`. The kernel program multiplies the rows by `d` before the
  gather and again after the segment sum; the reference multiplies every gathered row by `d(src e) · d(dst e)`, and an
  edge that lands at `r` has `dst e = r`. The results are `((x₀·1 + x₁·1)·1 + x₂·1)·¼ + x₃·¼` and `(x₀ + x₁ + x₂ + x₃)/4`.
  Moving a factor across a sum is a law of the real numbers, not of the extended reals, so the precondition is used:
  finite features are real, the weights are real, and then every layer is real.

  The three frames: the two kernel programs' are their generated frame certificates; the reference's is its run with the
  results dropped. The idealization rewrote nothing, so `preserves` is trivial.
-/
import proofs.«102811_j48352741819110_1_alg».proof.Defs
import proofs.«102811_j48352741819110_1_alg».proof.Proof.Gen.Kernel
import proofs.«102811_j48352741819110_1_alg».proof.Proof.Gen.Kernel.Skeleton
import proofs.«102811_j48352741819110_1_alg».proof.Proof.Gen.Kernel.Launch
import proofs.«102811_j48352741819110_1_alg».proof.Proof.Gen.Kernel.Points
import proofs.«102811_j48352741819110_1_alg».proof.Proof.Gen.Kernel.Frame
import proofs.«102811_j48352741819110_1_alg».proof.Proof.Gen.KernelIdeal
import proofs.«102811_j48352741819110_1_alg».proof.Proof.Gen.KernelIdeal.Skeleton
import proofs.«102811_j48352741819110_1_alg».proof.Proof.Gen.KernelIdeal.Launch
import proofs.«102811_j48352741819110_1_alg».proof.Proof.Gen.KernelIdeal.Points
import proofs.«102811_j48352741819110_1_alg».proof.Proof.Gen.KernelIdeal.Frame
import proofs.«102811_j48352741819110_1_alg».proof.Proof.Gen.ReferenceIdeal
import proofs.«102811_j48352741819110_1_alg».proof.Proof.Gen.Pre_finite_inputs
import proofs.«102811_j48352741819110_1_alg».proof.Proof.KernelRun
import proofs.«102811_j48352741819110_1_alg».proof.Proof.KernelChain
import proofs.«102811_j48352741819110_1_alg».proof.Proof.RefRun
import proofs.«102811_j48352741819110_1_alg».proof.Proof.RefValue
import proofs.«102811_j48352741819110_1_alg».proof.Proof.Bridge
import proofs.«102811_j48352741819110_1_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.ValueP.run (F := Ideal) m ρ)

/-- Both idealized programs end with the two row ranges of one array: the kernel program's running total, which is
    the reference's pooled sum because the features are finite. -/
theorem algebraic : Cert.algebraic_KernelIdeal_ReferenceIdeal := by
  intro m ρ m' ρ' hpre hagree
  refine ⟨fun c => Cert.KernelIdeal.Chain.usersOf (Cert.KernelIdeal.Chain.kernelAcc (F := Ideal)
        (Cert.KernelIdeal.Chain.x0Of (m ((c.tc : Thread Cert.KernelIdeal.nD Cert.KernelIdeal.τ).loc Cert.KernelIdeal.main_arg1))
          (m ((c.tc : Thread Cert.KernelIdeal.nD Cert.KernelIdeal.τ).loc Cert.KernelIdeal.main_arg2)))
        (Cert.KernelIdeal.Chain.colOf (Cert.KernelIdeal.Chain.dinvOf (Cert.KernelIdeal.Chain.dstOf
          (m ((c.tc : Thread Cert.KernelIdeal.nD Cert.KernelIdeal.τ).loc Cert.KernelIdeal.main_arg0)))))
        (Cert.KernelIdeal.Chain.srcOf (m ((c.tc : Thread Cert.KernelIdeal.nD Cert.KernelIdeal.τ).loc Cert.KernelIdeal.main_arg0)))
        (Cert.KernelIdeal.Chain.dstOf (m ((c.tc : Thread Cert.KernelIdeal.nD Cert.KernelIdeal.τ).loc Cert.KernelIdeal.main_arg0)))),
    fun c => Cert.KernelIdeal.Chain.itemsOf (Cert.KernelIdeal.Chain.kernelAcc (F := Ideal)
        (Cert.KernelIdeal.Chain.x0Of (m ((c.tc : Thread Cert.KernelIdeal.nD Cert.KernelIdeal.τ).loc Cert.KernelIdeal.main_arg1))
          (m ((c.tc : Thread Cert.KernelIdeal.nD Cert.KernelIdeal.τ).loc Cert.KernelIdeal.main_arg2)))
        (Cert.KernelIdeal.Chain.colOf (Cert.KernelIdeal.Chain.dinvOf (Cert.KernelIdeal.Chain.dstOf
          (m ((c.tc : Thread Cert.KernelIdeal.nD Cert.KernelIdeal.τ).loc Cert.KernelIdeal.main_arg0)))))
        (Cert.KernelIdeal.Chain.srcOf (m ((c.tc : Thread Cert.KernelIdeal.nD Cert.KernelIdeal.τ).loc Cert.KernelIdeal.main_arg0)))
        (Cert.KernelIdeal.Chain.dstOf (m ((c.tc : Thread Cert.KernelIdeal.nD Cert.KernelIdeal.τ).loc Cert.KernelIdeal.main_arg0)))),
    ?_, ?_⟩
  · refine (θ_run Cert.KernelIdeal.defs _ _).mono (fun r h c => ?_) (Cert.KernelIdeal.RunV.run (F := Ideal) m ρ)
    obtain ⟨h52, h53, h0, h1, h2⟩ := h c
    exact ⟨h52.trans (Cert.KernelIdeal.Chain.users_eq m ρ c), h53.trans (Cert.KernelIdeal.Chain.items_eq m ρ c), h0, h1, h2⟩
  · refine (θ_run Cert.ReferenceIdeal.defs _ _).mono (fun r h c => ?_) (Cert.ReferenceIdeal.ValueP.run (F := Ideal) m' ρ')
    obtain ⟨h124, h125, h0, h1, h2⟩ := h c
    have hr := Cert.Finite.args_real _ _ _ (hpre c)
    refine ⟨h124.trans ?_, h125.trans ?_, h0, h1, h2⟩
    · rw [Cert.ReferenceIdeal.RefValue.users_eq, (hagree c).1, (hagree c).2.1, (hagree c).2.2,
        ← Cert.Bridge.acc_eq _ _ _ hr.1 hr.2]
      rfl
    · rw [Cert.ReferenceIdeal.RefValue.items_eq, (hagree c).1, (hagree c).2.1, (hagree c).2.2,
        ← Cert.Bridge.acc_eq _ _ _ hr.1 hr.2]
      rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
